-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S1x2 : Shape := ⟨2, ![1, 2]⟩
abbrev S512x64 : Shape := ⟨2, ![512, 64]⟩
abbrev S1x1 : Shape := ⟨2, ![1, 1]⟩
abbrev S512 : Shape := ⟨1, ![512]⟩
abbrev S512x1 : Shape := ⟨2, ![512, 1]⟩
abbrev S64x512 : Shape := ⟨2, ![64, 512]⟩
abbrev S512x512 : Shape := ⟨2, ![512, 512]⟩
abbrev S1x512 : Shape := ⟨2, ![1, 512]⟩
abbrev S1x512x512 : Shape := ⟨3, ![1, 512, 512]⟩
abbrev S1 : Shape := ⟨1, ![1]⟩
abbrev S1x1x1 : Shape := ⟨3, ![1, 1, 1]⟩
abbrev S_ : Shape := ⟨0, ![]⟩

abbrev nBuf : Space → Nat
  | .hbm => 31
  | .vmem => 21
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S1x2, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S1x2, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x2, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S1x2, .f32⟩
  | .local _ .vmem, ⟨5, _⟩ => ⟨S1x1, .f32⟩
  | .local _ .vmem, ⟨6, _⟩ => ⟨S1x1, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S1x2, .f32⟩
  | .local _ .vmem, ⟨12, _⟩ => ⟨S1x1, .f32⟩
  | .local _ .vmem, ⟨13, _⟩ => ⟨S1x1, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S1x2, .f32⟩
  | .local _ .vmem, ⟨19, _⟩ => ⟨S1x1, .f32⟩
  | .local _ .vmem, ⟨20, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_scratch0 : Ref sig .tc := ⟨.vmem, 19, rfl⟩
abbrev cc2_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg0 : BitVec 32 := BitVec.ofNat 32 (i 0).val
  let c15_i32 : BitVec 32 := 15#32
  let v42 : BitVec 1 := Scalar.cmpi .eq arg0 c15_i32
  let arg1 : BitVec 32 := BitVec.ofNat 32 (i 1).val
  let c15_i32_17 : BitVec 32 := 15#32
  let v43 : BitVec 1 := Scalar.cmpi .eq arg1 c15_i32_17
  let v44 : BitVec 1 := Scalar.andi v42 v43
  let v45 : BitVec 32 := Scalar.extui v44
  let c0_i32_18 : BitVec 32 := 0#32
  let v46 : BitVec 1 := Scalar.cmpi .ne v45 c0_i32_18
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![16, 16], ![false, false]⟩

def k1_cond3 (i : grid1.Coords) : BitVec 1 :=
  let arg0 : BitVec 32 := BitVec.ofNat 32 (i 0).val
  let c15_i32 : BitVec 32 := 15#32
  let v42 : BitVec 1 := Scalar.cmpi .eq arg0 c15_i32
  let arg1 : BitVec 32 := BitVec.ofNat 32 (i 1).val
  let c15_i32_17 : BitVec 32 := 15#32
  let v43 : BitVec 1 := Scalar.cmpi .eq arg1 c15_i32_17
  let v44 : BitVec 1 := Scalar.andi v42 v43
  let v45 : BitVec 32 := Scalar.extui v44
  let c0_i32_18 : BitVec 32 := 0#32
  let v46 : BitVec 1 := Scalar.cmpi .ne v45 c0_i32_18
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![16, 16], ![false, false]⟩

def k2_cond2 (i : grid2.Coords) : BitVec 1 :=
  let arg0 : BitVec 32 := BitVec.ofNat 32 (i 0).val
  let c15_i32 : BitVec 32 := 15#32
  let v39 : BitVec 1 := Scalar.cmpi .eq arg0 c15_i32
  let arg1 : BitVec 32 := BitVec.ofNat 32 (i 1).val
  let c15_i32_16 : BitVec 32 := 15#32
  let v40 : BitVec 1 := Scalar.cmpi .eq arg1 c15_i32_16
  let v41 : BitVec 1 := Scalar.andi v39 v40
  let v42 : BitVec 32 := Scalar.extui v41
  let c0_i32_17 : BitVec 32 := 0#32
  let v43 : BitVec 1 := Scalar.cmpi .ne v42 c0_i32_17
  v43

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x64_S512x64_0_0 : ∀ a, (![0, 0] : Fin 2 → Nat) a + S512x64.size a ≤ S512x64.size a
  h_S512x64 : 0 < S512x64.numel
  reduces_S512x64_S512 : S512x64.Reduces [1] S512
  shapeCasts_S512_S512x1 : S512.ShapeCasts S512x1
  transposes_S512x64_p1_0_S64x512 : S512x64.Transposes [1, 0] S64x512
  transposes_S512x1_p1_0_S1x512 : S512x1.Transposes [1, 0] S1x512
  broadcasts_S512x1_S512x512 : S512x1.Broadcasts S512x512
  broadcasts_S1x512_S512x512 : S1x512.Broadcasts S512x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  iota_S512x512_d0_w32 : S512x512.Iotas .tc 32 [0]
  iota_S512x512_d1_w32 : S512x512.Iotas .tc 32 [1]
  concatenates_S1x1_S1x1_S1x2_d1 : Shape.Concatenates [S1x1, S1x1] S1x2 1
  inb_S1x2_S1x2_0_0 : ∀ a, (![0, 0] : Fin 2 → Nat) a + S1x2.size a ≤ S1x2.size a
  h_S1x2 : 0 < S1x2.numel
  slices_S1x2_S1x1_0_0 : S1x2.Slices ![0, 0] S1x1
  shapeCasts_S1x1_S_ : S1x1.ShapeCasts S_
  slices_S1x2_S1x1_0_1 : S1x2.Slices ![0, 1] S1x1
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .f32 = 32 ∨ (Rect.block (s := S8192x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S8192x64.size a
  hwx0_1 : ∀ i : grid0.Coords, EltTy.bits .f32 = 32 ∨ (Rect.block (s := S8192x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S8192x64.size a
  hwx1_0 : ∀ i : grid1.Coords, EltTy.bits .f32 = 32 ∨ (Rect.block (s := S8192x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S8192x64.size a
  hwx1_1 : ∀ i : grid1.Coords, EltTy.bits .f32 = 32 ∨ (Rect.block (s := S8192x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2.size a ≤ S1x2.size a
  hwx1_2 : ∀ i : grid1.Coords, EltTy.bits .f32 = 32 ∨ (Rect.block (s := S1x2) S1x2.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S8192x64.size a
  hwx2_0 : ∀ i : grid2.Coords, EltTy.bits .f32 = 32 ∨ (Rect.block (s := S8192x64) S512x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S8192x64.size a
  hwx2_1 : ∀ i : grid2.Coords, EltTy.bits .f32 = 32 ∨ (Rect.block (s := S8192x64) S512x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

abbrev win1_0 : Pipeline.Window sig grid1 :=
  Pipeline.Window.ofSpec (Memref.whole main_arg1) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

abbrev win2_0 : Pipeline.Window sig grid2 :=
  Pipeline.Window.ofSpec (Memref.whole main_arg0) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S512x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x2.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 119
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S64x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x64, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x64, .f32⟩
  | .hbm, ⟨32, _⟩ => ⟨S_, .f32⟩
  | .hbm, ⟨33, _⟩ => ⟨S8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S64x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S8192x64, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x64, .f32⟩
  | .hbm, ⟨57, _⟩ => ⟨S_, .f32⟩
  | .hbm, ⟨58, _⟩ => ⟨S8192, .f32⟩
  | .hbm, ⟨59, _⟩ => ⟨S1x8192, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S64x8192, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S_, .f32⟩
  | .hbm, ⟨79, _⟩ => ⟨S8192x8192, .i32⟩
  | .hbm, ⟨80, _⟩ => ⟨S8192x8192, .i32⟩
  | .hbm, ⟨81, _⟩ => ⟨S_, .i32⟩
  | .hbm, ⟨82, _⟩ => ⟨S8192x8192, .i32⟩
  | .hbm, ⟨83, _⟩ => ⟨S8192x8192, .i32⟩
  | .hbm, ⟨84, _⟩ => ⟨S8192x8192, .i1⟩
  | .hbm, ⟨85, _⟩ => ⟨S_, .f32⟩
  | .hbm, ⟨86, _⟩ => ⟨S8192x8192, .f32⟩
  | .hbm, ⟨87, _⟩ => ⟨S8192x8192, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S8192x8192, .i32⟩
  | .hbm, ⟨96, _⟩ => ⟨S8192x8192, .i32⟩
  | .hbm, ⟨97, _⟩ => ⟨S_, .i32⟩
  | .hbm, ⟨98, _⟩ => ⟨S8192x8192, .i32⟩
  | .hbm, ⟨99, _⟩ => ⟨S8192x8192, .i32⟩
  | .hbm, ⟨100, _⟩ => ⟨S8192x8192, .i1⟩
  | .hbm, ⟨101, _⟩ => ⟨S_, .f32⟩
  | .hbm, ⟨102, _⟩ => ⟨S8192x8192, .f32⟩
  | .hbm, ⟨103, _⟩ => ⟨S8192x8192, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_9 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_12 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_13 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_14 : Ref sig .tc := ⟨.hbm, 77, rfl⟩
abbrev main_v60 : Ref sig .tc := ⟨.hbm, 78, rfl⟩
abbrev main_call0_v0 : Ref sig .tc := ⟨.hbm, 79, rfl⟩
abbrev main_call0_v1 : Ref sig .tc := ⟨.hbm, 80, rfl⟩
abbrev main_call0_c : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_cst : Ref sig .tc := ⟨.hbm, 85, rfl⟩
abbrev main_call0_v5 : Ref sig .tc := ⟨.hbm, 86, rfl⟩
abbrev main_call0_v6 : Ref sig .tc := ⟨.hbm, 87, rfl⟩
abbrev main_call0_cst_0 : Ref sig .tc := ⟨.hbm, 88, rfl⟩
abbrev main_v61 : Ref sig .tc := ⟨.hbm, 89, rfl⟩
abbrev main_v62 : Ref sig .tc := ⟨.hbm, 90, rfl⟩
abbrev main_cst_15 : Ref sig .tc := ⟨.hbm, 91, rfl⟩
abbrev main_v63 : Ref sig .tc := ⟨.hbm, 92, rfl⟩
abbrev main_cst_16 : Ref sig .tc := ⟨.hbm, 93, rfl⟩
abbrev main_v64 : Ref sig .tc := ⟨.hbm, 94, rfl⟩
abbrev main_call1_v0 : Ref sig .tc := ⟨.hbm, 95, rfl⟩
abbrev main_call1_v1 : Ref sig .tc := ⟨.hbm, 96, rfl⟩
abbrev main_call1_c : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_cst : Ref sig .tc := ⟨.hbm, 101, rfl⟩
abbrev main_call1_v5 : Ref sig .tc := ⟨.hbm, 102, rfl⟩
abbrev main_call1_v6 : Ref sig .tc := ⟨.hbm, 103, rfl⟩
abbrev main_call1_cst_0 : Ref sig .tc := ⟨.hbm, 104, rfl⟩
abbrev main_v65 : Ref sig .tc := ⟨.hbm, 105, rfl⟩
abbrev main_v66 : Ref sig .tc := ⟨.hbm, 106, rfl⟩
abbrev main_cst_17 : Ref sig .tc := ⟨.hbm, 107, rfl⟩
abbrev main_v67 : Ref sig .tc := ⟨.hbm, 108, rfl⟩
abbrev main_v68 : Ref sig .tc := ⟨.hbm, 109, rfl⟩
abbrev main_cst_18 : Ref sig .tc := ⟨.hbm, 110, rfl⟩
abbrev main_v69 : Ref sig .tc := ⟨.hbm, 111, rfl⟩
abbrev main_cst_19 : Ref sig .tc := ⟨.hbm, 112, rfl⟩
abbrev main_v70 : Ref sig .tc := ⟨.hbm, 113, rfl⟩
abbrev main_cst_20 : Ref sig .tc := ⟨.hbm, 114, rfl⟩
abbrev main_v71 : Ref sig .tc := ⟨.hbm, 115, rfl⟩
abbrev main_v72 : Ref sig .tc := ⟨.hbm, 116, rfl⟩
abbrev main_cst_21 : Ref sig .tc := ⟨.hbm, 117, rfl⟩
abbrev main_v73 : Ref sig .tc := ⟨.hbm, 118, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.BCommon.lean ====
import proofs.«119468_j3521873183096_1_alg».proof.Proof.Gen.Kernel.Launch
import proofs.«119468_j3521873183096_1_alg».proof.Proof.Gen.Kernel.Skeleton
import proofs.«119468_j3521873183096_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Small facts every body case uses: the zero offsets of the whole-buffer accesses, and that a list of stores whose
    last one goes through the whole-shape rectangle covers the shape. -/

theorem hz11 : (![0, 0] : Fin S1x1.rank → Nat) = fun _ => 0 := by funext a; fin_cases a <;> rfl
theorem hz12 : (![0, 0] : Fin S1x2.rank → Nat) = fun _ => 0 := by funext a; fin_cases a <;> rfl
theorem hz51264 : (![0, 0] : Fin S512x64.rank → Nat) = fun _ => 0 := by funext a; fin_cases a <;> rfl

/-- A list of stores whose last one (the head) goes through the whole-shape rectangle covers the shape. -/
theorem cover_head_whole {S : Shape} {e : EltTy} {Val : EltTy → Type} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self .., by show y ∈ (Rect.whole S).set; rw [Rect.set_whole]; exact Finset.mem_univ y⟩

end Cert.Kernel.Body

end
-- ==== Proof.BBody0.lean ====
/-
  The body of Gram kernel 0 (both operands the same sample) run symbolically at a grid point, in each of the four
  situations the 16 x 16 grid meets: the first point (the two accumulators are reset; the tile is diagonal), a later
  diagonal tile, an off-diagonal tile, and the last point (diagonal; the two accumulators are written out).  Each
  statement says what the five buffers hold afterwards as the body's own arithmetic of what they held before.
-/
import proofs.«119468_j3521873183096_1_alg».proof.Proof.BCommon
import proofs.«119468_j3521873183096_1_alg».proof.Proof.Gen.Kernel.Launch
import proofs.«119468_j3521873183096_1_alg».proof.Proof.Gen.Kernel.Skeleton
import proofs.«119468_j3521873183096_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken when both grid coordinates are zero. -/
abbrev condFirst0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch is taken when the two grid coordinates are equal: a diagonal tile. -/
abbrev condDiag0 (i : grid0.Coords) : Prop :=
  (Scalar.cmpi .ne (Scalar.extui (Scalar.cmpi .eq (BitVec.ofNat 32 (i 0).val) (BitVec.ofNat 32 (i 1).val))) 0#32) = 1#1
/-- The third branch is taken at the last grid point. -/
abbrev condLast0 (i : grid0.Coords) : Prop := k0_cond3 i = 1#1

set_option maxHeartbeats 1000000 in
theorem run_mid0 (c : Dev nD) (i : grid0.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst0 i) (hc2 : ¬ condDiag0 i) (hc3 : ¬ condLast0 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k0_pay1 (k0_pay7 x y s0))
            ∗ owns (c : Thread nD τ) arg6 fullShare (s1)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr; · ipureintro; exact hf6
    iexact H6

set_option maxHeartbeats 1000000 in
theorem run_diag0 (c : Dev nD) (i : grid0.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst0 i) (hc2 : condDiag0 i) (hc3 : ¬ condLast0 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k0_pay1 (k0_pay7 x y s0))
            ∗ owns (c : Thread nD τ) arg6 fullShare (k0_pay2 (k0_pay6 x y) s1)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

set_option maxHeartbeats 1000000 in
theorem run_first0 (c : Dev nD) (i : grid0.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : condFirst0 i) (hc2 : condDiag0 i) (hc3 : ¬ condLast0 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k0_pay1 (k0_pay7 x y k0_pay4))
            ∗ owns (c : Thread nD τ) arg6 fullShare (k0_pay2 (k0_pay6 x y) k0_pay5)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

set_option maxHeartbeats 1000000 in
theorem run_last0 (c : Dev nD) (i : grid0.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst0 i) (hc2 : condDiag0 i) (hc3 : condLast0 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (k0_pay3 (k0_pay1 (k0_pay7 x y s0)) (k0_pay2 (k0_pay6 x y) s1))
            ∗ owns (c : Thread nD τ) arg5 fullShare (k0_pay1 (k0_pay7 x y s0))
            ∗ owns (c : Thread nD τ) arg6 fullShare (k0_pay2 (k0_pay6 x y) s1)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    try sl_unfold_run_names
    rw [View.read_writes_eq_canon _ _ _ (cover_head_whole hz12 _ _ _), View.canon_cons_unit_zero hz12]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

end Cert.Kernel.Body

end
-- ==== Proof.BAcc0.lean ====
import proofs.«119468_j3521873183096_1_alg».proof.Proof.BBody0
import proofs.«119468_j3521873183096_1_alg».proof.Proof.Gen.Kernel.Launch
import proofs.«119468_j3521873183096_1_alg».proof.Proof.Gen.Kernel.Skeleton
import proofs.«119468_j3521873183096_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The tiles the body is handed at each grid point, and what the two accumulators hold after each point, as the
    body's own arithmetic folded along the grid in row-major order. -/

section
-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the sum accumulator and the trace accumulator hold after grid point `n`: at the first point both start from
    the zero cell; at every point the tile's sum is added to the first; on a diagonal tile (n / 16 = n % 16) the tile's
    masked diagonal sum is added to the second. -/
def acc0 (c : Dev nD) : (n : ℕ) → n < cfg0.N → Vec F S1x1 .f32 × Vec F S1x1 .f32
  | 0, hn => (k0_pay1 (k0_pay7 (iblk0 V c 0 ⟨0, hn⟩) (iblk0 V c 1 ⟨0, hn⟩) k0_pay4),
      k0_pay2 (k0_pay6 (iblk0 V c 0 ⟨0, hn⟩) (iblk0 V c 1 ⟨0, hn⟩)) k0_pay5)
  | n + 1, hn =>
    (k0_pay1 (k0_pay7 (iblk0 V c 0 ⟨n + 1, hn⟩) (iblk0 V c 1 ⟨n + 1, hn⟩) (acc0 c n (Nat.lt_of_succ_lt hn)).1),
      if (n + 1) / 16 = (n + 1) % 16 then
        k0_pay2 (k0_pay6 (iblk0 V c 0 ⟨n + 1, hn⟩) (iblk0 V c 1 ⟨n + 1, hn⟩)) (acc0 c n (Nat.lt_of_succ_lt hn)).2
      else (acc0 c n (Nat.lt_of_succ_lt hn)).2)

theorem acc0_zero (c : Dev nD) (hn : 0 < cfg0.N) :
    acc0 V c 0 hn = (k0_pay1 (k0_pay7 (iblk0 V c 0 ⟨0, hn⟩) (iblk0 V c 1 ⟨0, hn⟩) k0_pay4),
      k0_pay2 (k0_pay6 (iblk0 V c 0 ⟨0, hn⟩) (iblk0 V c 1 ⟨0, hn⟩)) k0_pay5) := rfl

theorem acc0_succ (c : Dev nD) (n : ℕ) (hn : n + 1 < cfg0.N) :
    acc0 V c (n + 1) hn =
      (k0_pay1 (k0_pay7 (iblk0 V c 0 ⟨n + 1, hn⟩) (iblk0 V c 1 ⟨n + 1, hn⟩) (acc0 V c n (Nat.lt_of_succ_lt hn)).1),
        if (n + 1) / 16 = (n + 1) % 16 then
          k0_pay2 (k0_pay6 (iblk0 V c 0 ⟨n + 1, hn⟩) (iblk0 V c 1 ⟨n + 1, hn⟩)) (acc0 V c n (Nat.lt_of_succ_lt hn)).2
        else (acc0 V c n (Nat.lt_of_succ_lt hn)).2) := rfl

end

end Cert.Kernel.Body

end
-- ==== Proof.BReg0.lean ====
/-
  Gram kernel 0 over its 16 x 16 grid: where each branch of the body is taken, as arithmetic on the grid point's
  number; the pipeline's proof data (each input window's buffer holds its tile at every point, the output window's
  buffer holds the two accumulators side by side once the last point has stored them, the two scratch cells hold the
  accumulated sums between points); and the body obligation at every point, by the four cases of the body's run.
-/
import proofs.«119468_j3521873183096_1_alg».proof.Proof.BAcc0
import proofs.«119468_j3521873183096_1_alg».proof.Proof.Gen.Kernel.Launch
import proofs.«119468_j3521873183096_1_alg».proof.Proof.Gen.Kernel.Skeleton
import proofs.«119468_j3521873183096_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The branches, decided over the grid -/

theorem hcondFirst0 : ∀ t : Fin cfg0.N, condFirst0 (grid0.coords t) ↔ t.val = 0 :=
  (by decide +kernel : ∀ t : Fin grid0.N, condFirst0 (grid0.coords t) ↔ t.val = 0)
theorem hcondDiag0 : ∀ t : Fin cfg0.N, condDiag0 (grid0.coords t) ↔ t.val / 16 = t.val % 16 :=
  (by decide +kernel : ∀ t : Fin grid0.N, condDiag0 (grid0.coords t) ↔ t.val / 16 = t.val % 16)
theorem hcondLast0 : ∀ t : Fin cfg0.N, condLast0 (grid0.coords t) ↔ t.val = 255 :=
  (by decide +kernel : ∀ t : Fin grid0.N, condLast0 (grid0.coords t) ↔ t.val = 255)

/-- The input windows are never idle; the output window is idle, and not written back, everywhere but the last point. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬ t.val = 255 → cfg0.idle 2 (grid0.coords t) = true :=
  (by decide +kernel : ∀ t : Fin grid0.N, ¬ t.val = 255 → cfg0.idle 2 (grid0.coords t) = true)
theorem liveAt0_2 : ∀ t : Fin cfg0.N, t.val = 255 → cfg0.idle 2 (grid0.coords t) = false :=
  (by decide +kernel : ∀ t : Fin grid0.N, t.val = 255 → cfg0.idle 2 (grid0.coords t) = false)
theorem noFlush0_2 : ∀ t : Fin cfg0.N, ¬ t.val = 255 → (cfg0.win 2).flush t = false :=
  (by decide +kernel : ∀ t : Fin grid0.N, ¬ t.val = 255 → win0_2.flush t = false)

/-! ## The memrefs the body is called with -/

abbrev ms0_0 (t : Fin cfg0.N) : Memref sig .tc .vmem S512x64 .f32 := win0_0.stage (cfg0.slots t 0)
abbrev ms0_1 (t : Fin cfg0.N) : Memref sig .tc .vmem S512x64 .f32 := win0_1.stage (cfg0.slots t 1)
abbrev ms0_2 (t : Fin cfg0.N) : Memref sig .tc .vmem S1x2 .f32 := win0_2.stage (cfg0.slots t 2)
abbrev sc0_0 : Memref sig .tc .vmem S1x1 .f32 := Memref.whole cc0_scratch0
abbrev sc0_1 : Memref sig .tc .vmem S1x1 .f32 := Memref.whole cc0_scratch1

/-! ## The accumulators at a grid point, by the point's case -/

theorem acc0_first (c : Dev nD) (t : Fin cfg0.N) (h : t.val = 0) :
    acc0 V c t.val t.isLt = (k0_pay1 (k0_pay7 (iblk0 V c 0 t) (iblk0 V c 1 t) k0_pay4),
      k0_pay2 (k0_pay6 (iblk0 V c 0 t) (iblk0 V c 1 t)) k0_pay5) := by
  obtain ⟨n, hn⟩ := t
  cases n with
  | zero => rfl
  | succ n => exact absurd h (Nat.succ_ne_zero n)

theorem acc0_diag (c : Dev nD) (t : Fin cfg0.N) (h0 : ¬ t.val = 0) (h1 : t.val / 16 = t.val % 16) :
    acc0 V c t.val t.isLt = (k0_pay1 (k0_pay7 (iblk0 V c 0 t) (iblk0 V c 1 t) (acc0 V c (t.val - 1) (Nat.lt_of_le_of_lt (Nat.sub_le _ _) t.isLt)).1),
      k0_pay2 (k0_pay6 (iblk0 V c 0 t) (iblk0 V c 1 t)) (acc0 V c (t.val - 1) (Nat.lt_of_le_of_lt (Nat.sub_le _ _) t.isLt)).2) := by
  obtain ⟨n, hn⟩ := t
  cases n with
  | zero => exact absurd rfl h0
  | succ n => exact Prod.ext rfl (if_pos h1)

theorem acc0_off (c : Dev nD) (t : Fin cfg0.N) (h0 : ¬ t.val = 0) (h1 : ¬ t.val / 16 = t.val % 16) :
    acc0 V c t.val t.isLt = (k0_pay1 (k0_pay7 (iblk0 V c 0 t) (iblk0 V c 1 t) (acc0 V c (t.val - 1) (Nat.lt_of_le_of_lt (Nat.sub_le _ _) t.isLt)).1),
      (acc0 V c (t.val - 1) (Nat.lt_of_le_of_lt (Nat.sub_le _ _) t.isLt)).2) := by
  obtain ⟨n, hn⟩ := t
  cases n with
  | zero => exact absurd rfl h0
  | succ n => exact Prod.ext rfl (if_neg h1)

/-! ## The invariant between points -/

/-- The class invariant with the two scratch cells as memrefs owned at some contents. -/
theorem PhiA0_eq (c : Dev nD) :
    (Pipeline.ΦA spec0 c : sProp 𝕄)
      = iprop(((∃ d, owns (c : Thread nD τ) sc0_0 fullShare d) ∗ (∃ d, owns (c : Thread nD τ) sc0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  unfold Pipeline.ΦA; rw [scopedRest0_eq]; simp only [sc0_0, sc0_1, owns_whole]; try rfl

/-- Before the first point every scoped buffer holds anything; after point `n` the two scratch cells hold the
    accumulators after `n`, the other scoped buffers anything; the generator register rides along. -/
def PhiS0 (c : Dev nD) : (n : ℕ) → n ≤ cfg0.N → sProp 𝕄
  | 0, _ => Pipeline.ΦA spec0 c
  | n + 1, hn => iprop(((owns (c : Thread nD τ) sc0_0 fullShare (acc0 V c n hn).1) ∗ (owns (c : Thread nD τ) sc0_1 fullShare (acc0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(((owns (c : Thread nD τ) sc0_0 fullShare (acc0 V c n hn).1) ∗ (owns (c : Thread nD τ) sc0_1 fullShare (acc0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := rfl

theorem PhiS0_pos (c : Dev nD) (n : ℕ) (h : n ≤ cfg0.N) (hz : n ≠ 0) :
    PhiS0 V c n h = iprop(((owns (c : Thread nD τ) sc0_0 fullShare (acc0 V c (n - 1) (by omega)).1) ∗ (owns (c : Thread nD τ) sc0_1 fullShare (acc0 V c (n - 1) (by omega)).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt).1 (acc0 V c t.val t.isLt).2
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay3 (acc0 V c t.val t.isLt).1 (acc0 V c t.val t.isLt).2 := by dsimp only [dat0]

/-- Each input window's current staging buffer holds its tile at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 256 := lt_of_lt_of_eq t.isLt (show cfg0.N = 256 from N_0)
  by_cases hF : t.val = 0
  · have hD : t.val / 16 = t.val % 16 := by rw [hF]
    have hL : ¬ t.val = 255 := by omega
    rw [Dat.leavesExact_idle (dat0 V c) 2 t (idleAt0_2 t hL) (noFlush0_2 t hL)]
    rw [acc0_first V c t hF]
    rw [PhiS0_castSucc V c t, PhiS0_zero V c _ _ hF, PhiA0_eq]
    (try dsimp only)
    iintro ⟨⟨⟨⟨%e0, HS0⟩, ⟨%e1, HS1⟩, R2, R3, R4, R5, R6, R7, R8, R9, R10, R11, R12, R13, R14, R15⟩, Hg⟩, Ho, ⟨%d0, H0⟩, ⟨%d1, H1⟩, ⟨%d2, H2⟩⟩

    iapply (run_first0 c (grid0.coords t) _ _ _ _ _ _ _ _ _ _ ((hcondFirst0 t).mpr hF) ((hcondDiag0 t).mpr hD) (fun h => hL ((hcondLast0 t).mp h)) (iblk0 V c 0 t) (iblk0 V c 1 t) _ e0 e1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 R2 R3 R4 R5 R6 R7 R8 R9 R10 R11 R12 R13 R14 R15 Hg]
    · isplitl [HS0 HS1 R2 R3 R4 R5 R6 R7 R8 R9 R10 R11 R12 R13 R14 R15]
      ·
        isplitl [HS0]; · iexact HS0
        isplitl [HS1]; · iexact HS1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        iexact R15
      iexact Hg
    isplitl [Ho]; · iexact Ho
    isplitl [H0]; · iexact H0
    isplitl [H1]; · iexact H1
    iexists _; iexact H2
  · rw [PhiS0_castSucc V c t, PhiS0_pos V c _ _ hF]
    by_cases hL : t.val = 255
    · have hD : t.val / 16 = t.val % 16 := by rw [hL]
      rw [show (dat0 V c).leavesExact 2 t = owns (c : Thread nD τ) (ms0_2 t) fullShare ((dat0 V c).after 2 t) from by
        unfold Dat.leavesExact; rw [liveAt0_2 t hL], after0_2]
      rw [acc0_diag V c t hF hD]
      (try dsimp only)
      iintro ⟨⟨⟨HS0, HS1, R2, R3, R4, R5, R6, R7, R8, R9, R10, R11, R12, R13, R14, R15⟩, Hg⟩, Ho, ⟨%d0, H0⟩, ⟨%d1, H1⟩, ⟨%d2, H2⟩⟩

      iapply (run_last0 c (grid0.coords t) _ _ _ _ _ _ _ _ _ _ (fun h => hF ((hcondFirst0 t).mp h)) ((hcondDiag0 t).mpr hD) ((hcondLast0 t).mpr hL) (iblk0 V c 0 t) (iblk0 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 R2 R3 R4 R5 R6 R7 R8 R9 R10 R11 R12 R13 R14 R15 Hg]
      · isplitl [HS0 HS1 R2 R3 R4 R5 R6 R7 R8 R9 R10 R11 R12 R13 R14 R15]
        ·
          isplitl [HS0]; · iexact HS0
          isplitl [HS1]; · iexact HS1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          iexact R15
        iexact Hg
      isplitl [Ho]; · iexact Ho
      isplitl [H0]; · iexact H0
      isplitl [H1]; · iexact H1
      iexact H2
    · rw [Dat.leavesExact_idle (dat0 V c) 2 t (idleAt0_2 t hL) (noFlush0_2 t hL)]
      by_cases hD : t.val / 16 = t.val % 16
      · rw [acc0_diag V c t hF hD]
        (try dsimp only)
        iintro ⟨⟨⟨HS0, HS1, R2, R3, R4, R5, R6, R7, R8, R9, R10, R11, R12, R13, R14, R15⟩, Hg⟩, Ho, ⟨%d0, H0⟩, ⟨%d1, H1⟩, ⟨%d2, H2⟩⟩

        iapply (run_diag0 c (grid0.coords t) _ _ _ _ _ _ _ _ _ _ (fun h => hF ((hcondFirst0 t).mp h)) ((hcondDiag0 t).mpr hD) (fun h => hL ((hcondLast0 t).mp h)) (iblk0 V c 0 t) (iblk0 V c 1 t) _ _ _ Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 R2 R3 R4 R5 R6 R7 R8 R9 R10 R11 R12 R13 R14 R15 Hg]
        · isplitl [HS0 HS1 R2 R3 R4 R5 R6 R7 R8 R9 R10 R11 R12 R13 R14 R15]
          ·
            isplitl [HS0]; · iexact HS0
            isplitl [HS1]; · iexact HS1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            iexact R15
          iexact Hg
        isplitl [Ho]; · iexact Ho
        isplitl [H0]; · iexact H0
        isplitl [H1]; · iexact H1
        iexists _; iexact H2
      · rw [acc0_off V c t hF hD]
        (try dsimp only)
        iintro ⟨⟨⟨HS0, HS1, R2, R3, R4, R5, R6, R7, R8, R9, R10, R11, R12, R13, R14, R15⟩, Hg⟩, Ho, ⟨%d0, H0⟩, ⟨%d1, H1⟩, ⟨%d2, H2⟩⟩

        iapply (run_mid0 c (grid0.coords t) _ _ _ _ _ _ _ _ _ _ (fun h => hF ((hcondFirst0 t).mp h)) (fun h => hD ((hcondDiag0 t).mp h)) (fun h => hL ((hcondLast0 t).mp h)) (iblk0 V c 0 t) (iblk0 V c 1 t) _ _ _ Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 R2 R3 R4 R5 R6 R7 R8 R9 R10 R11 R12 R13 R14 R15 Hg]
        · isplitl [HS0 HS1 R2 R3 R4 R5 R6 R7 R8 R9 R10 R11 R12 R13 R14 R15]
          ·
            isplitl [HS0]; · iexact HS0
            isplitl [HS1]; · iexact HS1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            iexact R15
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the scratch cells' contents are forgotten. -/
theorem hout0 (c : Dev nD) : (dat0 V c).Φ (Fin.last cfg0.N) ⊢ Pipeline.ΦA spec0 c := by
  have hN : cfg0.N = 256 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS0, HS1, R2, R3, R4, R5, R6, R7, R8, R9, R10, R11, R12, R13, R14, R15⟩, Hg⟩
  isplitl [HS0 HS1 R2 R3 R4 R5 R6 R7 R8 R9 R10 R11 R12 R13 R14 R15]
  ·
    isplitl [HS0]; · iexists _; iexact HS0
    isplitl [HS1]; · iexists _; iexact HS1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  iexact Hg

end

end Cert.Kernel.Body

end
-- ==== Proof.BBody1.lean ====
/-
  The body of Gram kernel 1 (both operands the same sample) run symbolically at a grid point, in each of the four
  situations the 16 x 16 grid meets: the first point (the two accumulators are reset; the tile is diagonal), a later
  diagonal tile, an off-diagonal tile, and the last point (diagonal; the two accumulators are written out).  Each
  statement says what the five buffers hold afterwards as the body's own arithmetic of what they held before.
-/
import proofs.«119468_j3521873183096_1_alg».proof.Proof.BCommon
import proofs.«119468_j3521873183096_1_alg».proof.Proof.Gen.Kernel.Launch
import proofs.«119468_j3521873183096_1_alg».proof.Proof.Gen.Kernel.Skeleton
import proofs.«119468_j3521873183096_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken when both grid coordinates are zero. -/
abbrev condFirst1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch is taken when the two grid coordinates are equal: a diagonal tile. -/
abbrev condDiag1 (i : grid1.Coords) : Prop :=
  (Scalar.cmpi .ne (Scalar.extui (Scalar.cmpi .eq (BitVec.ofNat 32 (i 0).val) (BitVec.ofNat 32 (i 1).val))) 0#32) = 1#1
/-- The third branch is taken at the last grid point. -/
abbrev condLast1 (i : grid1.Coords) : Prop := k1_cond3 i = 1#1

set_option maxHeartbeats 1000000 in
theorem run_mid1 (c : Dev nD) (i : grid1.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst1 i) (hc2 : ¬ condDiag1 i) (hc3 : ¬ condLast1 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k1_pay1 (k1_pay7 x y s0))
            ∗ owns (c : Thread nD τ) arg6 fullShare (s1)) -∗ K ⟨⟩))
      ⊢ wp frame (wpE (defs₀ (F := F)) Variants.none c none) E (cc1__kernel i arg2 harg2 arg3 harg3 arg4 harg4 arg5 harg5 arg6 harg6) K := by
  simp only [cc1__kernel_eq_skeleton]; unfold cc1__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr; · ipureintro; exact hf6
    iexact H6

set_option maxHeartbeats 1000000 in
theorem run_diag1 (c : Dev nD) (i : grid1.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst1 i) (hc2 : condDiag1 i) (hc3 : ¬ condLast1 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k1_pay1 (k1_pay7 x y s0))
            ∗ owns (c : Thread nD τ) arg6 fullShare (k1_pay2 (k1_pay6 x y) s1)) -∗ K ⟨⟩))
      ⊢ wp frame (wpE (defs₀ (F := F)) Variants.none c none) E (cc1__kernel i arg2 harg2 arg3 harg3 arg4 harg4 arg5 harg5 arg6 harg6) K := by
  simp only [cc1__kernel_eq_skeleton]; unfold cc1__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

set_option maxHeartbeats 1000000 in
theorem run_first1 (c : Dev nD) (i : grid1.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : condFirst1 i) (hc2 : condDiag1 i) (hc3 : ¬ condLast1 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k1_pay1 (k1_pay7 x y k1_pay4))
            ∗ owns (c : Thread nD τ) arg6 fullShare (k1_pay2 (k1_pay6 x y) k1_pay5)) -∗ K ⟨⟩))
      ⊢ wp frame (wpE (defs₀ (F := F)) Variants.none c none) E (cc1__kernel i arg2 harg2 arg3 harg3 arg4 harg4 arg5 harg5 arg6 harg6) K := by
  simp only [cc1__kernel_eq_skeleton]; unfold cc1__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

set_option maxHeartbeats 1000000 in
theorem run_last1 (c : Dev nD) (i : grid1.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst1 i) (hc2 : condDiag1 i) (hc3 : condLast1 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (k1_pay3 (k1_pay1 (k1_pay7 x y s0)) (k1_pay2 (k1_pay6 x y) s1))
            ∗ owns (c : Thread nD τ) arg5 fullShare (k1_pay1 (k1_pay7 x y s0))
            ∗ owns (c : Thread nD τ) arg6 fullShare (k1_pay2 (k1_pay6 x y) s1)) -∗ K ⟨⟩))
      ⊢ wp frame (wpE (defs₀ (F := F)) Variants.none c none) E (cc1__kernel i arg2 harg2 arg3 harg3 arg4 harg4 arg5 harg5 arg6 harg6) K := by
  simp only [cc1__kernel_eq_skeleton]; unfold cc1__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    try sl_unfold_run_names
    rw [View.read_writes_eq_canon _ _ _ (cover_head_whole hz12 _ _ _), View.canon_cons_unit_zero hz12]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

end Cert.Kernel.Body

end
-- ==== Proof.BAcc1.lean ====
import proofs.«119468_j3521873183096_1_alg».proof.Proof.BBody1
import proofs.«119468_j3521873183096_1_alg».proof.Proof.Gen.Kernel.Launch
import proofs.«119468_j3521873183096_1_alg».proof.Proof.Gen.Kernel.Skeleton
import proofs.«119468_j3521873183096_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The tiles the body is handed at each grid point, and what the two accumulators hold after each point, as the
    body's own arithmetic folded along the grid in row-major order. -/

section
-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the sum accumulator and the trace accumulator hold after grid point `n`: at the first point both start from
    the zero cell; at every point the tile's sum is added to the first; on a diagonal tile (n / 16 = n % 16) the tile's
    masked diagonal sum is added to the second. -/
def acc1 (c : Dev nD) : (n : ℕ) → n < cfg1.N → Vec F S1x1 .f32 × Vec F S1x1 .f32
  | 0, hn => (k1_pay1 (k1_pay7 (iblk1 V c 0 ⟨0, hn⟩) (iblk1 V c 1 ⟨0, hn⟩) k1_pay4),
      k1_pay2 (k1_pay6 (iblk1 V c 0 ⟨0, hn⟩) (iblk1 V c 1 ⟨0, hn⟩)) k1_pay5)
  | n + 1, hn =>
    (k1_pay1 (k1_pay7 (iblk1 V c 0 ⟨n + 1, hn⟩) (iblk1 V c 1 ⟨n + 1, hn⟩) (acc1 c n (Nat.lt_of_succ_lt hn)).1),
      if (n + 1) / 16 = (n + 1) % 16 then
        k1_pay2 (k1_pay6 (iblk1 V c 0 ⟨n + 1, hn⟩) (iblk1 V c 1 ⟨n + 1, hn⟩)) (acc1 c n (Nat.lt_of_succ_lt hn)).2
      else (acc1 c n (Nat.lt_of_succ_lt hn)).2)

theorem acc1_zero (c : Dev nD) (hn : 0 < cfg1.N) :
    acc1 V c 0 hn = (k1_pay1 (k1_pay7 (iblk1 V c 0 ⟨0, hn⟩) (iblk1 V c 1 ⟨0, hn⟩) k1_pay4),
      k1_pay2 (k1_pay6 (iblk1 V c 0 ⟨0, hn⟩) (iblk1 V c 1 ⟨0, hn⟩)) k1_pay5) := rfl

theorem acc1_succ (c : Dev nD) (n : ℕ) (hn : n + 1 < cfg1.N) :
    acc1 V c (n + 1) hn =
      (k1_pay1 (k1_pay7 (iblk1 V c 0 ⟨n + 1, hn⟩) (iblk1 V c 1 ⟨n + 1, hn⟩) (acc1 V c n (Nat.lt_of_succ_lt hn)).1),
        if (n + 1) / 16 = (n + 1) % 16 then
          k1_pay2 (k1_pay6 (iblk1 V c 0 ⟨n + 1, hn⟩) (iblk1 V c 1 ⟨n + 1, hn⟩)) (acc1 V c n (Nat.lt_of_succ_lt hn)).2
        else (acc1 V c n (Nat.lt_of_succ_lt hn)).2) := rfl

end

end Cert.Kernel.Body

end
-- ==== Proof.BReg1.lean ====
/-
  Gram kernel 1 over its 16 x 16 grid: where each branch of the body is taken, as arithmetic on the grid point's
  number; the pipeline's proof data (each input window's buffer holds its tile at every point, the output window's
  buffer holds the two accumulators side by side once the last point has stored them, the two scratch cells hold the
  accumulated sums between points); and the body obligation at every point, by the four cases of the body's run.
-/
import proofs.«119468_j3521873183096_1_alg».proof.Proof.BAcc1
import proofs.«119468_j3521873183096_1_alg».proof.Proof.Gen.Kernel.Launch
import proofs.«119468_j3521873183096_1_alg».proof.Proof.Gen.Kernel.Skeleton
import proofs.«119468_j3521873183096_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The branches, decided over the grid -/

theorem hcondFirst1 : ∀ t : Fin cfg1.N, condFirst1 (grid1.coords t) ↔ t.val = 0 :=
  (by decide +kernel : ∀ t : Fin grid1.N, condFirst1 (grid1.coords t) ↔ t.val = 0)
theorem hcondDiag1 : ∀ t : Fin cfg1.N, condDiag1 (grid1.coords t) ↔ t.val / 16 = t.val % 16 :=
  (by decide +kernel : ∀ t : Fin grid1.N, condDiag1 (grid1.coords t) ↔ t.val / 16 = t.val % 16)
theorem hcondLast1 : ∀ t : Fin cfg1.N, condLast1 (grid1.coords t) ↔ t.val = 255 :=
  (by decide +kernel : ∀ t : Fin grid1.N, condLast1 (grid1.coords t) ↔ t.val = 255)

/-- The input windows are never idle; the output window is idle, and not written back, everywhere but the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬ t.val = 255 → cfg1.idle 2 (grid1.coords t) = true :=
  (by decide +kernel : ∀ t : Fin grid1.N, ¬ t.val = 255 → cfg1.idle 2 (grid1.coords t) = true)
theorem liveAt1_2 : ∀ t : Fin cfg1.N, t.val = 255 → cfg1.idle 2 (grid1.coords t) = false :=
  (by decide +kernel : ∀ t : Fin grid1.N, t.val = 255 → cfg1.idle 2 (grid1.coords t) = false)
theorem noFlush1_2 : ∀ t : Fin cfg1.N, ¬ t.val = 255 → (cfg1.win 2).flush t = false :=
  (by decide +kernel : ∀ t : Fin grid1.N, ¬ t.val = 255 → win1_2.flush t = false)

/-! ## The memrefs the body is called with -/

abbrev ms1_0 (t : Fin cfg1.N) : Memref sig .tc .vmem S512x64 .f32 := win1_0.stage (cfg1.slots t 0)
abbrev ms1_1 (t : Fin cfg1.N) : Memref sig .tc .vmem S512x64 .f32 := win1_1.stage (cfg1.slots t 1)
abbrev ms1_2 (t : Fin cfg1.N) : Memref sig .tc .vmem S1x2 .f32 := win1_2.stage (cfg1.slots t 2)
abbrev sc1_0 : Memref sig .tc .vmem S1x1 .f32 := Memref.whole cc1_scratch0
abbrev sc1_1 : Memref sig .tc .vmem S1x1 .f32 := Memref.whole cc1_scratch1

/-! ## The accumulators at a grid point, by the point's case -/

theorem acc1_first (c : Dev nD) (t : Fin cfg1.N) (h : t.val = 0) :
    acc1 V c t.val t.isLt = (k1_pay1 (k1_pay7 (iblk1 V c 0 t) (iblk1 V c 1 t) k1_pay4),
      k1_pay2 (k1_pay6 (iblk1 V c 0 t) (iblk1 V c 1 t)) k1_pay5) := by
  obtain ⟨n, hn⟩ := t
  cases n with
  | zero => rfl
  | succ n => exact absurd h (Nat.succ_ne_zero n)

theorem acc1_diag (c : Dev nD) (t : Fin cfg1.N) (h0 : ¬ t.val = 0) (h1 : t.val / 16 = t.val % 16) :
    acc1 V c t.val t.isLt = (k1_pay1 (k1_pay7 (iblk1 V c 0 t) (iblk1 V c 1 t) (acc1 V c (t.val - 1) (Nat.lt_of_le_of_lt (Nat.sub_le _ _) t.isLt)).1),
      k1_pay2 (k1_pay6 (iblk1 V c 0 t) (iblk1 V c 1 t)) (acc1 V c (t.val - 1) (Nat.lt_of_le_of_lt (Nat.sub_le _ _) t.isLt)).2) := by
  obtain ⟨n, hn⟩ := t
  cases n with
  | zero => exact absurd rfl h0
  | succ n => exact Prod.ext rfl (if_pos h1)

theorem acc1_off (c : Dev nD) (t : Fin cfg1.N) (h0 : ¬ t.val = 0) (h1 : ¬ t.val / 16 = t.val % 16) :
    acc1 V c t.val t.isLt = (k1_pay1 (k1_pay7 (iblk1 V c 0 t) (iblk1 V c 1 t) (acc1 V c (t.val - 1) (Nat.lt_of_le_of_lt (Nat.sub_le _ _) t.isLt)).1),
      (acc1 V c (t.val - 1) (Nat.lt_of_le_of_lt (Nat.sub_le _ _) t.isLt)).2) := by
  obtain ⟨n, hn⟩ := t
  cases n with
  | zero => exact absurd rfl h0
  | succ n => exact Prod.ext rfl (if_neg h1)

/-! ## The invariant between points -/

/-- The class invariant with the two scratch cells as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) sc1_0 fullShare d) ∗ (∃ d, owns (c : Thread nD τ) sc1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  unfold Pipeline.ΦA; rw [scopedRest1_eq]; simp only [sc1_0, sc1_1, owns_whole]; try rfl

/-- Before the first point every scoped buffer holds anything; after point `n` the two scratch cells hold the
    accumulators after `n`, the other scoped buffers anything; the generator register rides along. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (owns (c : Thread nD τ) sc1_0 fullShare (acc1 V c n hn).1) ∗ (owns (c : Thread nD τ) sc1_1 fullShare (acc1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (owns (c : Thread nD τ) sc1_0 fullShare (acc1 V c n hn).1) ∗ (owns (c : Thread nD τ) sc1_1 fullShare (acc1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := rfl

theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (owns (c : Thread nD τ) sc1_0 fullShare (acc1 V c (n - 1) (by omega)).1) ∗ (owns (c : Thread nD τ) sc1_1 fullShare (acc1 V c (n - 1) (by omega)).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt).1 (acc1 V c t.val t.isLt).2
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay3 (acc1 V c t.val t.isLt).1 (acc1 V c t.val t.isLt).2 := by dsimp only [dat1]

/-- Each input window's current staging buffer holds its tile at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 256 := lt_of_lt_of_eq t.isLt (show cfg1.N = 256 from N_1)
  by_cases hF : t.val = 0
  · have hD : t.val / 16 = t.val % 16 := by rw [hF]
    have hL : ¬ t.val = 255 := by omega
    rw [Dat.leavesExact_idle (dat1 V c) 2 t (idleAt1_2 t hL) (noFlush1_2 t hL)]
    rw [acc1_first V c t hF]
    rw [PhiS1_castSucc V c t, PhiS1_zero V c _ _ hF, PhiA1_eq]
    (try dsimp only)
    iintro ⟨⟨⟨R0, R1, R2, R3, R4, R5, R6, ⟨%e0, HS0⟩, ⟨%e1, HS1⟩, R9, R10, R11, R12, R13, R14, R15⟩, Hg⟩, Ho, ⟨%d0, H0⟩, ⟨%d1, H1⟩, ⟨%d2, H2⟩⟩

    iapply (run_first1 c (grid1.coords t) _ _ _ _ _ _ _ _ _ _ ((hcondFirst1 t).mpr hF) ((hcondDiag1 t).mpr hD) (fun h => hL ((hcondLast1 t).mp h)) (iblk1 V c 0 t) (iblk1 V c 1 t) _ e0 e1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [R0 R1 R2 R3 R4 R5 R6 HS0 HS1 R9 R10 R11 R12 R13 R14 R15 Hg]
    · isplitl [R0 R1 R2 R3 R4 R5 R6 HS0 HS1 R9 R10 R11 R12 R13 R14 R15]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [HS0]; · iexact HS0
        isplitl [HS1]; · iexact HS1
        isplitl [R9]; · iexact R9
        isplitl [R10]; · iexact R10
        isplitl [R11]; · iexact R11
        isplitl [R12]; · iexact R12
        isplitl [R13]; · iexact R13
        isplitl [R14]; · iexact R14
        iexact R15
      iexact Hg
    isplitl [Ho]; · iexact Ho
    isplitl [H0]; · iexact H0
    isplitl [H1]; · iexact H1
    iexists _; iexact H2
  · rw [PhiS1_castSucc V c t, PhiS1_pos V c _ _ hF]
    by_cases hL : t.val = 255
    · have hD : t.val / 16 = t.val % 16 := by rw [hL]
      rw [show (dat1 V c).leavesExact 2 t = owns (c : Thread nD τ) (ms1_2 t) fullShare ((dat1 V c).after 2 t) from by
        unfold Dat.leavesExact; rw [liveAt1_2 t hL], after1_2]
      rw [acc1_diag V c t hF hD]
      (try dsimp only)
      iintro ⟨⟨⟨R0, R1, R2, R3, R4, R5, R6, HS0, HS1, R9, R10, R11, R12, R13, R14, R15⟩, Hg⟩, Ho, ⟨%d0, H0⟩, ⟨%d1, H1⟩, ⟨%d2, H2⟩⟩

      iapply (run_last1 c (grid1.coords t) _ _ _ _ _ _ _ _ _ _ (fun h => hF ((hcondFirst1 t).mp h)) ((hcondDiag1 t).mpr hD) ((hcondLast1 t).mpr hL) (iblk1 V c 0 t) (iblk1 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [R0 R1 R2 R3 R4 R5 R6 HS0 HS1 R9 R10 R11 R12 R13 R14 R15 Hg]
      · isplitl [R0 R1 R2 R3 R4 R5 R6 HS0 HS1 R9 R10 R11 R12 R13 R14 R15]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [HS0]; · iexact HS0
          isplitl [HS1]; · iexact HS1
          isplitl [R9]; · iexact R9
          isplitl [R10]; · iexact R10
          isplitl [R11]; · iexact R11
          isplitl [R12]; · iexact R12
          isplitl [R13]; · iexact R13
          isplitl [R14]; · iexact R14
          iexact R15
        iexact Hg
      isplitl [Ho]; · iexact Ho
      isplitl [H0]; · iexact H0
      isplitl [H1]; · iexact H1
      iexact H2
    · rw [Dat.leavesExact_idle (dat1 V c) 2 t (idleAt1_2 t hL) (noFlush1_2 t hL)]
      by_cases hD : t.val / 16 = t.val % 16
      · rw [acc1_diag V c t hF hD]
        (try dsimp only)
        iintro ⟨⟨⟨R0, R1, R2, R3, R4, R5, R6, HS0, HS1, R9, R10, R11, R12, R13, R14, R15⟩, Hg⟩, Ho, ⟨%d0, H0⟩, ⟨%d1, H1⟩, ⟨%d2, H2⟩⟩

        iapply (run_diag1 c (grid1.coords t) _ _ _ _ _ _ _ _ _ _ (fun h => hF ((hcondFirst1 t).mp h)) ((hcondDiag1 t).mpr hD) (fun h => hL ((hcondLast1 t).mp h)) (iblk1 V c 0 t) (iblk1 V c 1 t) _ _ _ Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [R0 R1 R2 R3 R4 R5 R6 HS0 HS1 R9 R10 R11 R12 R13 R14 R15 Hg]
        · isplitl [R0 R1 R2 R3 R4 R5 R6 HS0 HS1 R9 R10 R11 R12 R13 R14 R15]
          ·
            isplitl [R0]; · iexact R0
            isplitl [R1]; · iexact R1
            isplitl [R2]; · iexact R2
            isplitl [R3]; · iexact R3
            isplitl [R4]; · iexact R4
            isplitl [R5]; · iexact R5
            isplitl [R6]; · iexact R6
            isplitl [HS0]; · iexact HS0
            isplitl [HS1]; · iexact HS1
            isplitl [R9]; · iexact R9
            isplitl [R10]; · iexact R10
            isplitl [R11]; · iexact R11
            isplitl [R12]; · iexact R12
            isplitl [R13]; · iexact R13
            isplitl [R14]; · iexact R14
            iexact R15
          iexact Hg
        isplitl [Ho]; · iexact Ho
        isplitl [H0]; · iexact H0
        isplitl [H1]; · iexact H1
        iexists _; iexact H2
      · rw [acc1_off V c t hF hD]
        (try dsimp only)
        iintro ⟨⟨⟨R0, R1, R2, R3, R4, R5, R6, HS0, HS1, R9, R10, R11, R12, R13, R14, R15⟩, Hg⟩, Ho, ⟨%d0, H0⟩, ⟨%d1, H1⟩, ⟨%d2, H2⟩⟩

        iapply (run_mid1 c (grid1.coords t) _ _ _ _ _ _ _ _ _ _ (fun h => hF ((hcondFirst1 t).mp h)) (fun h => hD ((hcondDiag1 t).mp h)) (fun h => hL ((hcondLast1 t).mp h)) (iblk1 V c 0 t) (iblk1 V c 1 t) _ _ _ Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [R0 R1 R2 R3 R4 R5 R6 HS0 HS1 R9 R10 R11 R12 R13 R14 R15 Hg]
        · isplitl [R0 R1 R2 R3 R4 R5 R6 HS0 HS1 R9 R10 R11 R12 R13 R14 R15]
          ·
            isplitl [R0]; · iexact R0
            isplitl [R1]; · iexact R1
            isplitl [R2]; · iexact R2
            isplitl [R3]; · iexact R3
            isplitl [R4]; · iexact R4
            isplitl [R5]; · iexact R5
            isplitl [R6]; · iexact R6
            isplitl [HS0]; · iexact HS0
            isplitl [HS1]; · iexact HS1
            isplitl [R9]; · iexact R9
            isplitl [R10]; · iexact R10
            isplitl [R11]; · iexact R11
            isplitl [R12]; · iexact R12
            isplitl [R13]; · iexact R13
            isplitl [R14]; · iexact R14
            iexact R15
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch cells' contents are forgotten. -/
theorem hout1 (c : Dev nD) : (dat1 V c).Φ (Fin.last cfg1.N) ⊢ Pipeline.ΦA spec1 c := by
  have hN : cfg1.N = 256 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨R0, R1, R2, R3, R4, R5, R6, HS0, HS1, R9, R10, R11, R12, R13, R14, R15⟩, Hg⟩
  isplitl [R0 R1 R2 R3 R4 R5 R6 HS0 HS1 R9 R10 R11 R12 R13 R14 R15]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [HS0]; · iexists _; iexact HS0
    isplitl [HS1]; · iexists _; iexact HS1
    isplitl [R9]; · iexact R9
    isplitl [R10]; · iexact R10
    isplitl [R11]; · iexact R11
    isplitl [R12]; · iexact R12
    isplitl [R13]; · iexact R13
    isplitl [R14]; · iexact R14
    iexact R15
  iexact Hg

end

end Cert.Kernel.Body

end
-- ==== Proof.BBody2.lean ====
/-
  The body of the mixed Gram kernel (first sample against the second; no trace) run symbolically at a grid point, in
  each of the three situations the 16 x 16 grid meets: the first point (both cells reset), a later point that is not the
  last, and the last point (the sum cell and the untouched second cell are written out).  Each statement says what the
  five buffers hold afterwards as the body's own arithmetic of what they held before.
-/
import proofs.«119468_j3521873183096_1_alg».proof.Proof.BCommon
import proofs.«119468_j3521873183096_1_alg».proof.Proof.Gen.Kernel.Launch
import proofs.«119468_j3521873183096_1_alg».proof.Proof.Gen.Kernel.Skeleton
import proofs.«119468_j3521873183096_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken when both grid coordinates are zero. -/
abbrev condFirst2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch is taken at the last grid point. -/
abbrev condLast2 (i : grid2.Coords) : Prop := k2_cond2 i = 1#1

set_option maxHeartbeats 1000000 in
theorem run_mid2 (c : Dev nD) (i : grid2.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst2 i) (hc3 : ¬ condLast2 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k2_pay1 (k2_pay5 x y s0))
            ∗ owns (c : Thread nD τ) arg6 fullShare (s1)) -∗ K ⟨⟩))
      ⊢ wp frame (wpE (defs₀ (F := F)) Variants.none c none) E (cc2__kernel i arg2 harg2 arg3 harg3 arg4 harg4 arg5 harg5 arg6 harg6) K := by
  simp only [cc2__kernel_eq_skeleton]; unfold cc2__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr; · ipureintro; exact hf6
    iexact H6

set_option maxHeartbeats 1000000 in
theorem run_first2 (c : Dev nD) (i : grid2.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : condFirst2 i) (hc3 : ¬ condLast2 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k2_pay1 (k2_pay5 x y k2_pay3))
            ∗ owns (c : Thread nD τ) arg6 fullShare (k2_pay4)) -∗ K ⟨⟩))
      ⊢ wp frame (wpE (defs₀ (F := F)) Variants.none c none) E (cc2__kernel i arg2 harg2 arg3 harg3 arg4 harg4 arg5 harg5 arg6 harg6) K := by
  simp only [cc2__kernel_eq_skeleton]; unfold cc2__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

set_option maxHeartbeats 1000000 in
theorem run_last2 (c : Dev nD) (i : grid2.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst2 i) (hc3 : condLast2 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (k2_pay2 (k2_pay1 (k2_pay5 x y s0)) s1)
            ∗ owns (c : Thread nD τ) arg5 fullShare (k2_pay1 (k2_pay5 x y s0))
            ∗ owns (c : Thread nD τ) arg6 fullShare (s1)) -∗ K ⟨⟩))
      ⊢ wp frame (wpE (defs₀ (F := F)) Variants.none c none) E (cc2__kernel i arg2 harg2 arg3 harg3 arg4 harg4 arg5 harg5 arg6 harg6) K := by
  simp only [cc2__kernel_eq_skeleton]; unfold cc2__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    try sl_unfold_run_names
    rw [View.read_writes_eq_canon _ _ _ (cover_head_whole hz12 _ _ _), View.canon_cons_unit_zero hz12]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr; · ipureintro; exact hf6
    iexact H6

end Cert.Kernel.Body

end
-- ==== Proof.BAcc2.lean ====
import proofs.«119468_j3521873183096_1_alg».proof.Proof.BBody2
import proofs.«119468_j3521873183096_1_alg».proof.Proof.Gen.Kernel.Launch
import proofs.«119468_j3521873183096_1_alg».proof.Proof.Gen.Kernel.Skeleton
import proofs.«119468_j3521873183096_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The tiles the body is handed at each grid point, and what the sum accumulator holds after each point, as the
    body's own arithmetic folded along the grid in row-major order. -/

section
-- the TensorCore's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the sum accumulator holds after grid point `n`: from the zero cell at the first point, the tile's sum added at
    every point. -/
def acc2 (c : Dev nD) : (n : ℕ) → n < cfg2.N → Vec F S1x1 .f32
  | 0, hn => k2_pay1 (k2_pay5 (iblk2 V c 0 ⟨0, hn⟩) (iblk2 V c 1 ⟨0, hn⟩) k2_pay3)
  | n + 1, hn => k2_pay1 (k2_pay5 (iblk2 V c 0 ⟨n + 1, hn⟩) (iblk2 V c 1 ⟨n + 1, hn⟩) (acc2 c n (Nat.lt_of_succ_lt hn)))

theorem acc2_zero (c : Dev nD) (hn : 0 < cfg2.N) :
    acc2 V c 0 hn = k2_pay1 (k2_pay5 (iblk2 V c 0 ⟨0, hn⟩) (iblk2 V c 1 ⟨0, hn⟩) k2_pay3) := rfl

theorem acc2_succ (c : Dev nD) (n : ℕ) (hn : n + 1 < cfg2.N) :
    acc2 V c (n + 1) hn = k2_pay1 (k2_pay5 (iblk2 V c 0 ⟨n + 1, hn⟩) (iblk2 V c 1 ⟨n + 1, hn⟩) (acc2 V c n (Nat.lt_of_succ_lt hn))) := rfl

end

end Cert.Kernel.Body

end
-- ==== Proof.BReg2.lean ====
/-
  The mixed Gram kernel over its 16 x 16 grid: where each branch of the body is taken, as arithmetic on the grid point's
  number; the pipeline's proof data (each input window's buffer holds its tile at every point, the output window's
  buffer holds the sum cell beside the second cell once the last point has stored them, the sum cell holds the
  accumulated sum between points and the second cell stays at its reset value); and the body obligation at every
  point, by the three cases of the body's run.
-/
import proofs.«119468_j3521873183096_1_alg».proof.Proof.BAcc2
import proofs.«119468_j3521873183096_1_alg».proof.Proof.Gen.Kernel.Launch
import proofs.«119468_j3521873183096_1_alg».proof.Proof.Gen.Kernel.Skeleton
import proofs.«119468_j3521873183096_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The branches, decided over the grid -/

theorem hcondFirst2 : ∀ t : Fin cfg2.N, condFirst2 (grid2.coords t) ↔ t.val = 0 :=
  (by decide +kernel : ∀ t : Fin grid2.N, condFirst2 (grid2.coords t) ↔ t.val = 0)
theorem hcondLast2 : ∀ t : Fin cfg2.N, condLast2 (grid2.coords t) ↔ t.val = 255 :=
  (by decide +kernel : ∀ t : Fin grid2.N, condLast2 (grid2.coords t) ↔ t.val = 255)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬ t.val = 255 → cfg2.idle 2 (grid2.coords t) = true :=
  (by decide +kernel : ∀ t : Fin grid2.N, ¬ t.val = 255 → cfg2.idle 2 (grid2.coords t) = true)
theorem liveAt2_2 : ∀ t : Fin cfg2.N, t.val = 255 → cfg2.idle 2 (grid2.coords t) = false :=
  (by decide +kernel : ∀ t : Fin grid2.N, t.val = 255 → cfg2.idle 2 (grid2.coords t) = false)
theorem noFlush2_2 : ∀ t : Fin cfg2.N, ¬ t.val = 255 → (cfg2.win 2).flush t = false :=
  (by decide +kernel : ∀ t : Fin grid2.N, ¬ t.val = 255 → win2_2.flush t = false)

/-! ## The memrefs the body is called with -/

abbrev ms2_0 (t : Fin cfg2.N) : Memref sig .tc .vmem S512x64 .f32 := win2_0.stage (cfg2.slots t 0)
abbrev ms2_1 (t : Fin cfg2.N) : Memref sig .tc .vmem S512x64 .f32 := win2_1.stage (cfg2.slots t 1)
abbrev ms2_2 (t : Fin cfg2.N) : Memref sig .tc .vmem S1x2 .f32 := win2_2.stage (cfg2.slots t 2)
abbrev sc2_0 : Memref sig .tc .vmem S1x1 .f32 := Memref.whole cc2_scratch0
abbrev sc2_1 : Memref sig .tc .vmem S1x1 .f32 := Memref.whole cc2_scratch1

/-! ## The accumulator at a grid point, by the point's case -/

theorem acc2_first (c : Dev nD) (t : Fin cfg2.N) (h : t.val = 0) :
    acc2 V c t.val t.isLt = k2_pay1 (k2_pay5 (iblk2 V c 0 t) (iblk2 V c 1 t) k2_pay3) := by
  obtain ⟨n, hn⟩ := t
  cases n with
  | zero => rfl
  | succ n => exact absurd h (Nat.succ_ne_zero n)

theorem acc2_later (c : Dev nD) (t : Fin cfg2.N) (h0 : ¬ t.val = 0) :
    acc2 V c t.val t.isLt = k2_pay1 (k2_pay5 (iblk2 V c 0 t) (iblk2 V c 1 t) (acc2 V c (t.val - 1) (Nat.lt_of_le_of_lt (Nat.sub_le _ _) t.isLt))) := by
  obtain ⟨n, hn⟩ := t
  cases n with
  | zero => exact absurd rfl h0
  | succ n => rfl

/-! ## The invariant between points -/

theorem PhiA2_eq (c : Dev nD) :
    (Pipeline.ΦA spec2 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ d, owns (c : Thread nD τ) sc2_0 fullShare d) ∗ (∃ d, owns (c : Thread nD τ) sc2_1 fullShare d)) ∗ (∃ r, prngReg c r)) := by
  unfold Pipeline.ΦA; rw [scopedRest2_eq]; simp only [sc2_0, sc2_1, owns_whole]; try rfl

def PhiS2 (c : Dev nD) : (n : ℕ) → n ≤ cfg2.N → sProp 𝕄
  | 0, _ => Pipeline.ΦA spec2 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (owns (c : Thread nD τ) sc2_0 fullShare (acc2 V c n hn)) ∗ (owns (c : Thread nD τ) sc2_1 fullShare k2_pay4)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (owns (c : Thread nD τ) sc2_0 fullShare (acc2 V c n hn)) ∗ (owns (c : Thread nD τ) sc2_1 fullShare k2_pay4)) ∗ (∃ r, prngReg c r)) := rfl

theorem PhiS2_pos (c : Dev nD) (n : ℕ) (h : n ≤ cfg2.N) (hz : n ≠ 0) :
    PhiS2 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (owns (c : Thread nD τ) sc2_0 fullShare (acc2 V c (n - 1) (by omega))) ∗ (owns (c : Thread nD τ) sc2_1 fullShare k2_pay4)) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay2 (acc2 V c t.val t.isLt) k2_pay4
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay2 (acc2 V c t.val t.isLt) k2_pay4 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 256 := lt_of_lt_of_eq t.isLt (show cfg2.N = 256 from N_2)
  by_cases hF : t.val = 0
  · have hL : ¬ t.val = 255 := by omega
    rw [Dat.leavesExact_idle (dat2 V c) 2 t (idleAt2_2 t hL) (noFlush2_2 t hL)]
    rw [acc2_first V c t hF]
    rw [PhiS2_castSucc V c t, PhiS2_zero V c _ _ hF, PhiA2_eq]
    iintro ⟨⟨⟨R0, R1, R2, R3, R4, R5, R6, R7, R8, R9, R10, R11, R12, R13, ⟨%e0, HS0⟩, ⟨%e1, HS1⟩⟩, Hg⟩, Ho, ⟨%d0, H0⟩, ⟨%d1, H1⟩, ⟨%d2, H2⟩⟩

    iapply (run_first2 c (grid2.coords t) _ _ _ _ _ _ _ _ _ _ ((hcondFirst2 t).mpr hF) (fun h => hL ((hcondLast2 t).mp h)) (iblk2 V c 0 t) (iblk2 V c 1 t) _ e0 e1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [R0 R1 R2 R3 R4 R5 R6 R7 R8 R9 R10 R11 R12 R13 HS0 HS1 Hg]
    · isplitl [R0 R1 R2 R3 R4 R5 R6 R7 R8 R9 R10 R11 R12 R13 HS0 HS1]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [HS0]; · iexact HS0
        iexact HS1
      iexact Hg
    isplitl [Ho]; · iexact Ho
    isplitl [H0]; · iexact H0
    isplitl [H1]; · iexact H1
    iexists _; iexact H2
  · rw [PhiS2_castSucc V c t, PhiS2_pos V c _ _ hF]
    by_cases hL : t.val = 255
    · rw [show (dat2 V c).leavesExact 2 t = owns (c : Thread nD τ) (ms2_2 t) fullShare ((dat2 V c).after 2 t) from by
        unfold Dat.leavesExact; rw [liveAt2_2 t hL], after2_2]
      rw [acc2_later V c t hF]
      iintro ⟨⟨⟨R0, R1, R2, R3, R4, R5, R6, R7, R8, R9, R10, R11, R12, R13, HS0, HS1⟩, Hg⟩, Ho, ⟨%d0, H0⟩, ⟨%d1, H1⟩, ⟨%d2, H2⟩⟩

      iapply (run_last2 c (grid2.coords t) _ _ _ _ _ _ _ _ _ _ (fun h => hF ((hcondFirst2 t).mp h)) ((hcondLast2 t).mpr hL) (iblk2 V c 0 t) (iblk2 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [R0 R1 R2 R3 R4 R5 R6 R7 R8 R9 R10 R11 R12 R13 HS0 HS1 Hg]
      · isplitl [R0 R1 R2 R3 R4 R5 R6 R7 R8 R9 R10 R11 R12 R13 HS0 HS1]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HS0]; · iexact HS0
          iexact HS1
        iexact Hg
      isplitl [Ho]; · iexact Ho
      isplitl [H0]; · iexact H0
      isplitl [H1]; · iexact H1
      iexact H2
    · rw [Dat.leavesExact_idle (dat2 V c) 2 t (idleAt2_2 t hL) (noFlush2_2 t hL)]
      rw [acc2_later V c t hF]
      iintro ⟨⟨⟨R0, R1, R2, R3, R4, R5, R6, R7, R8, R9, R10, R11, R12, R13, HS0, HS1⟩, Hg⟩, Ho, ⟨%d0, H0⟩, ⟨%d1, H1⟩, ⟨%d2, H2⟩⟩

      iapply (run_mid2 c (grid2.coords t) _ _ _ _ _ _ _ _ _ _ (fun h => hF ((hcondFirst2 t).mp h)) (fun h => hL ((hcondLast2 t).mp h)) (iblk2 V c 0 t) (iblk2 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [R0 R1 R2 R3 R4 R5 R6 R7 R8 R9 R10 R11 R12 R13 HS0 HS1 Hg]
      · isplitl [R0 R1 R2 R3 R4 R5 R6 R7 R8 R9 R10 R11 R12 R13 HS0 HS1]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HS0]; · iexact HS0
          iexact HS1
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have hN : cfg2.N = 256 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨R0, R1, R2, R3, R4, R5, R6, R7, R8, R9, R10, R11, R12, R13, HS0, HS1⟩, Hg⟩
  isplitl [R0 R1 R2 R3 R4 R5 R6 R7 R8 R9 R10 R11 R12 R13 HS0 HS1]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [HS0]; · iexists _; iexact HS0
    iexists _; iexact HS1
  iexact Hg

end

end Cert.Kernel.Body

end
-- ==== Proof.BFold.lean ====
/-
  The buffer contents at each boundary of @main's six items (region, host stretch, region, host stretch, region, host
  stretch), as a fold from the launch memory: a region changes only its own result array, which ends at what the
  pipeline's write-backs leave in it; a host stretch is the fold of its operations.
-/
import proofs.«119468_j3521873183096_1_alg».proof.Proof.BReg0
import proofs.«119468_j3521873183096_1_alg».proof.Proof.BReg1
import proofs.«119468_j3521873183096_1_alg».proof.Proof.BReg2
import proofs.«119468_j3521873183096_1_alg».proof.Proof.Gen.Kernel.Regions
import Idealize.ShloMosaic.Lib.Pipeline.RegionsLoop
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main's six items: region, host stretch, region, host stretch, region,
    host stretch.  A region changes only its result array, which ends at what its last grid point wrote back. -/

abbrev W0 : Dev nD → Valuation τ sig (Elt F) := fun c b => m (c, b)
abbrev Vr0 : (c : Dev nD) → (b : Ref sig .tc) → Buf (Elt F) ((c : Thread nD τ).loc b) := fun c b => W0 m c b
def W1 (c : Dev nD) : Valuation τ sig (Elt F) := Function.update (W0 m c) main_v0 ((dat0 (Vr0 m) c).arrAt 2 cfg0.N)
abbrev Vr1 : (c : Dev nD) → (b : Ref sig .tc) → Buf (Elt F) ((c : Thread nD τ).loc b) := fun c b => W1 m c b
abbrev W2 : Dev nD → Valuation τ sig (Elt F) := fun c => StableHlo.after hostOps1 (W1 m c)
abbrev Vr2 : (c : Dev nD) → (b : Ref sig .tc) → Buf (Elt F) ((c : Thread nD τ).loc b) := fun c b => W2 m c b
def W3 (c : Dev nD) : Valuation τ sig (Elt F) := Function.update (W2 m c) main_v5 ((dat1 (Vr2 m) c).arrAt 2 cfg1.N)
abbrev Vr3 : (c : Dev nD) → (b : Ref sig .tc) → Buf (Elt F) ((c : Thread nD τ).loc b) := fun c b => W3 m c b
abbrev W4 : Dev nD → Valuation τ sig (Elt F) := fun c => StableHlo.after hostOps2 (W3 m c)
abbrev Vr4 : (c : Dev nD) → (b : Ref sig .tc) → Buf (Elt F) ((c : Thread nD τ).loc b) := fun c b => W4 m c b
def W5 (c : Dev nD) : Valuation τ sig (Elt F) := Function.update (W4 m c) main_v10 ((dat2 (Vr4 m) c).arrAt 2 cfg2.N)
abbrev Vr5 : (c : Dev nD) → (b : Ref sig .tc) → Buf (Elt F) ((c : Thread nD τ).loc b) := fun c b => W5 m c b
abbrev W6 : Dev nD → Valuation τ sig (Elt F) := fun c => StableHlo.after hostOps3 (W5 m c)

theorem hout0_arr (c : Dev nD) : Vr1 m c main_v0 = (dat0 (Vr0 m) c).arrAt 2 cfg0.N := by
  show W1 m c (Proc.devRef .tc main_v0) = _
  unfold W1; exact Function.update_self ..
theorem hrest0_arr (c : Dev nD) : ∀ b : Ref sig .tc, b ≠ main_v0 → Vr1 m c b = Vr0 m c b := fun b hb => by
  show W1 m c (Proc.devRef .tc b) = W0 m c (Proc.devRef .tc b)
  unfold W1; exact Function.update_of_ne (StableHlo.devRef_ne_of_ne hb : (Proc.devRef .tc b : DevRef τ sig) ≠ Proc.devRef .tc main_v0) ..
theorem hout1_arr (c : Dev nD) : Vr3 m c main_v5 = (dat1 (Vr2 m) c).arrAt 2 cfg1.N := by
  show W3 m c (Proc.devRef .tc main_v5) = _
  unfold W3; exact Function.update_self ..
theorem hrest1_arr (c : Dev nD) : ∀ b : Ref sig .tc, b ≠ main_v5 → Vr3 m c b = Vr2 m c b := fun b hb => by
  show W3 m c (Proc.devRef .tc b) = W2 m c (Proc.devRef .tc b)
  unfold W3; exact Function.update_of_ne (StableHlo.devRef_ne_of_ne hb : (Proc.devRef .tc b : DevRef τ sig) ≠ Proc.devRef .tc main_v5) ..
theorem hout2_arr (c : Dev nD) : Vr5 m c main_v10 = (dat2 (Vr4 m) c).arrAt 2 cfg2.N := by
  show W5 m c (Proc.devRef .tc main_v10) = _
  unfold W5; exact Function.update_self ..
theorem hrest2_arr (c : Dev nD) : ∀ b : Ref sig .tc, b ≠ main_v10 → Vr5 m c b = Vr4 m c b := fun b hb => by
  show W5 m c (Proc.devRef .tc b) = W4 m c (Proc.devRef .tc b)
  unfold W5; exact Function.update_of_ne (StableHlo.devRef_ne_of_ne hb : (Proc.devRef .tc b : DevRef τ sig) ≠ Proc.devRef .tc main_v10) ..

/-- Region 2's arrays are distinct buffers: at its exit each holds what the pipeline leaves, every other buffer what
    it held at entry. -/
theorem hF2 (c : Dev nD) (w : Fin cfg2.W) : (dat2 (Vr4 m) c).arrAt w cfg2.N = Vr5 m c (Pipeline.arrRef spec2 w) := by
  match w with
  | ⟨0, _⟩ => exact (((dat2 (Vr4 m) c).arrAt_in 0 rfl _).trans (A_eq2 (Vr4 m) c 0)).trans (hrest2_arr m c main_arg0 (by decide)).symm
  | ⟨1, _⟩ => exact (((dat2 (Vr4 m) c).arrAt_in 1 rfl _).trans (A_eq2 (Vr4 m) c 1)).trans (hrest2_arr m c main_arg1 (by decide)).symm
  | ⟨2, _⟩ => exact (hout2_arr m c).symm
theorem hrest2 (c : Dev nD) : ∀ b, b ∉ Finset.univ.image (Pipeline.arrRef spec2) → Vr5 m c b = Vr4 m c b :=
  fun b hb => hrest2_arr m c b fun e => hb (Finset.mem_image.mpr ⟨2, Finset.mem_univ _, e.symm⟩)

/-- No item writes an argument array: it reaches the end as launched. -/
theorem W6_of_arg (c : Dev nD) (r : Ref sig .tc) (h3 : r ∉ hostOps3_W) (h2 : r ∉ hostOps2_W) (h1 : r ∉ hostOps1_W)
    (g0 : r ≠ main_v0) (g1 : r ≠ main_v5) (g2 : r ≠ main_v10) : W6 m c r = m ((c : Thread nD τ).loc r) :=
  (StableHlo.after_of_writes_sub hostOps3 _ hostOps3_writes h3).trans <|
  (hrest2_arr m c r g2).trans <| (StableHlo.after_of_writes_sub hostOps2 _ hostOps2_writes h2).trans <|
  (hrest1_arr m c r g1).trans <| (StableHlo.after_of_writes_sub hostOps1 _ hostOps1_writes h1).trans <|
  (hrest0_arr m c r g0).trans rfl
theorem W6_main_arg0 (c : Dev nD) : W6 m c main_arg0 = m ((c : Thread nD τ).loc main_arg0) :=
  W6_of_arg m c main_arg0 (by decide) (by decide) (by decide) (by decide) (by decide) (by decide)
theorem W6_main_arg1 (c : Dev nD) : W6 m c main_arg1 = m ((c : Thread nD τ).loc main_arg1) :=
  W6_of_arg m c main_arg1 (by decide) (by decide) (by decide) (by decide) (by decide) (by decide)
/-- The arguments as each region finds them are the launch contents. -/
theorem Vr2_of_arg (c : Dev nD) (r : Ref sig .tc) (h1 : r ∉ hostOps1_W) (g0 : r ≠ main_v0) : Vr2 m c r = m ((c : Thread nD τ).loc r) :=
  (StableHlo.after_of_writes_sub hostOps1 _ hostOps1_writes h1).trans <| (hrest0_arr m c r g0).trans rfl
theorem Vr4_of_arg (c : Dev nD) (r : Ref sig .tc) (h2 : r ∉ hostOps2_W) (h1 : r ∉ hostOps1_W) (g0 : r ≠ main_v0) (g1 : r ≠ main_v5) :
    Vr4 m c r = m ((c : Thread nD τ).loc r) :=
  (StableHlo.after_of_writes_sub hostOps2 _ hostOps2_writes h2).trans <| (hrest1_arr m c r g1).trans <| Vr2_of_arg m c r h1 g0

end Cert.Kernel.Body

end
-- ==== Proof.BShare0.lean ====
/-
  Entering and leaving Gram kernel 0's region, for a core that holds every unscoped buffer whole at a valuation.

  The region's two input windows read ONE array and its output window writes another, so the buffers behind
  its three windows are two.  At entry the input array's full share is dealt in halves, the left half to the
  first input window and the right half to the second, and the output array goes whole to the output window;
  what is left of the unscoped buffers is the unscoped rest.  At exit the two halves, which hold the same
  contents because no input window's array is ever written back, rejoin to the full share, and the output
  array comes back at its final contents.
-/
import proofs.«119468_j3521873183096_1_alg».proof.Proof.BReg0
import Idealize.ShloMosaic.Lib.Pipeline.Regions
import Idealize.ShloMosaic.Lib.Pipeline.RegionsLoop

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- A core's unscoped buffers at a valuation are the two distinct buffers behind the region's three windows,
    each whole at the full share, and the unscoped rest: the image of the windows' arrays is a pair. -/
theorem unscopedBufs_split0 (c : Dev nD) (V₁ : (b : Ref sig .tc) → Buf (Elt F) ((c : Thread nD τ).loc b)) :
    (unscopedBufs c V₁ : sProp 𝕄)
      = iprop(((((c : Thread nD τ).loc main_arg0) ↦{fullShare} V₁ main_arg0) ∗ (((c : Thread nD τ).loc main_v0) ↦{fullShare} V₁ main_v0))
          ∗ Pipeline.unscopedRest (Ix := Unit) (Name := ℕ) (U := UR sig nD τ) (Lvl := ℕ) spec0 c V₁) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  have hI : Finset.univ.image (Pipeline.arrRef spec0) = {main_arg0, main_v0} := by decide
  have h1 : ∀ Φ : Ref sig .tc → sProp 𝕄, bigSep (Finset.univ.image (Pipeline.arrRef spec0)) Φ = iprop(Φ main_arg0 ∗ Φ main_v0) := fun Φ => by
    rw [hI, bigSep_insert (by decide), bigSep_singleton]; rfl
  unfold unscopedBufs Pipeline.unscopedRest
  rw [bigSep_sdiff_split hA, h1]
  rfl

/-- The region's arrays at contents G: the input array's two half shares, one per input window, and the
    output array at the full share, each array a whole buffer. -/
theorem arrays0_eq (c : Dev nD) (G : (w : Fin cfg0.W) → Buf (Elt F) ((cfg0.win w).arr.view.loc (c.tc : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0, (arr_whole0 0).set_eq_univ, (arr_whole0 2).set_eq_univ,
    show (dat0 V c).share 0 = fullShare.left from rfl, show (dat0 V c).share 1 = fullShare.right from rfl,
    show (dat0 V c).share 2 = fullShare from rfl]

/-- The full share of the input array, beside the output array and anything else, is its two halves at the
    same contents beside them, and back: a share splits into its left and right halves. -/
theorem share_halves0 (c : Dev nD) (f : Buf (Elt F) ((c : Thread nD τ).loc main_arg0)) (g : Buf (Elt F) ((c : Thread nD τ).loc main_v0))
    (R : sProp 𝕄) :
    iprop(((((c : Thread nD τ).loc main_arg0) ↦{fullShare} f) ∗ (((c : Thread nD τ).loc main_v0) ↦{fullShare} g)) ∗ R)
      ⊣⊢ iprop(((((c : Thread nD τ).loc main_arg0) ↦{fullShare.left} f) ∗ (((c : Thread nD τ).loc main_arg0) ↦{fullShare.right} f)
          ∗ (((c : Thread nD τ).loc main_v0) ↦{fullShare} g)) ∗ R) := by
  constructor
  · iintro ⟨⟨Ha, Hv⟩, Hr⟩
    ihave Hs := (pointsTo_share (PosShare.mem_left_op_right fullShare)).1 $$ Ha
    icases Hs with ⟨Hl, Hrt⟩
    isplitr [Hr]
    · isplitl [Hl]; · iexact Hl
      isplitl [Hrt]; · iexact Hrt
      iexact Hv
    · iexact Hr
  · iintro ⟨⟨Hl, Hrt, Hv⟩, Hr⟩
    ihave Ha := (pointsTo_share (PosShare.mem_left_op_right fullShare)).2 $$ [Hl Hrt]
    · isplitl [Hl]; · iexact Hl
      iexact Hrt
    isplitr [Hr]
    · isplitl [Ha]; · iexact Ha
      iexact Hv
    · iexact Hr

/-- ENTRY, the arrays' part: a core's unscoped buffers at the entry contents are the region's arrays at the
    proof data's entry contents, the input array's full share dealt in halves to the two windows that read it,
    and the unscoped rest. -/
theorem arrays_of_unscopedBufs0 (c : Dev nD) :
    (unscopedBufs c (V c) : sProp 𝕄) ⊢ iprop((dat0 V c).arrays ((dat0 V c).arrAt · 0) ∗ Pipeline.unscopedRest (Ix := Unit) (Name := ℕ) (U := UR sig nD τ) (Lvl := ℕ) spec0 c (V c)) := by
  rw [unscopedBufs_split0 c (V c), arrays0_eq V c]
  exact (share_halves0 c (V c main_arg0) (V c main_v0) _).1

/-- EXIT, the arrays' part: the region's arrays at the proof data's final contents and the unscoped rest at the
    entry contents are the core's unscoped buffers at any valuation that has the output array at its final
    contents and agrees with the entry contents elsewhere: the input array's two halves hold the same contents,
    so they rejoin to the full share. -/
theorem unscopedBufs_of_arrays0 (c : Dev nD) (V' : (b : Ref sig .tc) → Buf (Elt F) ((c : Thread nD τ).loc b))
    (hout : V' main_v0 = (dat0 V c).arrAt 2 cfg0.N) (hrest : ∀ b, b ≠ main_v0 → V' b = V c b) :
    iprop((dat0 V c).arrays ((dat0 V c).arrAt · cfg0.N) ∗ Pipeline.unscopedRest (Ix := Unit) (Name := ℕ) (U := UR sig nD τ) (Lvl := ℕ) spec0 c (V c)) ⊢ (unscopedBufs c V' : sProp 𝕄) := by
  have e0 : (dat0 V c).arrAt 0 cfg0.N = V c main_arg0 := ((dat0 V c).arrAt_in 0 rfl cfg0.N).trans (A_eq0 V c 0)
  have e1 : (dat0 V c).arrAt 1 cfg0.N = V c main_arg0 := ((dat0 V c).arrAt_in 1 rfl cfg0.N).trans (A_eq0 V c 1)
  have hR : (Pipeline.unscopedRest (Ix := Unit) (Name := ℕ) (U := UR sig nD τ) (Lvl := ℕ) spec0 c V' : sProp 𝕄)
      = Pipeline.unscopedRest spec0 c (V c) := by
    unfold Pipeline.unscopedRest
    refine bigSep_congr fun b hb => ?_
    rw [hrest b fun h => (Finset.mem_sdiff.mp hb).2 (h ▸ Finset.mem_image.mpr ⟨2, Finset.mem_univ _, rfl⟩)]
  rw [unscopedBufs_split0 c V', arrays0_eq V c, hR, hrest main_arg0 (by decide), hout]
  show iprop(((((c : Thread nD τ).loc main_arg0) ↦{fullShare.left} (dat0 V c).arrAt 0 cfg0.N)
      ∗ (((c : Thread nD τ).loc main_arg0) ↦{fullShare.right} (dat0 V c).arrAt 1 cfg0.N)
      ∗ (((c : Thread nD τ).loc main_v0) ↦{fullShare} (dat0 V c).arrAt 2 cfg0.N)) ∗ _) ⊢ _
  rw [e0, e1]
  exact (share_halves0 c (V c main_arg0) ((dat0 V c).arrAt 2 cfg0.N) _).2

end

end Cert.Kernel.Body

end
-- ==== Proof.BShare1.lean ====
/-
  Entering and leaving Gram kernel 1's region, for a core that holds every unscoped buffer whole at a valuation.

  The region's two input windows read ONE array and its output window writes another, so the buffers behind
  its three windows are two.  At entry the input array's full share is dealt in halves, the left half to the
  first input window and the right half to the second, and the output array goes whole to the output window;
  what is left of the unscoped buffers is the unscoped rest.  At exit the two halves, which hold the same
  contents because no input window's array is ever written back, rejoin to the full share, and the output
  array comes back at its final contents.
-/
import proofs.«119468_j3521873183096_1_alg».proof.Proof.BReg1
import Idealize.ShloMosaic.Lib.Pipeline.Regions
import Idealize.ShloMosaic.Lib.Pipeline.RegionsLoop

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- A core's unscoped buffers at a valuation are the two distinct buffers behind the region's three windows,
    each whole at the full share, and the unscoped rest: the image of the windows' arrays is a pair. -/
theorem unscopedBufs_split1 (c : Dev nD) (V₁ : (b : Ref sig .tc) → Buf (Elt F) ((c : Thread nD τ).loc b)) :
    (unscopedBufs c V₁ : sProp 𝕄)
      = iprop(((((c : Thread nD τ).loc main_arg1) ↦{fullShare} V₁ main_arg1) ∗ (((c : Thread nD τ).loc main_v5) ↦{fullShare} V₁ main_v5))
          ∗ Pipeline.unscopedRest (Ix := Unit) (Name := ℕ) (U := UR sig nD τ) (Lvl := ℕ) spec1 c V₁) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  have hI : Finset.univ.image (Pipeline.arrRef spec1) = {main_arg1, main_v5} := by decide
  have h1 : ∀ Φ : Ref sig .tc → sProp 𝕄, bigSep (Finset.univ.image (Pipeline.arrRef spec1)) Φ = iprop(Φ main_arg1 ∗ Φ main_v5) := fun Φ => by
    rw [hI, bigSep_insert (by decide), bigSep_singleton]; rfl
  unfold unscopedBufs Pipeline.unscopedRest
  rw [bigSep_sdiff_split hA, h1]
  rfl

/-- The region's arrays at contents G: the input array's two half shares, one per input window, and the
    output array at the full share, each array a whole buffer. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_arg1) ↦{fullShare.left} G 0) ∗ (((c : Thread nD τ).loc main_arg1) ↦{fullShare.right} G 1)
          ∗ (((c : Thread nD τ).loc main_v5) ↦{fullShare} G 2)) := by
  unfold Dat.arrays
  rw [bigSep_W1, (arr_whole1 0).set_eq_univ, (arr_whole1 2).set_eq_univ,
    show (dat1 V c).share 0 = fullShare.left from rfl, show (dat1 V c).share 1 = fullShare.right from rfl,
    show (dat1 V c).share 2 = fullShare from rfl]

/-- The full share of the input array, beside the output array and anything else, is its two halves at the
    same contents beside them, and back: a share splits into its left and right halves. -/
theorem share_halves1 (c : Dev nD) (f : Buf (Elt F) ((c : Thread nD τ).loc main_arg1)) (g : Buf (Elt F) ((c : Thread nD τ).loc main_v5))
    (R : sProp 𝕄) :
    iprop(((((c : Thread nD τ).loc main_arg1) ↦{fullShare} f) ∗ (((c : Thread nD τ).loc main_v5) ↦{fullShare} g)) ∗ R)
      ⊣⊢ iprop(((((c : Thread nD τ).loc main_arg1) ↦{fullShare.left} f) ∗ (((c : Thread nD τ).loc main_arg1) ↦{fullShare.right} f)
          ∗ (((c : Thread nD τ).loc main_v5) ↦{fullShare} g)) ∗ R) := by
  constructor
  · iintro ⟨⟨Ha, Hv⟩, Hr⟩
    ihave Hs := (pointsTo_share (PosShare.mem_left_op_right fullShare)).1 $$ Ha
    icases Hs with ⟨Hl, Hrt⟩
    isplitr [Hr]
    · isplitl [Hl]; · iexact Hl
      isplitl [Hrt]; · iexact Hrt
      iexact Hv
    · iexact Hr
  · iintro ⟨⟨Hl, Hrt, Hv⟩, Hr⟩
    ihave Ha := (pointsTo_share (PosShare.mem_left_op_right fullShare)).2 $$ [Hl Hrt]
    · isplitl [Hl]; · iexact Hl
      iexact Hrt
    isplitr [Hr]
    · isplitl [Ha]; · iexact Ha
      iexact Hv
    · iexact Hr

/-- ENTRY, the arrays' part: a core's unscoped buffers at the entry contents are the region's arrays at the
    proof data's entry contents, the input array's full share dealt in halves to the two windows that read it,
    and the unscoped rest. -/
theorem arrays_of_unscopedBufs1 (c : Dev nD) :
    (unscopedBufs c (V c) : sProp 𝕄) ⊢ iprop((dat1 V c).arrays ((dat1 V c).arrAt · 0) ∗ Pipeline.unscopedRest (Ix := Unit) (Name := ℕ) (U := UR sig nD τ) (Lvl := ℕ) spec1 c (V c)) := by
  rw [unscopedBufs_split1 c (V c), arrays1_eq V c]
  exact (share_halves1 c (V c main_arg1) (V c main_v5) _).1

/-- EXIT, the arrays' part: the region's arrays at the proof data's final contents and the unscoped rest at the
    entry contents are the core's unscoped buffers at any valuation that has the output array at its final
    contents and agrees with the entry contents elsewhere: the input array's two halves hold the same contents,
    so they rejoin to the full share. -/
theorem unscopedBufs_of_arrays1 (c : Dev nD) (V' : (b : Ref sig .tc) → Buf (Elt F) ((c : Thread nD τ).loc b))
    (hout : V' main_v5 = (dat1 V c).arrAt 2 cfg1.N) (hrest : ∀ b, b ≠ main_v5 → V' b = V c b) :
    iprop((dat1 V c).arrays ((dat1 V c).arrAt · cfg1.N) ∗ Pipeline.unscopedRest (Ix := Unit) (Name := ℕ) (U := UR sig nD τ) (Lvl := ℕ) spec1 c (V c)) ⊢ (unscopedBufs c V' : sProp 𝕄) := by
  have e0 : (dat1 V c).arrAt 0 cfg1.N = V c main_arg1 := ((dat1 V c).arrAt_in 0 rfl cfg1.N).trans (A_eq1 V c 0)
  have e1 : (dat1 V c).arrAt 1 cfg1.N = V c main_arg1 := ((dat1 V c).arrAt_in 1 rfl cfg1.N).trans (A_eq1 V c 1)
  have hR : (Pipeline.unscopedRest (Ix := Unit) (Name := ℕ) (U := UR sig nD τ) (Lvl := ℕ) spec1 c V' : sProp 𝕄)
      = Pipeline.unscopedRest spec1 c (V c) := by
    unfold Pipeline.unscopedRest
    refine bigSep_congr fun b hb => ?_
    rw [hrest b fun h => (Finset.mem_sdiff.mp hb).2 (h ▸ Finset.mem_image.mpr ⟨2, Finset.mem_univ _, rfl⟩)]
  rw [unscopedBufs_split1 c V', arrays1_eq V c, hR, hrest main_arg1 (by decide), hout]
  show iprop(((((c : Thread nD τ).loc main_arg1) ↦{fullShare.left} (dat1 V c).arrAt 0 cfg1.N)
      ∗ (((c : Thread nD τ).loc main_arg1) ↦{fullShare.right} (dat1 V c).arrAt 1 cfg1.N)
      ∗ (((c : Thread nD τ).loc main_v5) ↦{fullShare} (dat1 V c).arrAt 2 cfg1.N)) ∗ _) ⊢ _
  rw [e0, e1]
  exact (share_halves1 c (V c main_arg1) ((dat1 V c).arrAt 2 cfg1.N) _).2

end

end Cert.Kernel.Body

end
-- ==== Proof.BRun.lean ====
/-
  The run of the three-region program: each kernel region as a segment between thread states "every unscoped buffer at
  the boundary's contents, the generator register at some state, nothing owed" (its arrays taken out of the unscoped
  buffers at entry and put back at exit; for the two regions whose input windows read one array, each window holding
  half of the array's share), the host stretches between them, and the launch: from any memory with zero counters
  every weakly fair execution terminates, nothing faulting, with every unscoped buffer at the last boundary's contents.
-/
import proofs.«119468_j3521873183096_1_alg».proof.Proof.BFold
import proofs.«119468_j3521873183096_1_alg».proof.Proof.BShare0
import proofs.«119468_j3521873183096_1_alg».proof.Proof.BShare1
import Idealize.ShloMosaic.Lib.Pipeline.RegionsLoop
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Every pipeline's proof data, each at its region's entry contents: a literal match on the pipeline. -/
def pdats : (p : Fin 3) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr2 m) c
  | ⟨2, _⟩ => fun c => dat2 (Vr4 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
abbrev Tn (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state "every unscoped buffer at the boundary's contents, the generator register at some
    state, nothing owed": entered from `W0`, left at `W1`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit : (unscopedBufs c (Vr0 m c) : sProp 𝕄) ⊢ iprop((pdats m 0 c).arrays ((pdats m 0 c).arrAt · 0) ∗ Pipeline.unscopedRest (Ix := Unit) (Name := ℕ) (U := UR sig nD τ) (Lvl := ℕ) spec0 c (Vr0 m c)) :=
      arrays_of_unscopedBufs0 (Vr0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m 0 c).Φ 0 := hin0 (Vr0 m) c
    iintro ⟨Hp, -, Hr⟩
    iapply h
    unfold Pipeline.ΦA
    isplitl [Hr]; · iexact Hr
    iexact Hp
  hout c := by
    rw [Pipeline.ownSems0_none]
    have h : (pdats m 0 c).Φ (Fin.last (Pipeline.pin (pcfgs (F := F)) adm 0).N) ⊢ (Pipeline.ΦA spec0 c : sProp 𝕄) := hout0 (Vr0 m) c
    unfold Pipeline.ΦA at h
    iintro HP
    ihave H := h $$ HP
    icases H with ⟨Hr, Hp⟩
    isplitl [Hp]; · iexact Hp
    isplitr; · iempintro
    iexact Hr
  hexit c := by
    have hjoin : iprop((pdats m 0 c).arrays ((pdats m 0 c).arrAt · (Pipeline.pin (pcfgs (F := F)) adm 0).N) ∗ Pipeline.unscopedRest (Ix := Unit) (Name := ℕ) (U := UR sig nD τ) (Lvl := ℕ) spec0 c (Vr0 m c))
        ⊢ (unscopedBufs c (Vr1 m c) : sProp 𝕄) := unscopedBufs_of_arrays0 (Vr0 m) c (Vr1 m c) (hout0_arr m c) (hrest0_arr m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": entered from `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit : (unscopedBufs c (Vr2 m c) : sProp 𝕄) ⊢ iprop((pdats m 1 c).arrays ((pdats m 1 c).arrAt · 0) ∗ Pipeline.unscopedRest (Ix := Unit) (Name := ℕ) (U := UR sig nD τ) (Lvl := ℕ) spec1 c (Vr2 m c)) :=
      arrays_of_unscopedBufs1 (Vr2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (Vr2 m) c
    iintro ⟨Hp, -, Hr⟩
    iapply h
    unfold Pipeline.ΦA
    isplitl [Hr]; · iexact Hr
    iexact Hp
  hout c := by
    rw [Pipeline.ownSems0_none]
    have h : (pdats m 1 c).Φ (Fin.last (Pipeline.pin (pcfgs (F := F)) adm 1).N) ⊢ (Pipeline.ΦA spec1 c : sProp 𝕄) := hout1 (Vr2 m) c
    unfold Pipeline.ΦA at h
    iintro HP
    ihave H := h $$ HP
    icases H with ⟨Hr, Hp⟩
    isplitl [Hp]; · iexact Hp
    isplitr; · iempintro
    iexact Hr
  hexit c := by
    have hjoin : iprop((pdats m 1 c).arrays ((pdats m 1 c).arrAt · (Pipeline.pin (pcfgs (F := F)) adm 1).N) ∗ Pipeline.unscopedRest (Ix := Unit) (Name := ℕ) (U := UR sig nD τ) (Lvl := ℕ) spec1 c (Vr2 m c))
        ⊢ (unscopedBufs c (Vr3 m c) : sProp 𝕄) := unscopedBufs_of_arrays1 (Vr2 m) c (Vr3 m c) (hout1_arr m c) (hrest1_arr m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": entered from `W4`, left at `W5`. -/
def reg2 : Pipeline.RegionSeg (pcfgs (F := F)) adm (pdats m) () defs₀ 𝒱₀ L lv 2 where
  win := launch2.win.to₀
  block_pos := block_pos2
  stage_whole := stage_whole2
  K := PEmpty
  osem k := k.elim
  ho := Pipeline.OwnSemFacts.none _
  hbody c := (body_obligation2 (Vr4 m) c).loose
  hwaits := Pipeline.hwaits_of_owed_zero _ _ _ _ L lv 2 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X c := iprop(∃ r, prngReg c r)
  Y c := iprop(∃ r, prngReg c r)
  Z c := Pipeline.unscopedRest (Ix := Unit) (Name := ℕ) (U := UR sig nD τ) (Lvl := ℕ) spec2 c (Vr4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m 2 c).Φ 0 := hin2 (Vr4 m) c
    iintro ⟨Hp, -, Hr⟩
    iapply h
    unfold Pipeline.ΦA
    isplitl [Hr]; · iexact Hr
    iexact Hp
  hout c := by
    rw [Pipeline.ownSems0_none]
    have h : (pdats m 2 c).Φ (Fin.last (Pipeline.pin (pcfgs (F := F)) adm 2).N) ⊢ (Pipeline.ΦA spec2 c : sProp 𝕄) := hout2 (Vr4 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr4 m c) (Vr5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds each unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps3 (W5 m c)) ∗ Rr c)
        ⊢ iprop(Tn m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Body

end
-- ==== Proof.KCommon.lean ====
import proofs.«119468_j3521873183096_1_alg».proof.Proof.Gen.KernelIdeal.Launch
import proofs.«119468_j3521873183096_1_alg».proof.Proof.Gen.KernelIdeal.Skeleton
import proofs.«119468_j3521873183096_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Small facts every body case uses: the zero offsets of the whole-buffer accesses, and that a list of stores whose
    last one goes through the whole-shape rectangle covers the shape. -/

theorem hz11 : (![0, 0] : Fin S1x1.rank → Nat) = fun _ => 0 := by funext a; fin_cases a <;> rfl
theorem hz12 : (![0, 0] : Fin S1x2.rank → Nat) = fun _ => 0 := by funext a; fin_cases a <;> rfl
theorem hz51264 : (![0, 0] : Fin S512x64.rank → Nat) = fun _ => 0 := by funext a; fin_cases a <;> rfl

/-- A list of stores whose last one (the head) goes through the whole-shape rectangle covers the shape. -/
theorem cover_head_whole {S : Shape} {e : EltTy} {Val : EltTy → Type} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self .., by show y ∈ (Rect.whole S).set; rw [Rect.set_whole]; exact Finset.mem_univ y⟩

end Cert.KernelIdeal.Body

end
-- ==== Proof.KBody0.lean ====
/-
  The body of Gram kernel 0 (both operands the same sample) run symbolically at a grid point, in each of the four
  situations the 16 x 16 grid meets: the first point (the two accumulators are reset; the tile is diagonal), a later
  diagonal tile, an off-diagonal tile, and the last point (diagonal; the two accumulators are written out).  Each
  statement says what the five buffers hold afterwards as the body's own arithmetic of what they held before.
-/
import proofs.«119468_j3521873183096_1_alg».proof.Proof.KCommon
import proofs.«119468_j3521873183096_1_alg».proof.Proof.Gen.KernelIdeal.Launch
import proofs.«119468_j3521873183096_1_alg».proof.Proof.Gen.KernelIdeal.Skeleton
import proofs.«119468_j3521873183096_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken when both grid coordinates are zero. -/
abbrev condFirst0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch is taken when the two grid coordinates are equal: a diagonal tile. -/
abbrev condDiag0 (i : grid0.Coords) : Prop :=
  (Scalar.cmpi .ne (Scalar.extui (Scalar.cmpi .eq (BitVec.ofNat 32 (i 0).val) (BitVec.ofNat 32 (i 1).val))) 0#32) = 1#1
/-- The third branch is taken at the last grid point. -/
abbrev condLast0 (i : grid0.Coords) : Prop := k0_cond3 i = 1#1

set_option maxHeartbeats 1000000 in
theorem run_mid0 (c : Dev nD) (i : grid0.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst0 i) (hc2 : ¬ condDiag0 i) (hc3 : ¬ condLast0 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k0_pay1 (k0_pay7 x y s0))
            ∗ owns (c : Thread nD τ) arg6 fullShare (s1)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr; · ipureintro; exact hf6
    iexact H6

set_option maxHeartbeats 1000000 in
theorem run_diag0 (c : Dev nD) (i : grid0.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst0 i) (hc2 : condDiag0 i) (hc3 : ¬ condLast0 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k0_pay1 (k0_pay7 x y s0))
            ∗ owns (c : Thread nD τ) arg6 fullShare (k0_pay2 (k0_pay6 x y) s1)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

set_option maxHeartbeats 1000000 in
theorem run_first0 (c : Dev nD) (i : grid0.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : condFirst0 i) (hc2 : condDiag0 i) (hc3 : ¬ condLast0 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k0_pay1 (k0_pay7 x y k0_pay4))
            ∗ owns (c : Thread nD τ) arg6 fullShare (k0_pay2 (k0_pay6 x y) k0_pay5)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

set_option maxHeartbeats 1000000 in
theorem run_last0 (c : Dev nD) (i : grid0.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst0 i) (hc2 : condDiag0 i) (hc3 : condLast0 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (k0_pay3 (k0_pay1 (k0_pay7 x y s0)) (k0_pay2 (k0_pay6 x y) s1))
            ∗ owns (c : Thread nD τ) arg5 fullShare (k0_pay1 (k0_pay7 x y s0))
            ∗ owns (c : Thread nD τ) arg6 fullShare (k0_pay2 (k0_pay6 x y) s1)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    try sl_unfold_run_names
    rw [View.read_writes_eq_canon _ _ _ (cover_head_whole hz12 _ _ _), View.canon_cons_unit_zero hz12]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

end Cert.KernelIdeal.Body

end
-- ==== Proof.KAcc0.lean ====
import proofs.«119468_j3521873183096_1_alg».proof.Proof.KBody0
import proofs.«119468_j3521873183096_1_alg».proof.Proof.Gen.KernelIdeal.Launch
import proofs.«119468_j3521873183096_1_alg».proof.Proof.Gen.KernelIdeal.Skeleton
import proofs.«119468_j3521873183096_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The tiles the body is handed at each grid point, and what the two accumulators hold after each point, as the
    body's own arithmetic folded along the grid in row-major order. -/

section
-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the sum accumulator and the trace accumulator hold after grid point `n`: at the first point both start from
    the zero cell; at every point the tile's sum is added to the first; on a diagonal tile (n / 16 = n % 16) the tile's
    masked diagonal sum is added to the second. -/
def acc0 (c : Dev nD) : (n : ℕ) → n < cfg0.N → Vec F S1x1 .f32 × Vec F S1x1 .f32
  | 0, hn => (k0_pay1 (k0_pay7 (iblk0 V c 0 ⟨0, hn⟩) (iblk0 V c 1 ⟨0, hn⟩) k0_pay4),
      k0_pay2 (k0_pay6 (iblk0 V c 0 ⟨0, hn⟩) (iblk0 V c 1 ⟨0, hn⟩)) k0_pay5)
  | n + 1, hn =>
    (k0_pay1 (k0_pay7 (iblk0 V c 0 ⟨n + 1, hn⟩) (iblk0 V c 1 ⟨n + 1, hn⟩) (acc0 c n (Nat.lt_of_succ_lt hn)).1),
      if (n + 1) / 16 = (n + 1) % 16 then
        k0_pay2 (k0_pay6 (iblk0 V c 0 ⟨n + 1, hn⟩) (iblk0 V c 1 ⟨n + 1, hn⟩)) (acc0 c n (Nat.lt_of_succ_lt hn)).2
      else (acc0 c n (Nat.lt_of_succ_lt hn)).2)

theorem acc0_zero (c : Dev nD) (hn : 0 < cfg0.N) :
    acc0 V c 0 hn = (k0_pay1 (k0_pay7 (iblk0 V c 0 ⟨0, hn⟩) (iblk0 V c 1 ⟨0, hn⟩) k0_pay4),
      k0_pay2 (k0_pay6 (iblk0 V c 0 ⟨0, hn⟩) (iblk0 V c 1 ⟨0, hn⟩)) k0_pay5) := rfl

theorem acc0_succ (c : Dev nD) (n : ℕ) (hn : n + 1 < cfg0.N) :
    acc0 V c (n + 1) hn =
      (k0_pay1 (k0_pay7 (iblk0 V c 0 ⟨n + 1, hn⟩) (iblk0 V c 1 ⟨n + 1, hn⟩) (acc0 V c n (Nat.lt_of_succ_lt hn)).1),
        if (n + 1) / 16 = (n + 1) % 16 then
          k0_pay2 (k0_pay6 (iblk0 V c 0 ⟨n + 1, hn⟩) (iblk0 V c 1 ⟨n + 1, hn⟩)) (acc0 V c n (Nat.lt_of_succ_lt hn)).2
        else (acc0 V c n (Nat.lt_of_succ_lt hn)).2) := rfl

end

end Cert.KernelIdeal.Body

end
-- ==== Proof.KReg0.lean ====
/-
  Gram kernel 0 over its 16 x 16 grid: where each branch of the body is taken, as arithmetic on the grid point's
  number; the pipeline's proof data (each input window's buffer holds its tile at every point, the output window's
  buffer holds the two accumulators side by side once the last point has stored them, the two scratch cells hold the
  accumulated sums between points); and the body obligation at every point, by the four cases of the body's run.
-/
import proofs.«119468_j3521873183096_1_alg».proof.Proof.KAcc0
import proofs.«119468_j3521873183096_1_alg».proof.Proof.Gen.KernelIdeal.Launch
import proofs.«119468_j3521873183096_1_alg».proof.Proof.Gen.KernelIdeal.Skeleton
import proofs.«119468_j3521873183096_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The branches, decided over the grid -/

theorem hcondFirst0 : ∀ t : Fin cfg0.N, condFirst0 (grid0.coords t) ↔ t.val = 0 :=
  (by decide +kernel : ∀ t : Fin grid0.N, condFirst0 (grid0.coords t) ↔ t.val = 0)
theorem hcondDiag0 : ∀ t : Fin cfg0.N, condDiag0 (grid0.coords t) ↔ t.val / 16 = t.val % 16 :=
  (by decide +kernel : ∀ t : Fin grid0.N, condDiag0 (grid0.coords t) ↔ t.val / 16 = t.val % 16)
theorem hcondLast0 : ∀ t : Fin cfg0.N, condLast0 (grid0.coords t) ↔ t.val = 255 :=
  (by decide +kernel : ∀ t : Fin grid0.N, condLast0 (grid0.coords t) ↔ t.val = 255)

/-- The input windows are never idle; the output window is idle, and not written back, everywhere but the last point. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬ t.val = 255 → cfg0.idle 2 (grid0.coords t) = true :=
  (by decide +kernel : ∀ t : Fin grid0.N, ¬ t.val = 255 → cfg0.idle 2 (grid0.coords t) = true)
theorem liveAt0_2 : ∀ t : Fin cfg0.N, t.val = 255 → cfg0.idle 2 (grid0.coords t) = false :=
  (by decide +kernel : ∀ t : Fin grid0.N, t.val = 255 → cfg0.idle 2 (grid0.coords t) = false)
theorem noFlush0_2 : ∀ t : Fin cfg0.N, ¬ t.val = 255 → (cfg0.win 2).flush t = false :=
  (by decide +kernel : ∀ t : Fin grid0.N, ¬ t.val = 255 → win0_2.flush t = false)

/-! ## The memrefs the body is called with -/

abbrev ms0_0 (t : Fin cfg0.N) : Memref sig .tc .vmem S512x64 .f32 := win0_0.stage (cfg0.slots t 0)
abbrev ms0_1 (t : Fin cfg0.N) : Memref sig .tc .vmem S512x64 .f32 := win0_1.stage (cfg0.slots t 1)
abbrev ms0_2 (t : Fin cfg0.N) : Memref sig .tc .vmem S1x2 .f32 := win0_2.stage (cfg0.slots t 2)
abbrev sc0_0 : Memref sig .tc .vmem S1x1 .f32 := Memref.whole cc0_scratch0
abbrev sc0_1 : Memref sig .tc .vmem S1x1 .f32 := Memref.whole cc0_scratch1

/-! ## The accumulators at a grid point, by the point's case -/

theorem acc0_first (c : Dev nD) (t : Fin cfg0.N) (h : t.val = 0) :
    acc0 V c t.val t.isLt = (k0_pay1 (k0_pay7 (iblk0 V c 0 t) (iblk0 V c 1 t) k0_pay4),
      k0_pay2 (k0_pay6 (iblk0 V c 0 t) (iblk0 V c 1 t)) k0_pay5) := by
  obtain ⟨n, hn⟩ := t
  cases n with
  | zero => rfl
  | succ n => exact absurd h (Nat.succ_ne_zero n)

theorem acc0_diag (c : Dev nD) (t : Fin cfg0.N) (h0 : ¬ t.val = 0) (h1 : t.val / 16 = t.val % 16) :
    acc0 V c t.val t.isLt = (k0_pay1 (k0_pay7 (iblk0 V c 0 t) (iblk0 V c 1 t) (acc0 V c (t.val - 1) (Nat.lt_of_le_of_lt (Nat.sub_le _ _) t.isLt)).1),
      k0_pay2 (k0_pay6 (iblk0 V c 0 t) (iblk0 V c 1 t)) (acc0 V c (t.val - 1) (Nat.lt_of_le_of_lt (Nat.sub_le _ _) t.isLt)).2) := by
  obtain ⟨n, hn⟩ := t
  cases n with
  | zero => exact absurd rfl h0
  | succ n => exact Prod.ext rfl (if_pos h1)

theorem acc0_off (c : Dev nD) (t : Fin cfg0.N) (h0 : ¬ t.val = 0) (h1 : ¬ t.val / 16 = t.val % 16) :
    acc0 V c t.val t.isLt = (k0_pay1 (k0_pay7 (iblk0 V c 0 t) (iblk0 V c 1 t) (acc0 V c (t.val - 1) (Nat.lt_of_le_of_lt (Nat.sub_le _ _) t.isLt)).1),
      (acc0 V c (t.val - 1) (Nat.lt_of_le_of_lt (Nat.sub_le _ _) t.isLt)).2) := by
  obtain ⟨n, hn⟩ := t
  cases n with
  | zero => exact absurd rfl h0
  | succ n => exact Prod.ext rfl (if_neg h1)

/-! ## The invariant between points -/

/-- The class invariant with the two scratch cells as memrefs owned at some contents. -/
theorem PhiA0_eq (c : Dev nD) :
    (Pipeline.ΦA spec0 c : sProp 𝕄)
      = iprop(((∃ d, owns (c : Thread nD τ) sc0_0 fullShare d) ∗ (∃ d, owns (c : Thread nD τ) sc0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  unfold Pipeline.ΦA; rw [scopedRest0_eq]; simp only [sc0_0, sc0_1, owns_whole]; try rfl

/-- Before the first point every scoped buffer holds anything; after point `n` the two scratch cells hold the
    accumulators after `n`, the other scoped buffers anything; the generator register rides along. -/
def PhiS0 (c : Dev nD) : (n : ℕ) → n ≤ cfg0.N → sProp 𝕄
  | 0, _ => Pipeline.ΦA spec0 c
  | n + 1, hn => iprop(((owns (c : Thread nD τ) sc0_0 fullShare (acc0 V c n hn).1) ∗ (owns (c : Thread nD τ) sc0_1 fullShare (acc0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(((owns (c : Thread nD τ) sc0_0 fullShare (acc0 V c n hn).1) ∗ (owns (c : Thread nD τ) sc0_1 fullShare (acc0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := rfl

theorem PhiS0_pos (c : Dev nD) (n : ℕ) (h : n ≤ cfg0.N) (hz : n ≠ 0) :
    PhiS0 V c n h = iprop(((owns (c : Thread nD τ) sc0_0 fullShare (acc0 V c (n - 1) (by omega)).1) ∗ (owns (c : Thread nD τ) sc0_1 fullShare (acc0 V c (n - 1) (by omega)).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt).1 (acc0 V c t.val t.isLt).2
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay3 (acc0 V c t.val t.isLt).1 (acc0 V c t.val t.isLt).2 := by dsimp only [dat0]

/-- Each input window's current staging buffer holds its tile at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 256 := lt_of_lt_of_eq t.isLt (show cfg0.N = 256 from N_0)
  by_cases hF : t.val = 0
  · have hD : t.val / 16 = t.val % 16 := by rw [hF]
    have hL : ¬ t.val = 255 := by omega
    rw [Dat.leavesExact_idle (dat0 V c) 2 t (idleAt0_2 t hL) (noFlush0_2 t hL)]
    rw [acc0_first V c t hF]
    rw [PhiS0_castSucc V c t, PhiS0_zero V c _ _ hF, PhiA0_eq]
    (try dsimp only)
    iintro ⟨⟨⟨⟨%e0, HS0⟩, ⟨%e1, HS1⟩, R2, R3, R4, R5, R6, R7, R8, R9, R10, R11, R12, R13, R14, R15⟩, Hg⟩, Ho, ⟨%d0, H0⟩, ⟨%d1, H1⟩, ⟨%d2, H2⟩⟩

    iapply (run_first0 c (grid0.coords t) _ _ _ _ _ _ _ _ _ _ ((hcondFirst0 t).mpr hF) ((hcondDiag0 t).mpr hD) (fun h => hL ((hcondLast0 t).mp h)) (iblk0 V c 0 t) (iblk0 V c 1 t) _ e0 e1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 R2 R3 R4 R5 R6 R7 R8 R9 R10 R11 R12 R13 R14 R15 Hg]
    · isplitl [HS0 HS1 R2 R3 R4 R5 R6 R7 R8 R9 R10 R11 R12 R13 R14 R15]
      ·
        isplitl [HS0]; · iexact HS0
        isplitl [HS1]; · iexact HS1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        iexact R15
      iexact Hg
    isplitl [Ho]; · iexact Ho
    isplitl [H0]; · iexact H0
    isplitl [H1]; · iexact H1
    iexists _; iexact H2
  · rw [PhiS0_castSucc V c t, PhiS0_pos V c _ _ hF]
    by_cases hL : t.val = 255
    · have hD : t.val / 16 = t.val % 16 := by rw [hL]
      rw [show (dat0 V c).leavesExact 2 t = owns (c : Thread nD τ) (ms0_2 t) fullShare ((dat0 V c).after 2 t) from by
        unfold Dat.leavesExact; rw [liveAt0_2 t hL], after0_2]
      rw [acc0_diag V c t hF hD]
      (try dsimp only)
      iintro ⟨⟨⟨HS0, HS1, R2, R3, R4, R5, R6, R7, R8, R9, R10, R11, R12, R13, R14, R15⟩, Hg⟩, Ho, ⟨%d0, H0⟩, ⟨%d1, H1⟩, ⟨%d2, H2⟩⟩

      iapply (run_last0 c (grid0.coords t) _ _ _ _ _ _ _ _ _ _ (fun h => hF ((hcondFirst0 t).mp h)) ((hcondDiag0 t).mpr hD) ((hcondLast0 t).mpr hL) (iblk0 V c 0 t) (iblk0 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 R2 R3 R4 R5 R6 R7 R8 R9 R10 R11 R12 R13 R14 R15 Hg]
      · isplitl [HS0 HS1 R2 R3 R4 R5 R6 R7 R8 R9 R10 R11 R12 R13 R14 R15]
        ·
          isplitl [HS0]; · iexact HS0
          isplitl [HS1]; · iexact HS1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          iexact R15
        iexact Hg
      isplitl [Ho]; · iexact Ho
      isplitl [H0]; · iexact H0
      isplitl [H1]; · iexact H1
      iexact H2
    · rw [Dat.leavesExact_idle (dat0 V c) 2 t (idleAt0_2 t hL) (noFlush0_2 t hL)]
      by_cases hD : t.val / 16 = t.val % 16
      · rw [acc0_diag V c t hF hD]
        (try dsimp only)
        iintro ⟨⟨⟨HS0, HS1, R2, R3, R4, R5, R6, R7, R8, R9, R10, R11, R12, R13, R14, R15⟩, Hg⟩, Ho, ⟨%d0, H0⟩, ⟨%d1, H1⟩, ⟨%d2, H2⟩⟩

        iapply (run_diag0 c (grid0.coords t) _ _ _ _ _ _ _ _ _ _ (fun h => hF ((hcondFirst0 t).mp h)) ((hcondDiag0 t).mpr hD) (fun h => hL ((hcondLast0 t).mp h)) (iblk0 V c 0 t) (iblk0 V c 1 t) _ _ _ Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 R2 R3 R4 R5 R6 R7 R8 R9 R10 R11 R12 R13 R14 R15 Hg]
        · isplitl [HS0 HS1 R2 R3 R4 R5 R6 R7 R8 R9 R10 R11 R12 R13 R14 R15]
          ·
            isplitl [HS0]; · iexact HS0
            isplitl [HS1]; · iexact HS1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            iexact R15
          iexact Hg
        isplitl [Ho]; · iexact Ho
        isplitl [H0]; · iexact H0
        isplitl [H1]; · iexact H1
        iexists _; iexact H2
      · rw [acc0_off V c t hF hD]
        (try dsimp only)
        iintro ⟨⟨⟨HS0, HS1, R2, R3, R4, R5, R6, R7, R8, R9, R10, R11, R12, R13, R14, R15⟩, Hg⟩, Ho, ⟨%d0, H0⟩, ⟨%d1, H1⟩, ⟨%d2, H2⟩⟩

        iapply (run_mid0 c (grid0.coords t) _ _ _ _ _ _ _ _ _ _ (fun h => hF ((hcondFirst0 t).mp h)) (fun h => hD ((hcondDiag0 t).mp h)) (fun h => hL ((hcondLast0 t).mp h)) (iblk0 V c 0 t) (iblk0 V c 1 t) _ _ _ Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 R2 R3 R4 R5 R6 R7 R8 R9 R10 R11 R12 R13 R14 R15 Hg]
        · isplitl [HS0 HS1 R2 R3 R4 R5 R6 R7 R8 R9 R10 R11 R12 R13 R14 R15]
          ·
            isplitl [HS0]; · iexact HS0
            isplitl [HS1]; · iexact HS1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            iexact R15
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the scratch cells' contents are forgotten. -/
theorem hout0 (c : Dev nD) : (dat0 V c).Φ (Fin.last cfg0.N) ⊢ Pipeline.ΦA spec0 c := by
  have hN : cfg0.N = 256 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS0, HS1, R2, R3, R4, R5, R6, R7, R8, R9, R10, R11, R12, R13, R14, R15⟩, Hg⟩
  isplitl [HS0 HS1 R2 R3 R4 R5 R6 R7 R8 R9 R10 R11 R12 R13 R14 R15]
  ·
    isplitl [HS0]; · iexists _; iexact HS0
    isplitl [HS1]; · iexists _; iexact HS1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  iexact Hg

end

end Cert.KernelIdeal.Body

end
-- ==== Proof.KBody1.lean ====
/-
  The body of Gram kernel 1 (both operands the same sample) run symbolically at a grid point, in each of the four
  situations the 16 x 16 grid meets: the first point (the two accumulators are reset; the tile is diagonal), a later
  diagonal tile, an off-diagonal tile, and the last point (diagonal; the two accumulators are written out).  Each
  statement says what the five buffers hold afterwards as the body's own arithmetic of what they held before.
-/
import proofs.«119468_j3521873183096_1_alg».proof.Proof.KCommon
import proofs.«119468_j3521873183096_1_alg».proof.Proof.Gen.KernelIdeal.Launch
import proofs.«119468_j3521873183096_1_alg».proof.Proof.Gen.KernelIdeal.Skeleton
import proofs.«119468_j3521873183096_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken when both grid coordinates are zero. -/
abbrev condFirst1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch is taken when the two grid coordinates are equal: a diagonal tile. -/
abbrev condDiag1 (i : grid1.Coords) : Prop :=
  (Scalar.cmpi .ne (Scalar.extui (Scalar.cmpi .eq (BitVec.ofNat 32 (i 0).val) (BitVec.ofNat 32 (i 1).val))) 0#32) = 1#1
/-- The third branch is taken at the last grid point. -/
abbrev condLast1 (i : grid1.Coords) : Prop := k1_cond3 i = 1#1

set_option maxHeartbeats 1000000 in
theorem run_mid1 (c : Dev nD) (i : grid1.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst1 i) (hc2 : ¬ condDiag1 i) (hc3 : ¬ condLast1 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k1_pay1 (k1_pay7 x y s0))
            ∗ owns (c : Thread nD τ) arg6 fullShare (s1)) -∗ K ⟨⟩))
      ⊢ wp frame (wpE (defs₀ (F := F)) Variants.none c none) E (cc1__kernel i arg2 harg2 arg3 harg3 arg4 harg4 arg5 harg5 arg6 harg6) K := by
  simp only [cc1__kernel_eq_skeleton]; unfold cc1__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr; · ipureintro; exact hf6
    iexact H6

set_option maxHeartbeats 1000000 in
theorem run_diag1 (c : Dev nD) (i : grid1.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst1 i) (hc2 : condDiag1 i) (hc3 : ¬ condLast1 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k1_pay1 (k1_pay7 x y s0))
            ∗ owns (c : Thread nD τ) arg6 fullShare (k1_pay2 (k1_pay6 x y) s1)) -∗ K ⟨⟩))
      ⊢ wp frame (wpE (defs₀ (F := F)) Variants.none c none) E (cc1__kernel i arg2 harg2 arg3 harg3 arg4 harg4 arg5 harg5 arg6 harg6) K := by
  simp only [cc1__kernel_eq_skeleton]; unfold cc1__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

set_option maxHeartbeats 1000000 in
theorem run_first1 (c : Dev nD) (i : grid1.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : condFirst1 i) (hc2 : condDiag1 i) (hc3 : ¬ condLast1 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k1_pay1 (k1_pay7 x y k1_pay4))
            ∗ owns (c : Thread nD τ) arg6 fullShare (k1_pay2 (k1_pay6 x y) k1_pay5)) -∗ K ⟨⟩))
      ⊢ wp frame (wpE (defs₀ (F := F)) Variants.none c none) E (cc1__kernel i arg2 harg2 arg3 harg3 arg4 harg4 arg5 harg5 arg6 harg6) K := by
  simp only [cc1__kernel_eq_skeleton]; unfold cc1__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

set_option maxHeartbeats 1000000 in
theorem run_last1 (c : Dev nD) (i : grid1.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst1 i) (hc2 : condDiag1 i) (hc3 : condLast1 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (k1_pay3 (k1_pay1 (k1_pay7 x y s0)) (k1_pay2 (k1_pay6 x y) s1))
            ∗ owns (c : Thread nD τ) arg5 fullShare (k1_pay1 (k1_pay7 x y s0))
            ∗ owns (c : Thread nD τ) arg6 fullShare (k1_pay2 (k1_pay6 x y) s1)) -∗ K ⟨⟩))
      ⊢ wp frame (wpE (defs₀ (F := F)) Variants.none c none) E (cc1__kernel i arg2 harg2 arg3 harg3 arg4 harg4 arg5 harg5 arg6 harg6) K := by
  simp only [cc1__kernel_eq_skeleton]; unfold cc1__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    try sl_unfold_run_names
    rw [View.read_writes_eq_canon _ _ _ (cover_head_whole hz12 _ _ _), View.canon_cons_unit_zero hz12]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

end Cert.KernelIdeal.Body

end
-- ==== Proof.KAcc1.lean ====
import proofs.«119468_j3521873183096_1_alg».proof.Proof.KBody1
import proofs.«119468_j3521873183096_1_alg».proof.Proof.Gen.KernelIdeal.Launch
import proofs.«119468_j3521873183096_1_alg».proof.Proof.Gen.KernelIdeal.Skeleton
import proofs.«119468_j3521873183096_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The tiles the body is handed at each grid point, and what the two accumulators hold after each point, as the
    body's own arithmetic folded along the grid in row-major order. -/

section
-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the sum accumulator and the trace accumulator hold after grid point `n`: at the first point both start from
    the zero cell; at every point the tile's sum is added to the first; on a diagonal tile (n / 16 = n % 16) the tile's
    masked diagonal sum is added to the second. -/
def acc1 (c : Dev nD) : (n : ℕ) → n < cfg1.N → Vec F S1x1 .f32 × Vec F S1x1 .f32
  | 0, hn => (k1_pay1 (k1_pay7 (iblk1 V c 0 ⟨0, hn⟩) (iblk1 V c 1 ⟨0, hn⟩) k1_pay4),
      k1_pay2 (k1_pay6 (iblk1 V c 0 ⟨0, hn⟩) (iblk1 V c 1 ⟨0, hn⟩)) k1_pay5)
  | n + 1, hn =>
    (k1_pay1 (k1_pay7 (iblk1 V c 0 ⟨n + 1, hn⟩) (iblk1 V c 1 ⟨n + 1, hn⟩) (acc1 c n (Nat.lt_of_succ_lt hn)).1),
      if (n + 1) / 16 = (n + 1) % 16 then
        k1_pay2 (k1_pay6 (iblk1 V c 0 ⟨n + 1, hn⟩) (iblk1 V c 1 ⟨n + 1, hn⟩)) (acc1 c n (Nat.lt_of_succ_lt hn)).2
      else (acc1 c n (Nat.lt_of_succ_lt hn)).2)

theorem acc1_zero (c : Dev nD) (hn : 0 < cfg1.N) :
    acc1 V c 0 hn = (k1_pay1 (k1_pay7 (iblk1 V c 0 ⟨0, hn⟩) (iblk1 V c 1 ⟨0, hn⟩) k1_pay4),
      k1_pay2 (k1_pay6 (iblk1 V c 0 ⟨0, hn⟩) (iblk1 V c 1 ⟨0, hn⟩)) k1_pay5) := rfl

theorem acc1_succ (c : Dev nD) (n : ℕ) (hn : n + 1 < cfg1.N) :
    acc1 V c (n + 1) hn =
      (k1_pay1 (k1_pay7 (iblk1 V c 0 ⟨n + 1, hn⟩) (iblk1 V c 1 ⟨n + 1, hn⟩) (acc1 V c n (Nat.lt_of_succ_lt hn)).1),
        if (n + 1) / 16 = (n + 1) % 16 then
          k1_pay2 (k1_pay6 (iblk1 V c 0 ⟨n + 1, hn⟩) (iblk1 V c 1 ⟨n + 1, hn⟩)) (acc1 V c n (Nat.lt_of_succ_lt hn)).2
        else (acc1 V c n (Nat.lt_of_succ_lt hn)).2) := rfl

end

end Cert.KernelIdeal.Body

end
-- ==== Proof.KReg1.lean ====
/-
  Gram kernel 1 over its 16 x 16 grid: where each branch of the body is taken, as arithmetic on the grid point's
  number; the pipeline's proof data (each input window's buffer holds its tile at every point, the output window's
  buffer holds the two accumulators side by side once the last point has stored them, the two scratch cells hold the
  accumulated sums between points); and the body obligation at every point, by the four cases of the body's run.
-/
import proofs.«119468_j3521873183096_1_alg».proof.Proof.KAcc1
import proofs.«119468_j3521873183096_1_alg».proof.Proof.Gen.KernelIdeal.Launch
import proofs.«119468_j3521873183096_1_alg».proof.Proof.Gen.KernelIdeal.Skeleton
import proofs.«119468_j3521873183096_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The branches, decided over the grid -/

theorem hcondFirst1 : ∀ t : Fin cfg1.N, condFirst1 (grid1.coords t) ↔ t.val = 0 :=
  (by decide +kernel : ∀ t : Fin grid1.N, condFirst1 (grid1.coords t) ↔ t.val = 0)
theorem hcondDiag1 : ∀ t : Fin cfg1.N, condDiag1 (grid1.coords t) ↔ t.val / 16 = t.val % 16 :=
  (by decide +kernel : ∀ t : Fin grid1.N, condDiag1 (grid1.coords t) ↔ t.val / 16 = t.val % 16)
theorem hcondLast1 : ∀ t : Fin cfg1.N, condLast1 (grid1.coords t) ↔ t.val = 255 :=
  (by decide +kernel : ∀ t : Fin grid1.N, condLast1 (grid1.coords t) ↔ t.val = 255)

/-- The input windows are never idle; the output window is idle, and not written back, everywhere but the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬ t.val = 255 → cfg1.idle 2 (grid1.coords t) = true :=
  (by decide +kernel : ∀ t : Fin grid1.N, ¬ t.val = 255 → cfg1.idle 2 (grid1.coords t) = true)
theorem liveAt1_2 : ∀ t : Fin cfg1.N, t.val = 255 → cfg1.idle 2 (grid1.coords t) = false :=
  (by decide +kernel : ∀ t : Fin grid1.N, t.val = 255 → cfg1.idle 2 (grid1.coords t) = false)
theorem noFlush1_2 : ∀ t : Fin cfg1.N, ¬ t.val = 255 → (cfg1.win 2).flush t = false :=
  (by decide +kernel : ∀ t : Fin grid1.N, ¬ t.val = 255 → win1_2.flush t = false)

/-! ## The memrefs the body is called with -/

abbrev ms1_0 (t : Fin cfg1.N) : Memref sig .tc .vmem S512x64 .f32 := win1_0.stage (cfg1.slots t 0)
abbrev ms1_1 (t : Fin cfg1.N) : Memref sig .tc .vmem S512x64 .f32 := win1_1.stage (cfg1.slots t 1)
abbrev ms1_2 (t : Fin cfg1.N) : Memref sig .tc .vmem S1x2 .f32 := win1_2.stage (cfg1.slots t 2)
abbrev sc1_0 : Memref sig .tc .vmem S1x1 .f32 := Memref.whole cc1_scratch0
abbrev sc1_1 : Memref sig .tc .vmem S1x1 .f32 := Memref.whole cc1_scratch1

/-! ## The accumulators at a grid point, by the point's case -/

theorem acc1_first (c : Dev nD) (t : Fin cfg1.N) (h : t.val = 0) :
    acc1 V c t.val t.isLt = (k1_pay1 (k1_pay7 (iblk1 V c 0 t) (iblk1 V c 1 t) k1_pay4),
      k1_pay2 (k1_pay6 (iblk1 V c 0 t) (iblk1 V c 1 t)) k1_pay5) := by
  obtain ⟨n, hn⟩ := t
  cases n with
  | zero => rfl
  | succ n => exact absurd h (Nat.succ_ne_zero n)

theorem acc1_diag (c : Dev nD) (t : Fin cfg1.N) (h0 : ¬ t.val = 0) (h1 : t.val / 16 = t.val % 16) :
    acc1 V c t.val t.isLt = (k1_pay1 (k1_pay7 (iblk1 V c 0 t) (iblk1 V c 1 t) (acc1 V c (t.val - 1) (Nat.lt_of_le_of_lt (Nat.sub_le _ _) t.isLt)).1),
      k1_pay2 (k1_pay6 (iblk1 V c 0 t) (iblk1 V c 1 t)) (acc1 V c (t.val - 1) (Nat.lt_of_le_of_lt (Nat.sub_le _ _) t.isLt)).2) := by
  obtain ⟨n, hn⟩ := t
  cases n with
  | zero => exact absurd rfl h0
  | succ n => exact Prod.ext rfl (if_pos h1)

theorem acc1_off (c : Dev nD) (t : Fin cfg1.N) (h0 : ¬ t.val = 0) (h1 : ¬ t.val / 16 = t.val % 16) :
    acc1 V c t.val t.isLt = (k1_pay1 (k1_pay7 (iblk1 V c 0 t) (iblk1 V c 1 t) (acc1 V c (t.val - 1) (Nat.lt_of_le_of_lt (Nat.sub_le _ _) t.isLt)).1),
      (acc1 V c (t.val - 1) (Nat.lt_of_le_of_lt (Nat.sub_le _ _) t.isLt)).2) := by
  obtain ⟨n, hn⟩ := t
  cases n with
  | zero => exact absurd rfl h0
  | succ n => exact Prod.ext rfl (if_neg h1)

/-! ## The invariant between points -/

/-- The class invariant with the two scratch cells as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) sc1_0 fullShare d) ∗ (∃ d, owns (c : Thread nD τ) sc1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  unfold Pipeline.ΦA; rw [scopedRest1_eq]; simp only [sc1_0, sc1_1, owns_whole]; try rfl

/-- Before the first point every scoped buffer holds anything; after point `n` the two scratch cells hold the
    accumulators after `n`, the other scoped buffers anything; the generator register rides along. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (owns (c : Thread nD τ) sc1_0 fullShare (acc1 V c n hn).1) ∗ (owns (c : Thread nD τ) sc1_1 fullShare (acc1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (owns (c : Thread nD τ) sc1_0 fullShare (acc1 V c n hn).1) ∗ (owns (c : Thread nD τ) sc1_1 fullShare (acc1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := rfl

theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (owns (c : Thread nD τ) sc1_0 fullShare (acc1 V c (n - 1) (by omega)).1) ∗ (owns (c : Thread nD τ) sc1_1 fullShare (acc1 V c (n - 1) (by omega)).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt).1 (acc1 V c t.val t.isLt).2
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay3 (acc1 V c t.val t.isLt).1 (acc1 V c t.val t.isLt).2 := by dsimp only [dat1]

/-- Each input window's current staging buffer holds its tile at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 256 := lt_of_lt_of_eq t.isLt (show cfg1.N = 256 from N_1)
  by_cases hF : t.val = 0
  · have hD : t.val / 16 = t.val % 16 := by rw [hF]
    have hL : ¬ t.val = 255 := by omega
    rw [Dat.leavesExact_idle (dat1 V c) 2 t (idleAt1_2 t hL) (noFlush1_2 t hL)]
    rw [acc1_first V c t hF]
    rw [PhiS1_castSucc V c t, PhiS1_zero V c _ _ hF, PhiA1_eq]
    (try dsimp only)
    iintro ⟨⟨⟨R0, R1, R2, R3, R4, R5, R6, ⟨%e0, HS0⟩, ⟨%e1, HS1⟩, R9, R10, R11, R12, R13, R14, R15⟩, Hg⟩, Ho, ⟨%d0, H0⟩, ⟨%d1, H1⟩, ⟨%d2, H2⟩⟩

    iapply (run_first1 c (grid1.coords t) _ _ _ _ _ _ _ _ _ _ ((hcondFirst1 t).mpr hF) ((hcondDiag1 t).mpr hD) (fun h => hL ((hcondLast1 t).mp h)) (iblk1 V c 0 t) (iblk1 V c 1 t) _ e0 e1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [R0 R1 R2 R3 R4 R5 R6 HS0 HS1 R9 R10 R11 R12 R13 R14 R15 Hg]
    · isplitl [R0 R1 R2 R3 R4 R5 R6 HS0 HS1 R9 R10 R11 R12 R13 R14 R15]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [HS0]; · iexact HS0
        isplitl [HS1]; · iexact HS1
        isplitl [R9]; · iexact R9
        isplitl [R10]; · iexact R10
        isplitl [R11]; · iexact R11
        isplitl [R12]; · iexact R12
        isplitl [R13]; · iexact R13
        isplitl [R14]; · iexact R14
        iexact R15
      iexact Hg
    isplitl [Ho]; · iexact Ho
    isplitl [H0]; · iexact H0
    isplitl [H1]; · iexact H1
    iexists _; iexact H2
  · rw [PhiS1_castSucc V c t, PhiS1_pos V c _ _ hF]
    by_cases hL : t.val = 255
    · have hD : t.val / 16 = t.val % 16 := by rw [hL]
      rw [show (dat1 V c).leavesExact 2 t = owns (c : Thread nD τ) (ms1_2 t) fullShare ((dat1 V c).after 2 t) from by
        unfold Dat.leavesExact; rw [liveAt1_2 t hL], after1_2]
      rw [acc1_diag V c t hF hD]
      (try dsimp only)
      iintro ⟨⟨⟨R0, R1, R2, R3, R4, R5, R6, HS0, HS1, R9, R10, R11, R12, R13, R14, R15⟩, Hg⟩, Ho, ⟨%d0, H0⟩, ⟨%d1, H1⟩, ⟨%d2, H2⟩⟩

      iapply (run_last1 c (grid1.coords t) _ _ _ _ _ _ _ _ _ _ (fun h => hF ((hcondFirst1 t).mp h)) ((hcondDiag1 t).mpr hD) ((hcondLast1 t).mpr hL) (iblk1 V c 0 t) (iblk1 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [R0 R1 R2 R3 R4 R5 R6 HS0 HS1 R9 R10 R11 R12 R13 R14 R15 Hg]
      · isplitl [R0 R1 R2 R3 R4 R5 R6 HS0 HS1 R9 R10 R11 R12 R13 R14 R15]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [HS0]; · iexact HS0
          isplitl [HS1]; · iexact HS1
          isplitl [R9]; · iexact R9
          isplitl [R10]; · iexact R10
          isplitl [R11]; · iexact R11
          isplitl [R12]; · iexact R12
          isplitl [R13]; · iexact R13
          isplitl [R14]; · iexact R14
          iexact R15
        iexact Hg
      isplitl [Ho]; · iexact Ho
      isplitl [H0]; · iexact H0
      isplitl [H1]; · iexact H1
      iexact H2
    · rw [Dat.leavesExact_idle (dat1 V c) 2 t (idleAt1_2 t hL) (noFlush1_2 t hL)]
      by_cases hD : t.val / 16 = t.val % 16
      · rw [acc1_diag V c t hF hD]
        (try dsimp only)
        iintro ⟨⟨⟨R0, R1, R2, R3, R4, R5, R6, HS0, HS1, R9, R10, R11, R12, R13, R14, R15⟩, Hg⟩, Ho, ⟨%d0, H0⟩, ⟨%d1, H1⟩, ⟨%d2, H2⟩⟩

        iapply (run_diag1 c (grid1.coords t) _ _ _ _ _ _ _ _ _ _ (fun h => hF ((hcondFirst1 t).mp h)) ((hcondDiag1 t).mpr hD) (fun h => hL ((hcondLast1 t).mp h)) (iblk1 V c 0 t) (iblk1 V c 1 t) _ _ _ Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [R0 R1 R2 R3 R4 R5 R6 HS0 HS1 R9 R10 R11 R12 R13 R14 R15 Hg]
        · isplitl [R0 R1 R2 R3 R4 R5 R6 HS0 HS1 R9 R10 R11 R12 R13 R14 R15]
          ·
            isplitl [R0]; · iexact R0
            isplitl [R1]; · iexact R1
            isplitl [R2]; · iexact R2
            isplitl [R3]; · iexact R3
            isplitl [R4]; · iexact R4
            isplitl [R5]; · iexact R5
            isplitl [R6]; · iexact R6
            isplitl [HS0]; · iexact HS0
            isplitl [HS1]; · iexact HS1
            isplitl [R9]; · iexact R9
            isplitl [R10]; · iexact R10
            isplitl [R11]; · iexact R11
            isplitl [R12]; · iexact R12
            isplitl [R13]; · iexact R13
            isplitl [R14]; · iexact R14
            iexact R15
          iexact Hg
        isplitl [Ho]; · iexact Ho
        isplitl [H0]; · iexact H0
        isplitl [H1]; · iexact H1
        iexists _; iexact H2
      · rw [acc1_off V c t hF hD]
        (try dsimp only)
        iintro ⟨⟨⟨R0, R1, R2, R3, R4, R5, R6, HS0, HS1, R9, R10, R11, R12, R13, R14, R15⟩, Hg⟩, Ho, ⟨%d0, H0⟩, ⟨%d1, H1⟩, ⟨%d2, H2⟩⟩

        iapply (run_mid1 c (grid1.coords t) _ _ _ _ _ _ _ _ _ _ (fun h => hF ((hcondFirst1 t).mp h)) (fun h => hD ((hcondDiag1 t).mp h)) (fun h => hL ((hcondLast1 t).mp h)) (iblk1 V c 0 t) (iblk1 V c 1 t) _ _ _ Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [R0 R1 R2 R3 R4 R5 R6 HS0 HS1 R9 R10 R11 R12 R13 R14 R15 Hg]
        · isplitl [R0 R1 R2 R3 R4 R5 R6 HS0 HS1 R9 R10 R11 R12 R13 R14 R15]
          ·
            isplitl [R0]; · iexact R0
            isplitl [R1]; · iexact R1
            isplitl [R2]; · iexact R2
            isplitl [R3]; · iexact R3
            isplitl [R4]; · iexact R4
            isplitl [R5]; · iexact R5
            isplitl [R6]; · iexact R6
            isplitl [HS0]; · iexact HS0
            isplitl [HS1]; · iexact HS1
            isplitl [R9]; · iexact R9
            isplitl [R10]; · iexact R10
            isplitl [R11]; · iexact R11
            isplitl [R12]; · iexact R12
            isplitl [R13]; · iexact R13
            isplitl [R14]; · iexact R14
            iexact R15
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch cells' contents are forgotten. -/
theorem hout1 (c : Dev nD) : (dat1 V c).Φ (Fin.last cfg1.N) ⊢ Pipeline.ΦA spec1 c := by
  have hN : cfg1.N = 256 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨R0, R1, R2, R3, R4, R5, R6, HS0, HS1, R9, R10, R11, R12, R13, R14, R15⟩, Hg⟩
  isplitl [R0 R1 R2 R3 R4 R5 R6 HS0 HS1 R9 R10 R11 R12 R13 R14 R15]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [HS0]; · iexists _; iexact HS0
    isplitl [HS1]; · iexists _; iexact HS1
    isplitl [R9]; · iexact R9
    isplitl [R10]; · iexact R10
    isplitl [R11]; · iexact R11
    isplitl [R12]; · iexact R12
    isplitl [R13]; · iexact R13
    isplitl [R14]; · iexact R14
    iexact R15
  iexact Hg

end

end Cert.KernelIdeal.Body

end
-- ==== Proof.KBody2.lean ====
/-
  The body of the mixed Gram kernel (first sample against the second; no trace) run symbolically at a grid point, in
  each of the three situations the 16 x 16 grid meets: the first point (both cells reset), a later point that is not the
  last, and the last point (the sum cell and the untouched second cell are written out).  Each statement says what the
  five buffers hold afterwards as the body's own arithmetic of what they held before.
-/
import proofs.«119468_j3521873183096_1_alg».proof.Proof.KCommon
import proofs.«119468_j3521873183096_1_alg».proof.Proof.Gen.KernelIdeal.Launch
import proofs.«119468_j3521873183096_1_alg».proof.Proof.Gen.KernelIdeal.Skeleton
import proofs.«119468_j3521873183096_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken when both grid coordinates are zero. -/
abbrev condFirst2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch is taken at the last grid point. -/
abbrev condLast2 (i : grid2.Coords) : Prop := k2_cond2 i = 1#1

set_option maxHeartbeats 1000000 in
theorem run_mid2 (c : Dev nD) (i : grid2.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst2 i) (hc3 : ¬ condLast2 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k2_pay1 (k2_pay5 x y s0))
            ∗ owns (c : Thread nD τ) arg6 fullShare (s1)) -∗ K ⟨⟩))
      ⊢ wp frame (wpE (defs₀ (F := F)) Variants.none c none) E (cc2__kernel i arg2 harg2 arg3 harg3 arg4 harg4 arg5 harg5 arg6 harg6) K := by
  simp only [cc2__kernel_eq_skeleton]; unfold cc2__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr; · ipureintro; exact hf6
    iexact H6

set_option maxHeartbeats 1000000 in
theorem run_first2 (c : Dev nD) (i : grid2.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : condFirst2 i) (hc3 : ¬ condLast2 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (o)
            ∗ owns (c : Thread nD τ) arg5 fullShare (k2_pay1 (k2_pay5 x y k2_pay3))
            ∗ owns (c : Thread nD τ) arg6 fullShare (k2_pay4)) -∗ K ⟨⟩))
      ⊢ wp frame (wpE (defs₀ (F := F)) Variants.none c none) E (cc2__kernel i arg2 harg2 arg3 harg3 arg4 harg4 arg5 harg5 arg6 harg6) K := by
  simp only [cc2__kernel_eq_skeleton]; unfold cc2__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr
    swap; · iexact H6
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl

set_option maxHeartbeats 1000000 in
theorem run_last2 (c : Dev nD) (i : grid2.Coords)
    (arg2 : Memref sig .tc .vmem S512x64 .f32) (harg2 : arg2.IsWhole) (arg3 : Memref sig .tc .vmem S512x64 .f32) (harg3 : arg3.IsWhole)
    (arg4 : Memref sig .tc .vmem S1x2 .f32) (harg4 : arg4.IsWhole) (arg5 : Memref sig .tc .vmem S1x1 .f32) (harg5 : arg5.IsWhole)
    (arg6 : Memref sig .tc .vmem S1x1 .f32) (harg6 : arg6.IsWhole)
    (hc1 : ¬ condFirst2 i) (hc3 : condLast2 i)
    (x y : Vec F S512x64 .f32) (o : Vec F S1x2 .f32) (s0 s1 : Vec F S1x1 .f32) (E : Set ℕ) (K : PUnit → sProp 𝕄) :
    iprop(owns (c : Thread nD τ) arg2 fullShare x ∗ owns (c : Thread nD τ) arg3 fullShare y
        ∗ owns (c : Thread nD τ) arg4 fullShare o ∗ owns (c : Thread nD τ) arg5 fullShare s0 ∗ owns (c : Thread nD τ) arg6 fullShare s1
        ∗ (iprop(owns (c : Thread nD τ) arg2 fullShare x ∗ owns (c : Thread nD τ) arg3 fullShare y
            ∗ owns (c : Thread nD τ) arg4 fullShare (k2_pay2 (k2_pay1 (k2_pay5 x y s0)) s1)
            ∗ owns (c : Thread nD τ) arg5 fullShare (k2_pay1 (k2_pay5 x y s0))
            ∗ owns (c : Thread nD τ) arg6 fullShare (s1)) -∗ K ⟨⟩))
      ⊢ wp frame (wpE (defs₀ (F := F)) Variants.none c none) E (cc2__kernel i arg2 harg2 arg3 harg3 arg4 harg4 arg5 harg5 arg6 harg6) K := by
  simp only [cc2__kernel_eq_skeleton]; unfold cc2__kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2
  obtain rfl := harg3.eq_unread hf3
  obtain rfl := harg4.eq_unread hf4
  obtain rfl := harg5.eq_unread hf5
  obtain rfl := harg6.eq_unread hf6
  sl_exec (disch := first | exact hc1 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    try sl_unfold_run_names
    rw [View.read_writes_eq_canon _ _ _ (cover_head_whole hz12 _ _ _), View.canon_cons_unit_zero hz12]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  isplitl [H5]
  · iexists _; isplitr
    swap; · iexact H5
    ipureintro
    try sl_unfold_run_names
    rw [View.read_writes_eq_canon _ _ _ (cover_head_whole hz11 _ _ _), View.canon_cons_unit_zero hz11]
    try sl_unfold_run_names
    try simp only [View.readAt_eq_ld, harg2.read_unread, harg3.read_unread, harg4.read_unread, harg5.read_unread, harg6.read_unread,
      View.ld_unit_zero (S := S512x64) hz51264, View.ld_unit_zero (S := S1x1) hz11, View.ld_unit_zero (S := S1x2) hz12,
      View.readCov_unit_zero (S := S1x1) _ hz11]
    first | done | rfl
  · iexists _; isplitr; · ipureintro; exact hf6
    iexact H6

end Cert.KernelIdeal.Body

end
-- ==== Proof.KAcc2.lean ====
import proofs.«119468_j3521873183096_1_alg».proof.Proof.KBody2
import proofs.«119468_j3521873183096_1_alg».proof.Proof.Gen.KernelIdeal.Launch
import proofs.«119468_j3521873183096_1_alg».proof.Proof.Gen.KernelIdeal.Skeleton
import proofs.«119468_j3521873183096_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The tiles the body is handed at each grid point, and what the sum accumulator holds after each point, as the
    body's own arithmetic folded along the grid in row-major order. -/

section
-- the TensorCore's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the sum accumulator holds after grid point `n`: from the zero cell at the first point, the tile's sum added at
    every point. -/
def acc2 (c : Dev nD) : (n : ℕ) → n < cfg2.N → Vec F S1x1 .f32
  | 0, hn => k2_pay1 (k2_pay5 (iblk2 V c 0 ⟨0, hn⟩) (iblk2 V c 1 ⟨0, hn⟩) k2_pay3)
  | n + 1, hn => k2_pay1 (k2_pay5 (iblk2 V c 0 ⟨n + 1, hn⟩) (iblk2 V c 1 ⟨n + 1, hn⟩) (acc2 c n (Nat.lt_of_succ_lt hn)))

theorem acc2_zero (c : Dev nD) (hn : 0 < cfg2.N) :
    acc2 V c 0 hn = k2_pay1 (k2_pay5 (iblk2 V c 0 ⟨0, hn⟩) (iblk2 V c 1 ⟨0, hn⟩) k2_pay3) := rfl

theorem acc2_succ (c : Dev nD) (n : ℕ) (hn : n + 1 < cfg2.N) :
    acc2 V c (n + 1) hn = k2_pay1 (k2_pay5 (iblk2 V c 0 ⟨n + 1, hn⟩) (iblk2 V c 1 ⟨n + 1, hn⟩) (acc2 V c n (Nat.lt_of_succ_lt hn))) := rfl

end

end Cert.KernelIdeal.Body

end
-- ==== Proof.KReg2.lean ====
/-
  The mixed Gram kernel over its 16 x 16 grid: where each branch of the body is taken, as arithmetic on the grid point's
  number; the pipeline's proof data (each input window's buffer holds its tile at every point, the output window's
  buffer holds the sum cell beside the second cell once the last point has stored them, the sum cell holds the
  accumulated sum between points and the second cell stays at its reset value); and the body obligation at every
  point, by the three cases of the body's run.
-/
import proofs.«119468_j3521873183096_1_alg».proof.Proof.KAcc2
import proofs.«119468_j3521873183096_1_alg».proof.Proof.Gen.KernelIdeal.Launch
import proofs.«119468_j3521873183096_1_alg».proof.Proof.Gen.KernelIdeal.Skeleton
import proofs.«119468_j3521873183096_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The branches, decided over the grid -/

theorem hcondFirst2 : ∀ t : Fin cfg2.N, condFirst2 (grid2.coords t) ↔ t.val = 0 :=
  (by decide +kernel : ∀ t : Fin grid2.N, condFirst2 (grid2.coords t) ↔ t.val = 0)
theorem hcondLast2 : ∀ t : Fin cfg2.N, condLast2 (grid2.coords t) ↔ t.val = 255 :=
  (by decide +kernel : ∀ t : Fin grid2.N, condLast2 (grid2.coords t) ↔ t.val = 255)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬ t.val = 255 → cfg2.idle 2 (grid2.coords t) = true :=
  (by decide +kernel : ∀ t : Fin grid2.N, ¬ t.val = 255 → cfg2.idle 2 (grid2.coords t) = true)
theorem liveAt2_2 : ∀ t : Fin cfg2.N, t.val = 255 → cfg2.idle 2 (grid2.coords t) = false :=
  (by decide +kernel : ∀ t : Fin grid2.N, t.val = 255 → cfg2.idle 2 (grid2.coords t) = false)
theorem noFlush2_2 : ∀ t : Fin cfg2.N, ¬ t.val = 255 → (cfg2.win 2).flush t = false :=
  (by decide +kernel : ∀ t : Fin grid2.N, ¬ t.val = 255 → win2_2.flush t = false)

/-! ## The memrefs the body is called with -/

abbrev ms2_0 (t : Fin cfg2.N) : Memref sig .tc .vmem S512x64 .f32 := win2_0.stage (cfg2.slots t 0)
abbrev ms2_1 (t : Fin cfg2.N) : Memref sig .tc .vmem S512x64 .f32 := win2_1.stage (cfg2.slots t 1)
abbrev ms2_2 (t : Fin cfg2.N) : Memref sig .tc .vmem S1x2 .f32 := win2_2.stage (cfg2.slots t 2)
abbrev sc2_0 : Memref sig .tc .vmem S1x1 .f32 := Memref.whole cc2_scratch0
abbrev sc2_1 : Memref sig .tc .vmem S1x1 .f32 := Memref.whole cc2_scratch1

/-! ## The accumulator at a grid point, by the point's case -/

theorem acc2_first (c : Dev nD) (t : Fin cfg2.N) (h : t.val = 0) :
    acc2 V c t.val t.isLt = k2_pay1 (k2_pay5 (iblk2 V c 0 t) (iblk2 V c 1 t) k2_pay3) := by
  obtain ⟨n, hn⟩ := t
  cases n with
  | zero => rfl
  | succ n => exact absurd h (Nat.succ_ne_zero n)

theorem acc2_later (c : Dev nD) (t : Fin cfg2.N) (h0 : ¬ t.val = 0) :
    acc2 V c t.val t.isLt = k2_pay1 (k2_pay5 (iblk2 V c 0 t) (iblk2 V c 1 t) (acc2 V c (t.val - 1) (Nat.lt_of_le_of_lt (Nat.sub_le _ _) t.isLt))) := by
  obtain ⟨n, hn⟩ := t
  cases n with
  | zero => exact absurd rfl h0
  | succ n => rfl

/-! ## The invariant between points -/

theorem PhiA2_eq (c : Dev nD) :
    (Pipeline.ΦA spec2 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ d, owns (c : Thread nD τ) sc2_0 fullShare d) ∗ (∃ d, owns (c : Thread nD τ) sc2_1 fullShare d)) ∗ (∃ r, prngReg c r)) := by
  unfold Pipeline.ΦA; rw [scopedRest2_eq]; simp only [sc2_0, sc2_1, owns_whole]; try rfl

def PhiS2 (c : Dev nD) : (n : ℕ) → n ≤ cfg2.N → sProp 𝕄
  | 0, _ => Pipeline.ΦA spec2 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (owns (c : Thread nD τ) sc2_0 fullShare (acc2 V c n hn)) ∗ (owns (c : Thread nD τ) sc2_1 fullShare k2_pay4)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (owns (c : Thread nD τ) sc2_0 fullShare (acc2 V c n hn)) ∗ (owns (c : Thread nD τ) sc2_1 fullShare k2_pay4)) ∗ (∃ r, prngReg c r)) := rfl

theorem PhiS2_pos (c : Dev nD) (n : ℕ) (h : n ≤ cfg2.N) (hz : n ≠ 0) :
    PhiS2 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (owns (c : Thread nD τ) sc2_0 fullShare (acc2 V c (n - 1) (by omega))) ∗ (owns (c : Thread nD τ) sc2_1 fullShare k2_pay4)) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay2 (acc2 V c t.val t.isLt) k2_pay4
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay2 (acc2 V c t.val t.isLt) k2_pay4 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 256 := lt_of_lt_of_eq t.isLt (show cfg2.N = 256 from N_2)
  by_cases hF : t.val = 0
  · have hL : ¬ t.val = 255 := by omega
    rw [Dat.leavesExact_idle (dat2 V c) 2 t (idleAt2_2 t hL) (noFlush2_2 t hL)]
    rw [acc2_first V c t hF]
    rw [PhiS2_castSucc V c t, PhiS2_zero V c _ _ hF, PhiA2_eq]
    iintro ⟨⟨⟨R0, R1, R2, R3, R4, R5, R6, R7, R8, R9, R10, R11, R12, R13, ⟨%e0, HS0⟩, ⟨%e1, HS1⟩⟩, Hg⟩, Ho, ⟨%d0, H0⟩, ⟨%d1, H1⟩, ⟨%d2, H2⟩⟩

    iapply (run_first2 c (grid2.coords t) _ _ _ _ _ _ _ _ _ _ ((hcondFirst2 t).mpr hF) (fun h => hL ((hcondLast2 t).mp h)) (iblk2 V c 0 t) (iblk2 V c 1 t) _ e0 e1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [R0 R1 R2 R3 R4 R5 R6 R7 R8 R9 R10 R11 R12 R13 HS0 HS1 Hg]
    · isplitl [R0 R1 R2 R3 R4 R5 R6 R7 R8 R9 R10 R11 R12 R13 HS0 HS1]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [HS0]; · iexact HS0
        iexact HS1
      iexact Hg
    isplitl [Ho]; · iexact Ho
    isplitl [H0]; · iexact H0
    isplitl [H1]; · iexact H1
    iexists _; iexact H2
  · rw [PhiS2_castSucc V c t, PhiS2_pos V c _ _ hF]
    by_cases hL : t.val = 255
    · rw [show (dat2 V c).leavesExact 2 t = owns (c : Thread nD τ) (ms2_2 t) fullShare ((dat2 V c).after 2 t) from by
        unfold Dat.leavesExact; rw [liveAt2_2 t hL], after2_2]
      rw [acc2_later V c t hF]
      iintro ⟨⟨⟨R0, R1, R2, R3, R4, R5, R6, R7, R8, R9, R10, R11, R12, R13, HS0, HS1⟩, Hg⟩, Ho, ⟨%d0, H0⟩, ⟨%d1, H1⟩, ⟨%d2, H2⟩⟩

      iapply (run_last2 c (grid2.coords t) _ _ _ _ _ _ _ _ _ _ (fun h => hF ((hcondFirst2 t).mp h)) ((hcondLast2 t).mpr hL) (iblk2 V c 0 t) (iblk2 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [R0 R1 R2 R3 R4 R5 R6 R7 R8 R9 R10 R11 R12 R13 HS0 HS1 Hg]
      · isplitl [R0 R1 R2 R3 R4 R5 R6 R7 R8 R9 R10 R11 R12 R13 HS0 HS1]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HS0]; · iexact HS0
          iexact HS1
        iexact Hg
      isplitl [Ho]; · iexact Ho
      isplitl [H0]; · iexact H0
      isplitl [H1]; · iexact H1
      iexact H2
    · rw [Dat.leavesExact_idle (dat2 V c) 2 t (idleAt2_2 t hL) (noFlush2_2 t hL)]
      rw [acc2_later V c t hF]
      iintro ⟨⟨⟨R0, R1, R2, R3, R4, R5, R6, R7, R8, R9, R10, R11, R12, R13, HS0, HS1⟩, Hg⟩, Ho, ⟨%d0, H0⟩, ⟨%d1, H1⟩, ⟨%d2, H2⟩⟩

      iapply (run_mid2 c (grid2.coords t) _ _ _ _ _ _ _ _ _ _ (fun h => hF ((hcondFirst2 t).mp h)) (fun h => hL ((hcondLast2 t).mp h)) (iblk2 V c 0 t) (iblk2 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [R0 R1 R2 R3 R4 R5 R6 R7 R8 R9 R10 R11 R12 R13 HS0 HS1 Hg]
      · isplitl [R0 R1 R2 R3 R4 R5 R6 R7 R8 R9 R10 R11 R12 R13 HS0 HS1]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [HS0]; · iexact HS0
          iexact HS1
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have hN : cfg2.N = 256 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨R0, R1, R2, R3, R4, R5, R6, R7, R8, R9, R10, R11, R12, R13, HS0, HS1⟩, Hg⟩
  isplitl [R0 R1 R2 R3 R4 R5 R6 R7 R8 R9 R10 R11 R12 R13 HS0 HS1]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [HS0]; · iexists _; iexact HS0
    iexists _; iexact HS1
  iexact Hg

end

end Cert.KernelIdeal.Body

end
-- ==== Proof.KFold.lean ====
/-
  The buffer contents at each boundary of @main's six items (region, host stretch, region, host stretch, region, host
  stretch), as a fold from the launch memory: a region changes only its own result array, which ends at what the
  pipeline's write-backs leave in it; a host stretch is the fold of its operations.
-/
import proofs.«119468_j3521873183096_1_alg».proof.Proof.KReg0
import proofs.«119468_j3521873183096_1_alg».proof.Proof.KReg1
import proofs.«119468_j3521873183096_1_alg».proof.Proof.KReg2
import proofs.«119468_j3521873183096_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main's six items: region, host stretch, region, host stretch, region,
    host stretch.  A region changes only its result array, which ends at what its last grid point wrote back. -/

abbrev W0 : Dev nD → Valuation τ sig (Elt F) := fun c b => m (c, b)
abbrev Vr0 : (c : Dev nD) → (b : Ref sig .tc) → Buf (Elt F) ((c : Thread nD τ).loc b) := fun c b => W0 m c b
def W1 (c : Dev nD) : Valuation τ sig (Elt F) := Function.update (W0 m c) main_v0 ((dat0 (Vr0 m) c).arrAt 2 cfg0.N)
abbrev Vr1 : (c : Dev nD) → (b : Ref sig .tc) → Buf (Elt F) ((c : Thread nD τ).loc b) := fun c b => W1 m c b
abbrev W2 : Dev nD → Valuation τ sig (Elt F) := fun c => StableHlo.after hostOps1 (W1 m c)
abbrev Vr2 : (c : Dev nD) → (b : Ref sig .tc) → Buf (Elt F) ((c : Thread nD τ).loc b) := fun c b => W2 m c b
def W3 (c : Dev nD) : Valuation τ sig (Elt F) := Function.update (W2 m c) main_v5 ((dat1 (Vr2 m) c).arrAt 2 cfg1.N)
abbrev Vr3 : (c : Dev nD) → (b : Ref sig .tc) → Buf (Elt F) ((c : Thread nD τ).loc b) := fun c b => W3 m c b
abbrev W4 : Dev nD → Valuation τ sig (Elt F) := fun c => StableHlo.after hostOps2 (W3 m c)
abbrev Vr4 : (c : Dev nD) → (b : Ref sig .tc) → Buf (Elt F) ((c : Thread nD τ).loc b) := fun c b => W4 m c b
def W5 (c : Dev nD) : Valuation τ sig (Elt F) := Function.update (W4 m c) main_v10 ((dat2 (Vr4 m) c).arrAt 2 cfg2.N)
abbrev Vr5 : (c : Dev nD) → (b : Ref sig .tc) → Buf (Elt F) ((c : Thread nD τ).loc b) := fun c b => W5 m c b
abbrev W6 : Dev nD → Valuation τ sig (Elt F) := fun c => StableHlo.after hostOps3 (W5 m c)

theorem hout0_arr (c : Dev nD) : Vr1 m c main_v0 = (dat0 (Vr0 m) c).arrAt 2 cfg0.N := by
  show W1 m c (Proc.devRef .tc main_v0) = _
  unfold W1; exact Function.update_self ..
theorem hrest0_arr (c : Dev nD) : ∀ b : Ref sig .tc, b ≠ main_v0 → Vr1 m c b = Vr0 m c b := fun b hb => by
  show W1 m c (Proc.devRef .tc b) = W0 m c (Proc.devRef .tc b)
  unfold W1; exact Function.update_of_ne (StableHlo.devRef_ne_of_ne hb : (Proc.devRef .tc b : DevRef τ sig) ≠ Proc.devRef .tc main_v0) ..
theorem hout1_arr (c : Dev nD) : Vr3 m c main_v5 = (dat1 (Vr2 m) c).arrAt 2 cfg1.N := by
  show W3 m c (Proc.devRef .tc main_v5) = _
  unfold W3; exact Function.update_self ..
theorem hrest1_arr (c : Dev nD) : ∀ b : Ref sig .tc, b ≠ main_v5 → Vr3 m c b = Vr2 m c b := fun b hb => by
  show W3 m c (Proc.devRef .tc b) = W2 m c (Proc.devRef .tc b)
  unfold W3; exact Function.update_of_ne (StableHlo.devRef_ne_of_ne hb : (Proc.devRef .tc b : DevRef τ sig) ≠ Proc.devRef .tc main_v5) ..
theorem hout2_arr (c : Dev nD) : Vr5 m c main_v10 = (dat2 (Vr4 m) c).arrAt 2 cfg2.N := by
  show W5 m c (Proc.devRef .tc main_v10) = _
  unfold W5; exact Function.update_self ..
theorem hrest2_arr (c : Dev nD) : ∀ b : Ref sig .tc, b ≠ main_v10 → Vr5 m c b = Vr4 m c b := fun b hb => by
  show W5 m c (Proc.devRef .tc b) = W4 m c (Proc.devRef .tc b)
  unfold W5; exact Function.update_of_ne (StableHlo.devRef_ne_of_ne hb : (Proc.devRef .tc b : DevRef τ sig) ≠ Proc.devRef .tc main_v10) ..

/-- Region 2's arrays are distinct buffers: at its exit each holds what the pipeline leaves, every other buffer what
    it held at entry. -/
theorem hF2 (c : Dev nD) (w : Fin cfg2.W) : (dat2 (Vr4 m) c).arrAt w cfg2.N = Vr5 m c (Pipeline.arrRef spec2 w) := by
  match w with
  | ⟨0, _⟩ => exact (((dat2 (Vr4 m) c).arrAt_in 0 rfl _).trans (A_eq2 (Vr4 m) c 0)).trans (hrest2_arr m c main_arg0 (by decide)).symm
  | ⟨1, _⟩ => exact (((dat2 (Vr4 m) c).arrAt_in 1 rfl _).trans (A_eq2 (Vr4 m) c 1)).trans (hrest2_arr m c main_arg1 (by decide)).symm
  | ⟨2, _⟩ => exact (hout2_arr m c).symm
theorem hrest2 (c : Dev nD) : ∀ b, b ∉ Finset.univ.image (Pipeline.arrRef spec2) → Vr5 m c b = Vr4 m c b :=
  fun b hb => hrest2_arr m c b fun e => hb (Finset.mem_image.mpr ⟨2, Finset.mem_univ _, e.symm⟩)

/-- No item writes an argument array: it reaches the end as launched. -/
theorem W6_of_arg (c : Dev nD) (r : Ref sig .tc) (h3 : r ∉ hostOps3_W) (h2 : r ∉ hostOps2_W) (h1 : r ∉ hostOps1_W)
    (g0 : r ≠ main_v0) (g1 : r ≠ main_v5) (g2 : r ≠ main_v10) : W6 m c r = m ((c : Thread nD τ).loc r) :=
  (StableHlo.after_of_writes_sub hostOps3 _ hostOps3_writes h3).trans <|
  (hrest2_arr m c r g2).trans <| (StableHlo.after_of_writes_sub hostOps2 _ hostOps2_writes h2).trans <|
  (hrest1_arr m c r g1).trans <| (StableHlo.after_of_writes_sub hostOps1 _ hostOps1_writes h1).trans <|
  (hrest0_arr m c r g0).trans rfl
theorem W6_main_arg0 (c : Dev nD) : W6 m c main_arg0 = m ((c : Thread nD τ).loc main_arg0) :=
  W6_of_arg m c main_arg0 (by decide) (by decide) (by decide) (by decide) (by decide) (by decide)
theorem W6_main_arg1 (c : Dev nD) : W6 m c main_arg1 = m ((c : Thread nD τ).loc main_arg1) :=
  W6_of_arg m c main_arg1 (by decide) (by decide) (by decide) (by decide) (by decide) (by decide)
/-- The arguments as each region finds them are the launch contents. -/
theorem Vr2_of_arg (c : Dev nD) (r : Ref sig .tc) (h1 : r ∉ hostOps1_W) (g0 : r ≠ main_v0) : Vr2 m c r = m ((c : Thread nD τ).loc r) :=
  (StableHlo.after_of_writes_sub hostOps1 _ hostOps1_writes h1).trans <| (hrest0_arr m c r g0).trans rfl
theorem Vr4_of_arg (c : Dev nD) (r : Ref sig .tc) (h2 : r ∉ hostOps2_W) (h1 : r ∉ hostOps1_W) (g0 : r ≠ main_v0) (g1 : r ≠ main_v5) :
    Vr4 m c r = m ((c : Thread nD τ).loc r) :=
  (StableHlo.after_of_writes_sub hostOps2 _ hostOps2_writes h2).trans <| (hrest1_arr m c r g1).trans <| Vr2_of_arg m c r h1 g0

end Cert.KernelIdeal.Body

end
-- ==== Proof.KShare0.lean ====
/-
  Entering and leaving Gram kernel 0's region, for a core that holds every unscoped buffer whole at a valuation.

  The region's two input windows read ONE array and its output window writes another, so the buffers behind
  its three windows are two.  At entry the input array's full share is dealt in halves, the left half to the
  first input window and the right half to the second, and the output array goes whole to the output window;
  what is left of the unscoped buffers is the unscoped rest.  At exit the two halves, which hold the same
  contents because no input window's array is ever written back, rejoin to the full share, and the output
  array comes back at its final contents.
-/
import proofs.«119468_j3521873183096_1_alg».proof.Proof.KReg0
import Idealize.ShloMosaic.Lib.Pipeline.Regions
import Idealize.ShloMosaic.Lib.Pipeline.RegionsLoop

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- A core's unscoped buffers at a valuation are the two distinct buffers behind the region's three windows,
    each whole at the full share, and the unscoped rest: the image of the windows' arrays is a pair. -/
theorem unscopedBufs_split0 (c : Dev nD) (V₁ : (b : Ref sig .tc) → Buf (Elt F) ((c : Thread nD τ).loc b)) :
    (unscopedBufs c V₁ : sProp 𝕄)
      = iprop(((((c : Thread nD τ).loc main_arg0) ↦{fullShare} V₁ main_arg0) ∗ (((c : Thread nD τ).loc main_v0) ↦{fullShare} V₁ main_v0))
          ∗ Pipeline.unscopedRest (Ix := Unit) (Name := ℕ) (U := UR sig nD τ) (Lvl := ℕ) spec0 c V₁) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  have hI : Finset.univ.image (Pipeline.arrRef spec0) = {main_arg0, main_v0} := by decide
  have h1 : ∀ Φ : Ref sig .tc → sProp 𝕄, bigSep (Finset.univ.image (Pipeline.arrRef spec0)) Φ = iprop(Φ main_arg0 ∗ Φ main_v0) := fun Φ => by
    rw [hI, bigSep_insert (by decide), bigSep_singleton]; rfl
  unfold unscopedBufs Pipeline.unscopedRest
  rw [bigSep_sdiff_split hA, h1]
  rfl

/-- The region's arrays at contents G: the input array's two half shares, one per input window, and the
    output array at the full share, each array a whole buffer. -/
theorem arrays0_eq (c : Dev nD) (G : (w : Fin cfg0.W) → Buf (Elt F) ((cfg0.win w).arr.view.loc (c.tc : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0, (arr_whole0 0).set_eq_univ, (arr_whole0 2).set_eq_univ,
    show (dat0 V c).share 0 = fullShare.left from rfl, show (dat0 V c).share 1 = fullShare.right from rfl,
    show (dat0 V c).share 2 = fullShare from rfl]

/-- The full share of the input array, beside the output array and anything else, is its two halves at the
    same contents beside them, and back: a share splits into its left and right halves. -/
theorem share_halves0 (c : Dev nD) (f : Buf (Elt F) ((c : Thread nD τ).loc main_arg0)) (g : Buf (Elt F) ((c : Thread nD τ).loc main_v0))
    (R : sProp 𝕄) :
    iprop(((((c : Thread nD τ).loc main_arg0) ↦{fullShare} f) ∗ (((c : Thread nD τ).loc main_v0) ↦{fullShare} g)) ∗ R)
      ⊣⊢ iprop(((((c : Thread nD τ).loc main_arg0) ↦{fullShare.left} f) ∗ (((c : Thread nD τ).loc main_arg0) ↦{fullShare.right} f)
          ∗ (((c : Thread nD τ).loc main_v0) ↦{fullShare} g)) ∗ R) := by
  constructor
  · iintro ⟨⟨Ha, Hv⟩, Hr⟩
    ihave Hs := (pointsTo_share (PosShare.mem_left_op_right fullShare)).1 $$ Ha
    icases Hs with ⟨Hl, Hrt⟩
    isplitr [Hr]
    · isplitl [Hl]; · iexact Hl
      isplitl [Hrt]; · iexact Hrt
      iexact Hv
    · iexact Hr
  · iintro ⟨⟨Hl, Hrt, Hv⟩, Hr⟩
    ihave Ha := (pointsTo_share (PosShare.mem_left_op_right fullShare)).2 $$ [Hl Hrt]
    · isplitl [Hl]; · iexact Hl
      iexact Hrt
    isplitr [Hr]
    · isplitl [Ha]; · iexact Ha
      iexact Hv
    · iexact Hr

/-- ENTRY, the arrays' part: a core's unscoped buffers at the entry contents are the region's arrays at the
    proof data's entry contents, the input array's full share dealt in halves to the two windows that read it,
    and the unscoped rest. -/
theorem arrays_of_unscopedBufs0 (c : Dev nD) :
    (unscopedBufs c (V c) : sProp 𝕄) ⊢ iprop((dat0 V c).arrays ((dat0 V c).arrAt · 0) ∗ Pipeline.unscopedRest (Ix := Unit) (Name := ℕ) (U := UR sig nD τ) (Lvl := ℕ) spec0 c (V c)) := by
  rw [unscopedBufs_split0 c (V c), arrays0_eq V c]
  exact (share_halves0 c (V c main_arg0) (V c main_v0) _).1

/-- EXIT, the arrays' part: the region's arrays at the proof data's final contents and the unscoped rest at the
    entry contents are the core's unscoped buffers at any valuation that has the output array at its final
    contents and agrees with the entry contents elsewhere: the input array's two halves hold the same contents,
    so they rejoin to the full share. -/
theorem unscopedBufs_of_arrays0 (c : Dev nD) (V' : (b : Ref sig .tc) → Buf (Elt F) ((c : Thread nD τ).loc b))
    (hout : V' main_v0 = (dat0 V c).arrAt 2 cfg0.N) (hrest : ∀ b, b ≠ main_v0 → V' b = V c b) :
    iprop((dat0 V c).arrays ((dat0 V c).arrAt · cfg0.N) ∗ Pipeline.unscopedRest (Ix := Unit) (Name := ℕ) (U := UR sig nD τ) (Lvl := ℕ) spec0 c (V c)) ⊢ (unscopedBufs c V' : sProp 𝕄) := by
  have e0 : (dat0 V c).arrAt 0 cfg0.N = V c main_arg0 := ((dat0 V c).arrAt_in 0 rfl cfg0.N).trans (A_eq0 V c 0)
  have e1 : (dat0 V c).arrAt 1 cfg0.N = V c main_arg0 := ((dat0 V c).arrAt_in 1 rfl cfg0.N).trans (A_eq0 V c 1)
  have hR : (Pipeline.unscopedRest (Ix := Unit) (Name := ℕ) (U := UR sig nD τ) (Lvl := ℕ) spec0 c V' : sProp 𝕄)
      = Pipeline.unscopedRest spec0 c (V c) := by
    unfold Pipeline.unscopedRest
    refine bigSep_congr fun b hb => ?_
    rw [hrest b fun h => (Finset.mem_sdiff.mp hb).2 (h ▸ Finset.mem_image.mpr ⟨2, Finset.mem_univ _, rfl⟩)]
  rw [unscopedBufs_split0 c V', arrays0_eq V c, hR, hrest main_arg0 (by decide), hout]
  show iprop(((((c : Thread nD τ).loc main_arg0) ↦{fullShare.left} (dat0 V c).arrAt 0 cfg0.N)
      ∗ (((c : Thread nD τ).loc main_arg0) ↦{fullShare.right} (dat0 V c).arrAt 1 cfg0.N)
      ∗ (((c : Thread nD τ).loc main_v0) ↦{fullShare} (dat0 V c).arrAt 2 cfg0.N)) ∗ _) ⊢ _
  rw [e0, e1]
  exact (share_halves0 c (V c main_arg0) ((dat0 V c).arrAt 2 cfg0.N) _).2

end

end Cert.KernelIdeal.Body

end
-- ==== Proof.KShare1.lean ====
/-
  Entering and leaving Gram kernel 1's region, for a core that holds every unscoped buffer whole at a valuation.

  The region's two input windows read ONE array and its output window writes another, so the buffers behind
  its three windows are two.  At entry the input array's full share is dealt in halves, the left half to the
  first input window and the right half to the second, and the output array goes whole to the output window;
  what is left of the unscoped buffers is the unscoped rest.  At exit the two halves, which hold the same
  contents because no input window's array is ever written back, rejoin to the full share, and the output
  array comes back at its final contents.
-/
import proofs.«119468_j3521873183096_1_alg».proof.Proof.KReg1
import Idealize.ShloMosaic.Lib.Pipeline.Regions
import Idealize.ShloMosaic.Lib.Pipeline.RegionsLoop

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- A core's unscoped buffers at a valuation are the two distinct buffers behind the region's three windows,
    each whole at the full share, and the unscoped rest: the image of the windows' arrays is a pair. -/
theorem unscopedBufs_split1 (c : Dev nD) (V₁ : (b : Ref sig .tc) → Buf (Elt F) ((c : Thread nD τ).loc b)) :
    (unscopedBufs c V₁ : sProp 𝕄)
      = iprop(((((c : Thread nD τ).loc main_arg1) ↦{fullShare} V₁ main_arg1) ∗ (((c : Thread nD τ).loc main_v5) ↦{fullShare} V₁ main_v5))
          ∗ Pipeline.unscopedRest (Ix := Unit) (Name := ℕ) (U := UR sig nD τ) (Lvl := ℕ) spec1 c V₁) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  have hI : Finset.univ.image (Pipeline.arrRef spec1) = {main_arg1, main_v5} := by decide
  have h1 : ∀ Φ : Ref sig .tc → sProp 𝕄, bigSep (Finset.univ.image (Pipeline.arrRef spec1)) Φ = iprop(Φ main_arg1 ∗ Φ main_v5) := fun Φ => by
    rw [hI, bigSep_insert (by decide), bigSep_singleton]; rfl
  unfold unscopedBufs Pipeline.unscopedRest
  rw [bigSep_sdiff_split hA, h1]
  rfl

/-- The region's arrays at contents G: the input array's two half shares, one per input window, and the
    output array at the full share, each array a whole buffer. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_arg1) ↦{fullShare.left} G 0) ∗ (((c : Thread nD τ).loc main_arg1) ↦{fullShare.right} G 1)
          ∗ (((c : Thread nD τ).loc main_v5) ↦{fullShare} G 2)) := by
  unfold Dat.arrays
  rw [bigSep_W1, (arr_whole1 0).set_eq_univ, (arr_whole1 2).set_eq_univ,
    show (dat1 V c).share 0 = fullShare.left from rfl, show (dat1 V c).share 1 = fullShare.right from rfl,
    show (dat1 V c).share 2 = fullShare from rfl]

/-- The full share of the input array, beside the output array and anything else, is its two halves at the
    same contents beside them, and back: a share splits into its left and right halves. -/
theorem share_halves1 (c : Dev nD) (f : Buf (Elt F) ((c : Thread nD τ).loc main_arg1)) (g : Buf (Elt F) ((c : Thread nD τ).loc main_v5))
    (R : sProp 𝕄) :
    iprop(((((c : Thread nD τ).loc main_arg1) ↦{fullShare} f) ∗ (((c : Thread nD τ).loc main_v5) ↦{fullShare} g)) ∗ R)
      ⊣⊢ iprop(((((c : Thread nD τ).loc main_arg1) ↦{fullShare.left} f) ∗ (((c : Thread nD τ).loc main_arg1) ↦{fullShare.right} f)
          ∗ (((c : Thread nD τ).loc main_v5) ↦{fullShare} g)) ∗ R) := by
  constructor
  · iintro ⟨⟨Ha, Hv⟩, Hr⟩
    ihave Hs := (pointsTo_share (PosShare.mem_left_op_right fullShare)).1 $$ Ha
    icases Hs with ⟨Hl, Hrt⟩
    isplitr [Hr]
    · isplitl [Hl]; · iexact Hl
      isplitl [Hrt]; · iexact Hrt
      iexact Hv
    · iexact Hr
  · iintro ⟨⟨Hl, Hrt, Hv⟩, Hr⟩
    ihave Ha := (pointsTo_share (PosShare.mem_left_op_right fullShare)).2 $$ [Hl Hrt]
    · isplitl [Hl]; · iexact Hl
      iexact Hrt
    isplitr [Hr]
    · isplitl [Ha]; · iexact Ha
      iexact Hv
    · iexact Hr

/-- ENTRY, the arrays' part: a core's unscoped buffers at the entry contents are the region's arrays at the
    proof data's entry contents, the input array's full share dealt in halves to the two windows that read it,
    and the unscoped rest. -/
theorem arrays_of_unscopedBufs1 (c : Dev nD) :
    (unscopedBufs c (V c) : sProp 𝕄) ⊢ iprop((dat1 V c).arrays ((dat1 V c).arrAt · 0) ∗ Pipeline.unscopedRest (Ix := Unit) (Name := ℕ) (U := UR sig nD τ) (Lvl := ℕ) spec1 c (V c)) := by
  rw [unscopedBufs_split1 c (V c), arrays1_eq V c]
  exact (share_halves1 c (V c main_arg1) (V c main_v5) _).1

/-- EXIT, the arrays' part: the region's arrays at the proof data's final contents and the unscoped rest at the
    entry contents are the core's unscoped buffers at any valuation that has the output array at its final
    contents and agrees with the entry contents elsewhere: the input array's two halves hold the same contents,
    so they rejoin to the full share. -/
theorem unscopedBufs_of_arrays1 (c : Dev nD) (V' : (b : Ref sig .tc) → Buf (Elt F) ((c : Thread nD τ).loc b))
    (hout : V' main_v5 = (dat1 V c).arrAt 2 cfg1.N) (hrest : ∀ b, b ≠ main_v5 → V' b = V c b) :
    iprop((dat1 V c).arrays ((dat1 V c).arrAt · cfg1.N) ∗ Pipeline.unscopedRest (Ix := Unit) (Name := ℕ) (U := UR sig nD τ) (Lvl := ℕ) spec1 c (V c)) ⊢ (unscopedBufs c V' : sProp 𝕄) := by
  have e0 : (dat1 V c).arrAt 0 cfg1.N = V c main_arg1 := ((dat1 V c).arrAt_in 0 rfl cfg1.N).trans (A_eq1 V c 0)
  have e1 : (dat1 V c).arrAt 1 cfg1.N = V c main_arg1 := ((dat1 V c).arrAt_in 1 rfl cfg1.N).trans (A_eq1 V c 1)
  have hR : (Pipeline.unscopedRest (Ix := Unit) (Name := ℕ) (U := UR sig nD τ) (Lvl := ℕ) spec1 c V' : sProp 𝕄)
      = Pipeline.unscopedRest spec1 c (V c) := by
    unfold Pipeline.unscopedRest
    refine bigSep_congr fun b hb => ?_
    rw [hrest b fun h => (Finset.mem_sdiff.mp hb).2 (h ▸ Finset.mem_image.mpr ⟨2, Finset.mem_univ _, rfl⟩)]
  rw [unscopedBufs_split1 c V', arrays1_eq V c, hR, hrest main_arg1 (by decide), hout]
  show iprop(((((c : Thread nD τ).loc main_arg1) ↦{fullShare.left} (dat1 V c).arrAt 0 cfg1.N)
      ∗ (((c : Thread nD τ).loc main_arg1) ↦{fullShare.right} (dat1 V c).arrAt 1 cfg1.N)
      ∗ (((c : Thread nD τ).loc main_v5) ↦{fullShare} (dat1 V c).arrAt 2 cfg1.N)) ∗ _) ⊢ _
  rw [e0, e1]
  exact (share_halves1 c (V c main_arg1) ((dat1 V c).arrAt 2 cfg1.N) _).2

end

end Cert.KernelIdeal.Body

end
-- ==== Proof.KRun.lean ====
/-
  The run of the three-region program: each kernel region as a segment between thread states "every unscoped buffer at
  the boundary's contents, the generator register at some state, nothing owed" (its arrays taken out of the unscoped
  buffers at entry and put back at exit; for the two regions whose input windows read one array, each window holding
  half of the array's share), the host stretches between them, and the launch: from any memory with zero counters
  every weakly fair execution terminates, nothing faulting, with every unscoped buffer at the last boundary's contents.
-/
import proofs.«119468_j3521873183096_1_alg».proof.Proof.KFold
import proofs.«119468_j3521873183096_1_alg».proof.Proof.KShare0
import proofs.«119468_j3521873183096_1_alg».proof.Proof.KShare1
import Idealize.ShloMosaic.Lib.Pipeline.RegionsLoop
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Every pipeline's proof data, each at its region's entry contents: a literal match on the pipeline. -/
def pdats : (p : Fin 3) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr2 m) c
  | ⟨2, _⟩ => fun c => dat2 (Vr4 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
abbrev Tn (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state "every unscoped buffer at the boundary's contents, the generator register at some
    state, nothing owed": entered from `W0`, left at `W1`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit : (unscopedBufs c (Vr0 m c) : sProp 𝕄) ⊢ iprop((pdats m 0 c).arrays ((pdats m 0 c).arrAt · 0) ∗ Pipeline.unscopedRest (Ix := Unit) (Name := ℕ) (U := UR sig nD τ) (Lvl := ℕ) spec0 c (Vr0 m c)) :=
      arrays_of_unscopedBufs0 (Vr0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m 0 c).Φ 0 := hin0 (Vr0 m) c
    iintro ⟨Hp, -, Hr⟩
    iapply h
    unfold Pipeline.ΦA
    isplitl [Hr]; · iexact Hr
    iexact Hp
  hout c := by
    rw [Pipeline.ownSems0_none]
    have h : (pdats m 0 c).Φ (Fin.last (Pipeline.pin (pcfgs (F := F)) adm 0).N) ⊢ (Pipeline.ΦA spec0 c : sProp 𝕄) := hout0 (Vr0 m) c
    unfold Pipeline.ΦA at h
    iintro HP
    ihave H := h $$ HP
    icases H with ⟨Hr, Hp⟩
    isplitl [Hp]; · iexact Hp
    isplitr; · iempintro
    iexact Hr
  hexit c := by
    have hjoin : iprop((pdats m 0 c).arrays ((pdats m 0 c).arrAt · (Pipeline.pin (pcfgs (F := F)) adm 0).N) ∗ Pipeline.unscopedRest (Ix := Unit) (Name := ℕ) (U := UR sig nD τ) (Lvl := ℕ) spec0 c (Vr0 m c))
        ⊢ (unscopedBufs c (Vr1 m c) : sProp 𝕄) := unscopedBufs_of_arrays0 (Vr0 m) c (Vr1 m c) (hout0_arr m c) (hrest0_arr m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": entered from `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit : (unscopedBufs c (Vr2 m c) : sProp 𝕄) ⊢ iprop((pdats m 1 c).arrays ((pdats m 1 c).arrAt · 0) ∗ Pipeline.unscopedRest (Ix := Unit) (Name := ℕ) (U := UR sig nD τ) (Lvl := ℕ) spec1 c (Vr2 m c)) :=
      arrays_of_unscopedBufs1 (Vr2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (Vr2 m) c
    iintro ⟨Hp, -, Hr⟩
    iapply h
    unfold Pipeline.ΦA
    isplitl [Hr]; · iexact Hr
    iexact Hp
  hout c := by
    rw [Pipeline.ownSems0_none]
    have h : (pdats m 1 c).Φ (Fin.last (Pipeline.pin (pcfgs (F := F)) adm 1).N) ⊢ (Pipeline.ΦA spec1 c : sProp 𝕄) := hout1 (Vr2 m) c
    unfold Pipeline.ΦA at h
    iintro HP
    ihave H := h $$ HP
    icases H with ⟨Hr, Hp⟩
    isplitl [Hp]; · iexact Hp
    isplitr; · iempintro
    iexact Hr
  hexit c := by
    have hjoin : iprop((pdats m 1 c).arrays ((pdats m 1 c).arrAt · (Pipeline.pin (pcfgs (F := F)) adm 1).N) ∗ Pipeline.unscopedRest (Ix := Unit) (Name := ℕ) (U := UR sig nD τ) (Lvl := ℕ) spec1 c (Vr2 m c))
        ⊢ (unscopedBufs c (Vr3 m c) : sProp 𝕄) := unscopedBufs_of_arrays1 (Vr2 m) c (Vr3 m c) (hout1_arr m c) (hrest1_arr m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": entered from `W4`, left at `W5`. -/
def reg2 : Pipeline.RegionSeg (pcfgs (F := F)) adm (pdats m) () defs₀ 𝒱₀ L lv 2 where
  win := launch2.win.to₀
  block_pos := block_pos2
  stage_whole := stage_whole2
  K := PEmpty
  osem k := k.elim
  ho := Pipeline.OwnSemFacts.none _
  hbody c := (body_obligation2 (Vr4 m) c).loose
  hwaits := Pipeline.hwaits_of_owed_zero _ _ _ _ L lv 2 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X c := iprop(∃ r, prngReg c r)
  Y c := iprop(∃ r, prngReg c r)
  Z c := Pipeline.unscopedRest (Ix := Unit) (Name := ℕ) (U := UR sig nD τ) (Lvl := ℕ) spec2 c (Vr4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m 2 c).Φ 0 := hin2 (Vr4 m) c
    iintro ⟨Hp, -, Hr⟩
    iapply h
    unfold Pipeline.ΦA
    isplitl [Hr]; · iexact Hr
    iexact Hp
  hout c := by
    rw [Pipeline.ownSems0_none]
    have h : (pdats m 2 c).Φ (Fin.last (Pipeline.pin (pcfgs (F := F)) adm 2).N) ⊢ (Pipeline.ΦA spec2 c : sProp 𝕄) := hout2 (Vr4 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr4 m c) (Vr5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds each unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps3 (W5 m c)) ∗ Rr c)
        ⊢ iprop(Tn m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Body

end
-- ==== Proof.Spec.lean ====
/-
  The quantity both programs compute: the (biased-corrected) squared maximum mean discrepancy of two
  samples X, Y of 8192 points in dimension 64 under the Gaussian kernel of bandwidth one, halved.

  For rows p of A and q of B the Gram entry is exp(-(1/2) * max(|A_p|^2 + |B_q|^2 - 2 <A_p, B_q>, 0)),
  the squared distance written through the norms and the inner product and clipped at zero.  With
  S(A,B) the sum of all Gram entries and T(A) the sum of the diagonal entries of the Gram matrix of A
  with itself, the result is
      (1/2) * ( c*(S(X,X) - T(X)) + c*(S(Y,Y) - T(Y)) - 2 * S(X,Y) / 2^26 ),
  c the float nearest 1/(8192*8191).  Float literals stay the words the programs print; every
  operation is the exact one on the extended reals.
-/
import Idealize.ShloMosaic.PureOps.Ideal
import Idealize.ShloMosaic.Lib.ValueIdx

noncomputable section

namespace Cert.Mmd

open Idealize.ShloMosaic Idealize.ShloMosaic.ValueIdx
open scoped BigOperators

/-- A sample: 8192 points of dimension 64, entries extended reals. -/
abbrev Mat : Type := (⟨2, ![8192, 64]⟩ : Shape).Idx → EReal

/-- The literals, as the words both programs print. -/
abbrev wZero : EReal := Ideal.ofBits .f32 0x00000000#32
abbrev wOne : EReal := Ideal.ofBits .f32 0x3F800000#32
abbrev wTwo : EReal := Ideal.ofBits .f32 0x40000000#32
abbrev wNegHalf : EReal := Ideal.ofBits .f32 0xBF000000#32
abbrev wHalf : EReal := Ideal.ofBits .f32 0x3F000000#32
abbrev wInvPairs : EReal := Ideal.ofBits .f32 0x32800400#32
abbrev wCount : EReal := Ideal.ofBits .f32 0x4C800000#32

/-- Squared norm of row p. -/
def sqn (x : Mat) (p : Fin 8192) : EReal := ∑ d : Fin 64, x (ix2 p d) * x (ix2 p d)

/-- Inner product of row p of x with row q of y. -/
def inner (x y : Mat) (p q : Fin 8192) : EReal := ∑ d : Fin 64, x (ix2 p d) * y (ix2 q d)

/-- Squared distance of row p of x and row q of y, through norms and inner product, clipped at zero. -/
def sqd (x y : Mat) (p q : Fin 8192) : EReal := max ((sqn x p + sqn y q) - wTwo * inner x y p q) wZero

/-- The Gram entry, in the arrangement exp((-1/2 * d) / 1). -/
def gram (x y : Mat) (p q : Fin 8192) : EReal := Ideal.exp (Ideal.div (wNegHalf * sqd x y p q) wOne)

/-- The sum of all Gram entries. -/
def gramSum (x y : Mat) : EReal := ∑ p : Fin 8192, ∑ q : Fin 8192, gram x y p q

/-- The sum of the diagonal Gram entries of a sample with itself. -/
def gramTrace (x : Mat) : EReal := ∑ p : Fin 8192, gram x x p p

/-- The closing arithmetic on the five sums, as both programs spell it. -/
def combine (sxx txx syy tyy sxy : EReal) : EReal :=
  wHalf * (((wInvPairs * (sxx - txx)) + (wInvPairs * (syy - tyy))) - wTwo * Ideal.div sxy wCount)

/-- The result as one function of the two samples. -/
def result (x y : Mat) : EReal :=
  combine (gramSum x x) (gramTrace x) (gramSum y y) (gramTrace y) (gramSum x y)

end Cert.Mmd

end
-- ==== Proof.KTail.lean ====
/-
  The closing arithmetic of the program with the three tiled regions.

  Each region leaves a [1, 2] pair [sum, trace].  Between and after the regions the program cuts each
  pair into its two cells, reads each cell as a scalar, and combines five of the six scalars:
      1/2 * ((c * (sum1 - trace1) + c * (sum2 - trace2)) - 2 * (sum3 / 2^26)),
  c the float nearest 1/(8192*8191).  Whatever the regions leave in their pairs, the result buffer
  ends holding exactly this function of the five cells.  A slice of a [1, 2] pair at offset (0, k)
  followed by the cast of the [1, 1] block to a scalar reads the pair's cell (0, k); an item that
  does not write a buffer leaves it as it was.
-/
import proofs.«119468_j3521873183096_1_alg».proof.Proof.Gen.KernelIdeal.Regions
import proofs.«119468_j3521873183096_1_alg».proof.Proof.Spec
import Idealize.ShloMosaic.Lib.Pipeline.Value
import Idealize.ShloMosaic.Lib.ValueIdx

noncomputable section

namespace Cert.KernelIdeal.Tail

open Idealize.ShloMosaic Idealize.ShloMosaic.TcCoe Idealize.ShloMosaic.ValueIdx
open Cert.KernelIdeal

/-! ## A cell of a pair read as a scalar -/

/-- The cell (0, 0) of a [1, 2] pair, cut out as a [1, 1] block and read as a scalar, is that cell. -/
theorem cell0 {α : Type} (v : S1x2.Idx → α) (hs : S1x2.Slices ![0, 0] S1x1) (hc : S1x1.ShapeCasts S_)
    (j : S_.Idx) : shapeCast S_ (extractStridedSlice S1x1 ![0, 0] v hs) hc j = v (ix2 0 0) := by
  refine (shapeCast_apply _ hc j (ix2 0 0) ?_).trans ?_
  · have h0 := (S_.rowMajor j).isLt
    have h1 : S_.numel = 1 := by decide
    rw [Shape.rowMajor_val_two]
    show 0 * 1 + 0 = (S_.rowMajor j).val
    omega
  · refine extractStridedSlice_apply ![0, 0] v hs (ix2 0 0) (ix2 0 0) fun a => ?_
    match a with
    | ⟨0, _⟩ => rfl
    | ⟨1, _⟩ => rfl

/-- The cell (0, 1) of a [1, 2] pair, cut out as a [1, 1] block and read as a scalar, is that cell. -/
theorem cell1 {α : Type} (v : S1x2.Idx → α) (hs : S1x2.Slices ![0, 1] S1x1) (hc : S1x1.ShapeCasts S_)
    (j : S_.Idx) : shapeCast S_ (extractStridedSlice S1x1 ![0, 1] v hs) hc j = v (ix2 0 1) := by
  refine (shapeCast_apply _ hc j (ix2 0 0) ?_).trans ?_
  · have h0 := (S_.rowMajor j).isLt
    have h1 : S_.numel = 1 := by decide
    rw [Shape.rowMajor_val_two]
    show 0 * 1 + 0 = (S_.rowMajor j).val
    omega
  · refine extractStridedSlice_apply ![0, 1] v hs (ix2 0 0) (ix2 0 1) fun a => ?_
    match a with
    | ⟨0, _⟩ => rfl
    | ⟨1, _⟩ => rfl

/-! ## The scalars cut out of the regions' pairs -/

section Scalars

variable (m : (ℓ : Loc nD τ sig) → Buf (Elt Ideal) ℓ) (outs : Gen.Outs (F := Ideal)) (c : Dev nD)

/-- After the first region's pair is cut and read as scalars, the first scalar is the pair's cell
    (0, 0): the region's sum. -/
theorem V2_main_v2 (j : S_.Idx) :
    (Gen.V2 m outs c main_v2 : S_.Idx → EReal) j = (outs 1 main_v0 c : S1x2.Idx → EReal) (ix2 0 0) := by
  dsimp only [Gen.V2, Gen.hostOps1]
  after_results
  refine (cell0 _ _ _ j).trans ?_
  dsimp only [Gen.V1]
  rw [Function.update_self]

/-- And the second scalar is the pair's cell (0, 1): the region's trace. -/
theorem V2_main_v4 (j : S_.Idx) :
    (Gen.V2 m outs c main_v4 : S_.Idx → EReal) j = (outs 1 main_v0 c : S1x2.Idx → EReal) (ix2 0 1) := by
  dsimp only [Gen.V2, Gen.hostOps1]
  after_results
  refine (cell1 _ _ _ j).trans ?_
  dsimp only [Gen.V1]
  rw [Function.update_self]

/-- The second region's pair read the same way: its cell (0, 0), -/
theorem V4_main_v7 (j : S_.Idx) :
    (Gen.V4 m outs c main_v7 : S_.Idx → EReal) j = (outs 3 main_v5 c : S1x2.Idx → EReal) (ix2 0 0) := by
  dsimp only [Gen.V4, Gen.hostOps2]
  after_results
  refine (cell0 _ _ _ j).trans ?_
  dsimp only [Gen.V3]
  rw [Function.update_self]

/-- and its cell (0, 1). -/
theorem V4_main_v9 (j : S_.Idx) :
    (Gen.V4 m outs c main_v9 : S_.Idx → EReal) j = (outs 3 main_v5 c : S1x2.Idx → EReal) (ix2 0 1) := by
  dsimp only [Gen.V4, Gen.hostOps2]
  after_results
  refine (cell1 _ _ _ j).trans ?_
  dsimp only [Gen.V3]
  rw [Function.update_self]

/-- The four scalars are still there after the third region, which may change only its own pair. -/
theorem V5_main_v2 (j : S_.Idx) :
    (Gen.V5 m outs c main_v2 : S_.Idx → EReal) j = (outs 1 main_v0 c : S1x2.Idx → EReal) (ix2 0 0) :=
  (congrFun ((Gen.V5_of m outs c main_v2 (by decide)).trans ((Gen.V4_of m outs c main_v2 (by decide)).trans
    (Gen.V3_of m outs c main_v2 (by decide)))) j).trans (V2_main_v2 m outs c j)

/-- The first region's trace, after the third region. -/
theorem V5_main_v4 (j : S_.Idx) :
    (Gen.V5 m outs c main_v4 : S_.Idx → EReal) j = (outs 1 main_v0 c : S1x2.Idx → EReal) (ix2 0 1) :=
  (congrFun ((Gen.V5_of m outs c main_v4 (by decide)).trans ((Gen.V4_of m outs c main_v4 (by decide)).trans
    (Gen.V3_of m outs c main_v4 (by decide)))) j).trans (V2_main_v4 m outs c j)

/-- The second region's sum, after the third region. -/
theorem V5_main_v7 (j : S_.Idx) :
    (Gen.V5 m outs c main_v7 : S_.Idx → EReal) j = (outs 3 main_v5 c : S1x2.Idx → EReal) (ix2 0 0) :=
  (congrFun (Gen.V5_of m outs c main_v7 (by decide)) j).trans (V4_main_v7 m outs c j)

/-- The second region's trace, after the third region. -/
theorem V5_main_v9 (j : S_.Idx) :
    (Gen.V5 m outs c main_v9 : S_.Idx → EReal) j = (outs 3 main_v5 c : S1x2.Idx → EReal) (ix2 0 1) :=
  (congrFun (Gen.V5_of m outs c main_v9 (by decide)) j).trans (V4_main_v9 m outs c j)

end Scalars

/-! ## The result -/

/-- After the last item of the program the result buffer holds, at its one index, the closing
    arithmetic applied to the five numbers the three regions left: the sum and the trace of the first
    region's pair, the sum and the trace of the second's, and the sum of the third's. -/
theorem V6_main_v23 (m : (ℓ : Loc nD τ sig) → Buf (Elt Ideal) ℓ) (outs : Gen.Outs (F := Ideal)) (c : Dev nD) :
    Gen.V6 m outs c main_v23 = fun _ => Cert.Mmd.combine
      (outs 1 main_v0 c (ix2 0 0)) (outs 1 main_v0 c (ix2 0 1)) (outs 3 main_v5 c (ix2 0 0))
      (outs 3 main_v5 c (ix2 0 1)) (outs 5 main_v10 c (ix2 0 0)) := by
  funext j
  dsimp only [Gen.V6, Gen.hostOps3]
  after_results
  show Cert.Mmd.combine ((Gen.V5 m outs c main_v2 : S_.Idx → EReal) j)
      ((Gen.V5 m outs c main_v4 : S_.Idx → EReal) j) ((Gen.V5 m outs c main_v7 : S_.Idx → EReal) j)
      ((Gen.V5 m outs c main_v9 : S_.Idx → EReal) j)
      (shapeCast S_ (extractStridedSlice S1x1 ![0, 0] (Gen.V5 m outs c main_v10 : S1x2.Idx → EReal)
        Gen.slices_S1x2_S1x1_0_0) Gen.shapeCasts_S1x1_S_ j) = _
  rw [V5_main_v2 m outs c j, V5_main_v4 m outs c j, V5_main_v7 m outs c j, V5_main_v9 m outs c j, cell0]
  dsimp only [Gen.V5]
  rw [Function.update_self]

end Cert.KernelIdeal.Tail

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibGramNorms.lean ====
/-
  Squared row norms and the Gram product of two matrices, read at an index on the extended reals.

  For matrices `a : [M, K]` and `b : [N, K]`, at the ideal values:
  • a sum of an `[a, b]` array along its last axis holds at `p` the sum over `f` of the array at `(p, f)`;
  • the squared norms of the rows of `a`, kept as a column `[M, 1]` and stretched over `N` columns, hold at
    `(p, f)` the sum over `d` of `a (p, d) · a (p, d)`, whatever the column `f`;
  • the squared norms of the rows of `b`, kept as a column `[N, 1]`, transposed to a row `[1, N]` and stretched
    over `M` rows, hold at `(p, f)` the sum over `d` of `b (f, d) · b (f, d)`, whatever the row `p`;
  • the product of `a` with the transpose of `b`, accumulated into zero, holds at `(p, f)` the inner product of
    row `p` of `a` with row `f` of `b`: the Gram matrix of the two families of rows.
  Each is a chain of layout reads (a cast keeps the row-major position, a broadcast reads coordinate 0 on a unit
  axis, a transpose swaps the two coordinates) ending in a `Fin`-indexed sum.
-/
import Idealize.ShloMosaic.PureOps.Ideal.Laws
import Idealize.ShloMosaic.Lib.ValueIdx
import Idealize.ShloMosaic.Lib.ValueLayout
import proofs.«119468_j3521873183096_1_alg».proof.Proof.LibKeepdims
import proofs.«119468_j3521873183096_1_alg».proof.Proof.LibInnerProducts

noncomputable section

namespace Cert.LibGramNorms

open Idealize.ShloMosaic Idealize.ShloMosaic.ValueIdx
open scoped BigOperators

/-- A float sum of an `[a, b]` array along its last axis is, at `p`, the sum over `f` of the array at `(p, f)`. -/
theorem row_sum_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ x acc h hφ hacc (ix1 p) = ∑ f : Fin b, x (ix2 p f) := by
  refine (Ideal.multiReduction_add_single x acc h hφ hacc (ix1 p)).trans ?_
  show ∑ f : Fin b, x (h.lift (ix1 p) f) = ∑ f : Fin b, x (ix2 p f)
  refine Finset.sum_congr rfl fun f _ => congrArg x (funext fun ax => Fin.ext ?_)
  match ax with
  | ⟨0, _⟩ => rfl
  | ⟨1, _⟩ => rfl

/-- The squared norms of the rows of `a : [M, K]`, kept as a column and stretched over `N` columns: at `(p, f)` the
    sum over `d` of `a (p, d) · a (p, d)`. -/
theorem sqnorm_column_apply {M K N : ℕ} {φ : FTy} (a : FVec Ideal ⟨2, ![M, K]⟩ φ) (acc : BitVec φ.bits)
    (hr : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (f : Fin N) :
    broadcastTo ⟨2, ![M, N]⟩
        (shapeCast ⟨2, ![M, 1]⟩ (multiReduction .add [1] ⟨1, ![M]⟩ (mulf a a) acc hr hφ hacc) hc) hb (ix2 p f)
      = ∑ d : Fin K, a (ix2 p d) * a (ix2 p d) :=
  ((Cert.LibKeepdims.broadcastTo_a1_ab_apply _ hb p f).trans
      (Cert.LibKeepdims.shapeCast_a_a1_apply _ hc p (0 : Fin 1))).trans
    (row_sum_apply (mulf a a) acc hr hφ hacc p)

/-- The squared norms of the rows of `b : [N, K]`, kept as a column, transposed to a row and stretched over `M` rows:
    at `(p, f)` the sum over `d` of `b (f, d) · b (f, d)`. -/
theorem sqnorm_row_apply {M K N : ℕ} {φ : FTy} (b : FVec Ideal ⟨2, ![N, K]⟩ φ) (acc : BitVec φ.bits)
    (hr : (⟨2, ![N, K]⟩ : Shape).Reduces [1] ⟨1, ![N]⟩) (hφ : FKind.Formats φ) (hacc : acc = FKind.add.neutral φ hφ)
    (hc : (⟨1, ![N]⟩ : Shape).ShapeCasts ⟨2, ![N, 1]⟩) (ht : (⟨2, ![N, 1]⟩ : Shape).Transposes [1, 0] ⟨2, ![1, N]⟩)
    (hb : (⟨2, ![1, N]⟩ : Shape).Broadcasts ⟨2, ![M, N]⟩) (p : Fin M) (f : Fin N) :
    broadcastTo ⟨2, ![M, N]⟩
        (transpose ⟨2, ![1, N]⟩ [1, 0]
          (shapeCast ⟨2, ![N, 1]⟩ (multiReduction .add [1] ⟨1, ![N]⟩ (mulf b b) acc hr hφ hacc) hc) ht) hb (ix2 p f)
      = ∑ d : Fin K, b (ix2 f d) * b (ix2 f d) :=
  (((broadcastTo_1b_ab_apply _ hb p f).trans (transpose_ix2_apply _ ht (0 : Fin 1) f)).trans
      (Cert.LibKeepdims.shapeCast_a_a1_apply _ hc f (0 : Fin 1))).trans
    (row_sum_apply (mulf b b) acc hr hφ hacc f)

/-- The product of `a : [M, K]` with the transpose of `b : [N, K]`, accumulated into zero: at `(p, f)` the inner
    product of row `p` of `a` with row `f` of `b`. `D` is any record of the plain dimension numbers. -/
theorem gram_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] b ht) (constant (F := Ideal) ⟨2, ![M, N]⟩ .f32 0x00000000#32) (ix2 p f)
      = ∑ d : Fin K, a (ix2 p d) * b (ix2 f d) := by
  refine (Idealize.ShloMosaic.InnerProducts.matmul_zero_apply D hD prec a _ p f).trans ?_
  exact Finset.sum_congr rfl fun d _ => congrArg (a (ix2 p d) * ·) (transpose_ix2_apply b ht d f)

end Cert.LibGramNorms

end
-- ==== Proof.LibWords.lean ====
/-
  The real numbers that a few 32-bit float words denote, and the choice of real representatives.

  At the ideal instance a float constant is the exact value of its binary word.  The words below
  are those of the small literals `0`, `1`, `2`, `-1/2` and `50000`; each value is computed from
  the word's sign, exponent and significand fields.  The last statement turns "every entry is
  the image of some real" into one real-valued family, the form in which an identity over the
  reals is applied to a vector of extended reals.
-/
import Mathlib.Tactic
import Idealize.ShloMosaic.PureOps.Ideal

namespace Cert.Proof.Words

open Idealize.ShloMosaic

/-- The word `0x00000000` denotes `0`. -/
theorem ofBits_f32_zero : Ideal.ofBits .f32 0x00000000#32 = ((0 : ℝ) : EReal) := by
  simp [Ideal.ofBits, Ideal.ieee]

/-- The word `0x3F800000` denotes `1`: exponent field `127`, significand `0`. -/
theorem ofBits_f32_one : Ideal.ofBits .f32 0x3F800000#32 = ((1 : ℝ) : EReal) := by
  simp [Ideal.ofBits, Ideal.ieee, -EReal.coe_mul] <;> norm_num

/-- The word `0x40000000` denotes `2`: exponent field `128`, significand `0`. -/
theorem ofBits_f32_two : Ideal.ofBits .f32 0x40000000#32 = ((2 : ℝ) : EReal) := by
  simp [Ideal.ofBits, Ideal.ieee, -EReal.coe_mul] <;> norm_num

/-- The word `0xBF000000` denotes `-1/2`: sign set, exponent field `126`, significand `0`. -/
theorem ofBits_f32_negHalf : Ideal.ofBits .f32 0xBF000000#32 = ((-(1 / 2) : ℝ) : EReal) := by
  simp [Ideal.ofBits, Ideal.ieee, -EReal.coe_mul] <;> norm_num

/-- The word `0x47435000` denotes `50000`: exponent field `142`, so the value is
    `(2^23 + 0x435000) · 2^(142 - 127 - 23) = 12800000 / 256`. -/
theorem ofBits_f32_50000 : Ideal.ofBits .f32 0x47435000#32 = ((50000 : ℝ) : EReal) := by
  simp [Ideal.ofBits, Ideal.ieee, -EReal.coe_mul] <;> norm_num

/-- A family of extended reals each of which is the image of a real is the image of one family of
    reals. -/
theorem exists_real_family {ι : Type*} {v : ι → EReal} (h : ∀ i, ∃ r : ℝ, v i = (r : EReal)) :
    ∃ y : ι → ℝ, v = fun i => (y i : EReal) :=
  ⟨fun i => (h i).choose, funext fun i => (h i).choose_spec⟩

end Cert.Proof.Words
-- ==== Proof.SpecTiles.lean ====
/-
  The 8192 x 8192 Gram matrix cut into a 16 x 16 grid of 512 x 512 tiles, visited row by row:
  grid point u (0 <= u < 256) is tile (u / 16, u % 16); row p of tile-row i is row 512*i + p of the
  sample.  The sum of all Gram entries is the sum over the grid points of the tile sums, and the
  trace is the sum over the diagonal tiles (u / 16 = u % 16) of the tiles' diagonal sums.  This
  module only names these pieces; the laws relating them are proved elsewhere.
-/
import proofs.«119468_j3521873183096_1_alg».proof.Proof.Spec

noncomputable section

namespace Cert.Mmd

open Idealize.ShloMosaic Idealize.ShloMosaic.ValueIdx
open scoped BigOperators

/-- A tile of a sample: 512 consecutive points. -/
abbrev Tile : Type := (⟨2, ![512, 64]⟩ : Shape).Idx → EReal

/-- Row p of tile-row i, as a row of the sample (reduced mod 8192 so that it is total in i). -/
def rowN (i : ℕ) (p : Fin 512) : Fin 8192 := ⟨(512 * i + p.val) % 8192, Nat.mod_lt _ (by decide)⟩

/-- Tile-row i of a sample. -/
def tile (x : Mat) (i : ℕ) : Tile := fun k => x (ix2 (rowN i (k 0)) (k 1))

/-- Squared norm of row p of a tile. -/
def tSqn (a : Tile) (p : Fin 512) : EReal := ∑ d : Fin 64, a (ix2 p d) * a (ix2 p d)

/-- Inner product of row p of tile a with row q of tile b. -/
def tInner (a b : Tile) (p q : Fin 512) : EReal := ∑ d : Fin 64, a (ix2 p d) * b (ix2 q d)

/-- The Gram entry (p, q) of two tiles, in the same arrangement as `gram`. -/
def tGram (a b : Tile) (p q : Fin 512) : EReal :=
  Ideal.exp (Ideal.div (wNegHalf * max ((tSqn a p + tSqn b q) - wTwo * tInner a b p q) wZero) wOne)

/-- The sum of the Gram entries of the tile visited at grid point u. -/
def tileSumAt (x y : Mat) (u : ℕ) : EReal :=
  ∑ p : Fin 512, ∑ q : Fin 512, tGram (tile x (u / 16)) (tile y (u % 16)) p q

/-- The diagonal sum of the tile visited at grid point u when it is a diagonal tile, else zero. -/
def tileDiagAt (x : Mat) (u : ℕ) : EReal :=
  if u / 16 = u % 16 then ∑ p : Fin 512, tGram (tile x (u / 16)) (tile x (u % 16)) p p else 0

end Cert.Mmd

end
-- ==== Proof.KPayLemmas.lean ====
/-
  The arithmetic of one grid step of a Gaussian Gram kernel, read on the extended reals.

  One step takes two tiles a, b of 512 points in dimension 64 and forms the 512 x 512 tile of values
  exp((-1/2 * max(|a_p|^2 + |b_q|^2 - 2 <a_p, b_q>, 0)) / 1): the squared norms are sums of squares along the
  rows, kept as a column (for a) and as a row (for b) and stretched over the tile; the inner products are the
  product of a with the transpose of b accumulated into zero.  The step then adds the sum of the whole tile to a
  running cell, and on a diagonal tile also the sum of the tile's diagonal, taken as the whole sum of the tile
  masked by "row number = column number".  This module reads each of these pieces at an index:
  * the Gaussian value at (p, q) is the Gram entry of the two tiles;
  * a sum over both axes of a [1, a, b] view of an [a, b] array is the double sum of the array;
  * the masked array at (p, q) is the array there when p = q and the zero word elsewhere, so its double sum is
    the sum of the diagonal;
  * a one-element array read through a [1, 1, 1] view at position (0, 0, 0) is its one element.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine
import proofs.«119468_j3521873183096_1_alg».proof.Proof.LibGramNorms
import proofs.«119468_j3521873183096_1_alg».proof.Proof.LibWords
import proofs.«119468_j3521873183096_1_alg».proof.Proof.SpecTiles

noncomputable section

namespace Cert.KernelIdeal.Pay

open Idealize.ShloMosaic Idealize.ShloMosaic.ValueIdx
open scoped BigOperators

/-- The zero word is the extended real zero. -/
theorem zeroWord : Ideal.ofBits .f32 0x00000000#32 = (0 : EReal) :=
  Cert.Proof.Words.ofBits_f32_zero.trans EReal.coe_zero

/-- The Gaussian tile of two tiles a, b, in the arrangement exp((-1/2 * max(|a_p|^2 + |b_q|^2 - 2 <a_p, b_q>, 0)) / 1)
    with the norms as a stretched column and a stretched row and the inner products as a matrix product into zero,
    holds at (p, q) the Gram entry of the two tiles. -/
theorem gauss_apply (D : DotDims ⟨2, ![512, 64]⟩ ⟨2, ![64, 512]⟩ ⟨2, ![512, 512]⟩)
    (hD : D = DotDims.plain 512 64 512) (prec : Option ContractPrecision)
    (a b : FVec Ideal ⟨2, ![512, 64]⟩ .f32)
    (hr : (⟨2, ![512, 64]⟩ : Shape).Reduces [1] ⟨1, ![512]⟩) (hφ : FKind.Formats .f32)
    (hacc : (0x00000000#32 : BitVec 32) = FKind.add.neutral .f32 hφ)
    (hc : (⟨1, ![512]⟩ : Shape).ShapeCasts ⟨2, ![512, 1]⟩)
    (ht : (⟨2, ![512, 64]⟩ : Shape).Transposes [1, 0] ⟨2, ![64, 512]⟩)
    (ht' : (⟨2, ![512, 1]⟩ : Shape).Transposes [1, 0] ⟨2, ![1, 512]⟩)
    (hb : (⟨2, ![512, 1]⟩ : Shape).Broadcasts ⟨2, ![512, 512]⟩)
    (hb' : (⟨2, ![1, 512]⟩ : Shape).Broadcasts ⟨2, ![512, 512]⟩) (p q : Fin 512) :
    exp (divf
        (mulf (broadcast ⟨2, ![512, 512]⟩ (Scalar.ofBits (F := Ideal) .f32 0xBF000000#32))
          (maximumf
            (subf
              (addf
                (broadcastTo ⟨2, ![512, 512]⟩
                  (shapeCast ⟨2, ![512, 1]⟩ (multiReduction .add [1] ⟨1, ![512]⟩ (mulf a a) 0x00000000#32 hr hφ hacc) hc) hb)
                (broadcastTo ⟨2, ![512, 512]⟩
                  (transpose ⟨2, ![1, 512]⟩ [1, 0]
                    (shapeCast ⟨2, ![512, 1]⟩ (multiReduction .add [1] ⟨1, ![512]⟩ (mulf b b) 0x00000000#32 hr hφ hacc) hc) ht') hb'))
              (mulf (broadcast ⟨2, ![512, 512]⟩ (Scalar.ofBits (F := Ideal) .f32 0x40000000#32))
                (matmul D prec a (transpose ⟨2, ![64, 512]⟩ [1, 0] b ht)
                  (constant (F := Ideal) ⟨2, ![512, 512]⟩ .f32 0x00000000#32))))
            (broadcast ⟨2, ![512, 512]⟩ (Scalar.ofBits (F := Ideal) .f32 0x00000000#32))))
        (broadcast ⟨2, ![512, 512]⟩ (Scalar.ofBits (F := Ideal) .f32 0x3F800000#32))) (ix2 p q)
      = Cert.Mmd.tGram a b p q := by
  have hA := Cert.LibGramNorms.sqnorm_column_apply (N := 512) a 0x00000000#32 hr hφ hacc hc hb p q
  have hB := Cert.LibGramNorms.sqnorm_row_apply (M := 512) b 0x00000000#32 hr hφ hacc hc ht' hb' p q
  have hM := Cert.LibGramNorms.gram_apply D hD prec a b ht p q
  unfold Cert.Mmd.tGram Cert.Mmd.tSqn Cert.Mmd.tInner
  rw [← hA, ← hB, ← hM]
  rfl

/-- A sum over both trailing axes of the [1, a, b] view of an [a, b] array, from the zero word, is the double sum of
    the array. -/
theorem tile_sum_apply {a b : ℕ} (g : FVec Ideal ⟨2, ![a, b]⟩ .f32)
    (hc : (⟨2, ![a, b]⟩ : Shape).ShapeCasts ⟨3, ![1, a, b]⟩)
    (hr : (⟨3, ![1, a, b]⟩ : Shape).Reduces [1, 2] ⟨1, ![1]⟩) (hφ : FKind.Formats .f32)
    (hacc : (0x00000000#32 : BitVec 32) = FKind.add.neutral .f32 hφ) (j : (⟨1, ![1]⟩ : Shape).Idx) :
    multiReduction .add [1, 2] ⟨1, ![1]⟩ (shapeCast ⟨3, ![1, a, b]⟩ g hc) 0x00000000#32 hr hφ hacc j
      = ∑ p : Fin a, ∑ q : Fin b, g (ix2 p q) := by
  refine (Ideal.multiReduction_add_total _ _ hr (fun c => by match c with | ⟨0, _⟩ => rfl) hφ hacc j).trans ?_
  refine (Equiv.sum_comp (Shape.reshapeEquiv hc) g).trans ?_
  exact sum_idx2 g

/-- A one-element array seen through a [1, 1, 1] view and read at position (0, 0, 0) is its one element. -/
theorem cell_extract_apply (v : (⟨1, ![1]⟩ : Shape).Idx → EReal)
    (hc : (⟨1, ![1]⟩ : Shape).ShapeCasts ⟨3, ![1, 1, 1]⟩)
    (hp : ∀ c, (![0, 0, 0] : Fin 3 → ℕ) c < (⟨3, ![1, 1, 1]⟩ : Shape).size c) :
    extractAt ![0, 0, 0] (shapeCast ⟨3, ![1, 1, 1]⟩ v hc) hp = v (ix1 (0 : Fin 1)) := by
  unfold extractAt shapeCast
  refine congrArg v (funext fun c => Fin.ext ?_)
  match c with
  | ⟨0, _⟩ =>
    have h1 := ((Shape.reshapeEquiv hc (fun c => ⟨(![0, 0, 0] : Fin 3 → ℕ) c, hp c⟩)) (0 : Fin 1)).isLt
    have h2 : (⟨1, ![1]⟩ : Shape).size (0 : Fin 1) = 1 := rfl
    show ((Shape.reshapeEquiv hc (fun c => ⟨(![0, 0, 0] : Fin 3 → ℕ) c, hp c⟩)) (0 : Fin 1)).val = 0
    omega

/-- The array masked by "row number = column number" holds at (p, q) the array's value when p = q and the zero
    word elsewhere. -/
theorem diag_mask_apply (g : FVec Ideal ⟨2, ![512, 512]⟩ .f32)
    (h0 : (⟨2, ![512, 512]⟩ : Shape).Iotas .tc 32 [0]) (h1 : (⟨2, ![512, 512]⟩ : Shape).Iotas .tc 32 [1])
    (p q : Fin 512) :
    select (cmpi .eq (iota .tc ⟨2, ![512, 512]⟩ 32 [0] h0) (iota .tc ⟨2, ![512, 512]⟩ 32 [1] h1)) g
        (broadcast ⟨2, ![512, 512]⟩ (Scalar.ofBits (F := Ideal) .f32 0x00000000#32)) (ix2 p q)
      = if p = q then g (ix2 p q) else 0 := by
  rw [select_apply, broadcast_apply]
  show Scalar.select (IntOp.cmpi .eq (iota .tc ⟨2, ![512, 512]⟩ 32 [0] h0 (ix2 p q))
      (iota .tc ⟨2, ![512, 512]⟩ 32 [1] h1 (ix2 p q))) (g (ix2 p q)) (Ideal.ofBits .f32 0x00000000#32) = _
  rw [iota_single_apply, iota_single_apply, zeroWord]
  show Scalar.select (IntOp.cmpi .eq (BitVec.ofNat 32 p.val) (BitVec.ofNat 32 q.val)) (g (ix2 p q)) 0 = _
  by_cases hpq : p = q
  · subst hpq
    rw [if_pos rfl, IntOp.cmpi_eq.mpr rfl, select_one]
  · have hne : ¬ IntOp.cmpi .eq (BitVec.ofNat 32 p.val) (BitVec.ofNat 32 q.val) = 1#1 := fun h => by
      have := IntOp.cmpi_eq.mp h
      have h' := congrArg BitVec.toNat this
      simp only [BitVec.toNat_ofNat] at h'
      have hp := p.isLt; have hq := q.isLt
      rw [Nat.mod_eq_of_lt (by omega), Nat.mod_eq_of_lt (by omega)] at h'
      exact hpq (Fin.ext h')
    rw [if_neg hpq, eq_zero_of_ne_one hne, select_zero]

/-- So the whole sum of the masked array is the sum of the diagonal. -/
theorem diag_sum (g : (⟨2, ![512, 512]⟩ : Shape).Idx → EReal) :
    ∑ p : Fin 512, ∑ q : Fin 512, (if p = q then g (ix2 p q) else 0) = ∑ p : Fin 512, g (ix2 p p) :=
  Finset.sum_congr rfl fun p _ => by
    rw [Finset.sum_ite_eq Finset.univ p fun q => g (ix2 p q)]
    exact if_pos (Finset.mem_univ p)

end Cert.KernelIdeal.Pay

end
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.KPay0.lean ====
/-
  The first Gram kernel's step arithmetic on the extended reals: the tile of Gaussian values is the tile of Gram
  entries of the two loaded tiles; the running sum cell gains the sum of the tile; on a diagonal tile the running
  trace cell gains the sum of the tile's diagonal; the cells start at zero; the result row is [sum, trace].
-/
import proofs.«119468_j3521873183096_1_alg».proof.Proof.Gen.KernelIdeal.Skeleton
import proofs.«119468_j3521873183096_1_alg».proof.Proof.KPayLemmas
import proofs.«119468_j3521873183096_1_alg».proof.Proof.LibConcatPair

noncomputable section

namespace Cert.KernelIdeal.Pay

open Idealize.ShloMosaic Idealize.ShloMosaic.ValueIdx Cert.KernelIdeal Cert.KernelIdeal.Gen
open scoped BigOperators

/-- The tile of Gaussian values at (p, q) is the Gram entry of row p of the first tile and row q of the second. -/
theorem pay6_apply (a b : Vec Ideal S512x64 .f32) (p q : Fin 512) :
    k0_pay6 (F := Ideal) a b (ix2 p q) = Cert.Mmd.tGram a b p q :=
  gauss_apply dot_S512x64_S64x512_S512x512_1_0_0_1_n_n rfl (some .fp32) a b reduces_S512x64_S512 (.inl rfl) rfl
    shapeCasts_S512_S512x1 transposes_S512x64_p1_0_S64x512 transposes_S512x1_p1_0_S1x512
    broadcasts_S512x1_S512x512 broadcasts_S1x512_S512x512 p q

/-- The running sum cell after the step: the cell before plus the sum of the tile's Gram entries. -/
theorem pay7_apply (a b : Vec Ideal S512x64 .f32) (s : Vec Ideal S1x1 .f32) :
    k0_pay7 (F := Ideal) a b s (ix2 0 0) = s (ix2 0 0) + ∑ p : Fin 512, ∑ q : Fin 512, Cert.Mmd.tGram a b p q := by
  unfold k0_pay7
  rw [addf_apply, broadcast_apply]
  refine congrArg (s (ix2 0 0) + ·) ?_
  refine (cell_extract_apply _ shapeCasts_S1_S1x1x1 inpos_S1x1x1_p0_0_0).trans ?_
  refine (tile_sum_apply (k0_pay6 (F := Ideal) a b) shapeCasts_S512x512_S1x512x512 reduces_S1x512x512_S1 (.inl rfl) rfl _).trans ?_
  exact Finset.sum_congr rfl fun p _ => Finset.sum_congr rfl fun q _ => pay6_apply a b p q

/-- The running trace cell after a diagonal step: the cell before plus the sum of the tile's diagonal. -/
theorem pay2_apply (g : FVec Ideal S512x512 .f32) (s : Vec Ideal S1x1 .f32) :
    k0_pay2 (F := Ideal) g s (ix2 0 0) = s (ix2 0 0) + ∑ p : Fin 512, g (ix2 p p) := by
  unfold k0_pay2
  rw [shapeCast_self, addf_apply, broadcast_apply]
  refine congrArg (s (ix2 0 0) + ·) ?_
  refine (cell_extract_apply _ shapeCasts_S1_S1x1x1 inpos_S1x1x1_p0_0_0).trans ?_
  refine (tile_sum_apply _ shapeCasts_S512x512_S1x512x512 reduces_S1x512x512_S1 (.inl rfl) rfl _).trans ?_
  refine (Finset.sum_congr rfl fun p _ => Finset.sum_congr rfl fun q _ =>
    diag_mask_apply g iota_S512x512_d0_w32 iota_S512x512_d1_w32 p q).trans ?_
  exact diag_sum g

/-- The cast of a cell to its own shape is the cell. -/
theorem pay1_eq (v : FVec Ideal S1x1 .f32) : k0_pay1 (F := Ideal) v = v :=
  shapeCast_self v shapeCasts_S1x1_S1x1

/-- The sum cell starts at zero. -/
theorem pay4_apply : k0_pay4 (F := Ideal) (ix2 0 0) = 0 := by
  unfold k0_pay4
  rw [shapeCast_self, broadcast_apply]
  exact zeroWord

/-- The trace cell starts at zero. -/
theorem pay5_apply : k0_pay5 (F := Ideal) (ix2 0 0) = 0 := by
  unfold k0_pay5
  rw [shapeCast_self, broadcast_apply]
  exact zeroWord

/-- The result row's first entry is the first cell. -/
theorem pay3_left (u v : Vec Ideal S1x1 .f32) : k0_pay3 (F := Ideal) u v (ix2 0 0) = u (ix2 0 0) :=
  Idealize.ShloMosaic.ConcatPair.cols_left u v concatenates_S1x1_S1x1_S1x2_d1 (0 : Fin 1) (0 : Fin 2) (0 : Fin 1) rfl

/-- The result row's second entry is the second cell. -/
theorem pay3_right (u v : Vec Ideal S1x1 .f32) : k0_pay3 (F := Ideal) u v (ix2 0 1) = v (ix2 0 0) :=
  Idealize.ShloMosaic.ConcatPair.cols_right u v concatenates_S1x1_S1x1_S1x2_d1 (0 : Fin 1) (1 : Fin 2) (0 : Fin 1) rfl

end Cert.KernelIdeal.Pay

end
-- ==== Proof.LibBlockedSum.lean ====
/-
  A sum over a long axis, taken block by block.

  A sum over the first a·b naturals can be taken in a consecutive blocks of b terms: the term at position k sits in
  block k / b at place k % b, that is at b·s + d with s the block and d the place. Only commutativity and
  associativity of the addition are used, so the statement holds in any commutative monoid — in particular on the
  extended reals, where no finiteness is needed.
-/
import Mathlib.Algebra.BigOperators.Fin
import Mathlib.Logic.Equiv.Fin.Basic

open scoped BigOperators

namespace Cert.LibBlockedSum

/-- The sum over s < a of the sums over d < b of f (b·s + d) is the sum of f over the first a·b naturals. -/
theorem sum_range_blocks {β : Type*} [AddCommMonoid β] (a b : ℕ) (f : ℕ → β) :
    ∑ s ∈ Finset.range a, ∑ d : Fin b, f (b * s + d.val) = ∑ k : Fin (a * b), f k.val := by
  rw [← Equiv.sum_comp finProdFinEquiv (fun k : Fin (a * b) => f k.val), Fintype.sum_prod_type, Finset.sum_range]
  refine Finset.sum_congr rfl fun s _ => Finset.sum_congr rfl fun d _ => ?_
  refine congrArg f ?_
  show b * s.val + d.val = d.val + b * s.val
  exact Nat.add_comm _ _

end Cert.LibBlockedSum
-- ==== Proof.LibTileSums.lean ====
/-
  Sums over a long axis cut into tiles, and sums over a grid of tiles visited row by row.

  An axis of a*b positions is cut into a tiles of b positions: position k sits in tile k / b at place
  k % b, that is at b*i + p with i the tile and p the place.  A sum over the axis is the sum over the
  tiles of the sums over the places; a sum over the square of the axis is the sum over the pairs of
  tiles of the sums over the pairs of places.  A square grid of a*a points visited row by row has
  point u at row u / a and column u % a: a sum over the grid points is the double sum over rows and
  columns, and the part of it on the diagonal u / a = u % a is the single sum over the diagonal.

  Only commutativity and associativity of the addition are used: every statement holds in any
  additive commutative monoid, in particular on the extended reals with no finiteness assumed.
  Families are indexed by naturals so that the same family can be read on the axis and on the tiles.
-/
import Mathlib.Algebra.BigOperators.Fin
import Mathlib.Logic.Equiv.Fin.Basic
import proofs.«119468_j3521873183096_1_alg».proof.Proof.LibBlockedSum

open scoped BigOperators

namespace Cert.LibTileSums

variable {β : Type*} [AddCommMonoid β]

/-- A sum over an axis of a*b positions is the sum over the a tiles of the sums over the b places of
    each tile. -/
theorem sum_rows (a b : ℕ) (f : ℕ → β) :
    ∑ k : Fin (a * b), f k.val = ∑ i ∈ Finset.range a, ∑ p : Fin b, f (b * i + p.val) :=
  (Cert.LibBlockedSum.sum_range_blocks a b f).symm

/-- A sum over the square of an axis of a*b positions is the sum over the pairs (i, j) of tiles of the
    sums over the pairs (p, q) of places: each axis is cut into tiles, and the sum over the places of
    the first axis is exchanged with the sum over the tiles of the second. -/
theorem sum_tiles (a b : ℕ) (f : ℕ → ℕ → β) :
    ∑ k : Fin (a * b), ∑ l : Fin (a * b), f k.val l.val
      = ∑ i ∈ Finset.range a, ∑ j ∈ Finset.range a, ∑ p : Fin b, ∑ q : Fin b,
          f (b * i + p.val) (b * j + q.val) := by
  rw [sum_rows a b (fun k => ∑ l : Fin (a * b), f k l.val)]
  refine Finset.sum_congr rfl fun i _ => ?_
  rw [Finset.sum_comm (s := Finset.range a) (t := (Finset.univ : Finset (Fin b)))]
  refine Finset.sum_congr rfl fun p _ => ?_
  exact sum_rows a b (fun l => f (b * i + p.val) l)

/-- A sum over the a*a points of a square grid visited row by row, of a family read at the point's
    row u / a and column u % a, is the double sum over rows and columns. -/
theorem sum_grid (a : ℕ) (g : ℕ → ℕ → β) :
    ∑ u ∈ Finset.range (a * a), g (u / a) (u % a)
      = ∑ i ∈ Finset.range a, ∑ j ∈ Finset.range a, g i j := by
  rw [Finset.sum_range, sum_rows a a (fun u => g (u / a) (u % a))]
  refine Finset.sum_congr rfl fun i _ => ?_
  rw [Finset.sum_range]
  refine Finset.sum_congr rfl fun j _ => ?_
  have ha : 0 < a := Fin.pos j
  rw [Nat.mul_add_div ha, Nat.mul_add_mod, Nat.div_eq_of_lt j.isLt, Nat.mod_eq_of_lt j.isLt,
    Nat.add_zero]

/-- The part of a sum over the grid points that sits on the diagonal u / a = u % a, the other points
    contributing zero, is the single sum over the diagonal. -/
theorem sum_grid_diag (a : ℕ) (g : ℕ → ℕ → β) :
    ∑ u ∈ Finset.range (a * a), (if u / a = u % a then g (u / a) (u % a) else 0)
      = ∑ i ∈ Finset.range a, g i i := by
  rw [sum_grid a (fun i j => if i = j then g i j else 0)]
  refine Finset.sum_congr rfl fun i hi => ?_
  rw [Finset.sum_ite_eq, if_pos hi]

end Cert.LibTileSums
-- ==== Proof.GramLaws.lean ====
/-
  Laws of the Gaussian Gram entry and of its sums over tiles.

  The two programs spell the exponent of the Gram entry differently: one as (-1/2 * s) / 1, the other
  as (-s) / 2.  On the extended reals both are the one number -s/2, for every s: at s = +infinity both
  are -infinity, at s = -infinity both are +infinity, and at a real s both are the real -s/2.

  The 8192 x 8192 Gram matrix is cut into a 16 x 16 grid of 512 x 512 tiles.  A tile's Gram entry is
  the sample's Gram entry at the tile's rows, so the sum of the tile sums over the 256 grid points is
  the sum of all entries, and the sum of the diagonal tiles' diagonal sums is the trace.  Only the
  commutative-monoid laws of the addition of extended reals are used: nothing is assumed finite.
-/
import proofs.«119468_j3521873183096_1_alg».proof.Proof.SpecTiles
import proofs.«119468_j3521873183096_1_alg».proof.Proof.LibWords
import proofs.«119468_j3521873183096_1_alg».proof.Proof.LibTileSums

noncomputable section

namespace Cert.Mmd

open Idealize.ShloMosaic Idealize.ShloMosaic.ValueIdx
open scoped BigOperators

/-! ## The two spellings of the exponent -/

/-- The exponent (-1/2 * s) / 1 is the exponent (-s) / 2, for every extended real s: dividing by a
    nonzero real is multiplying by its inverse, the sign moves out of the product, and the
    multiplication of extended reals is commutative. -/
theorem exp_arrangement (s : EReal) :
    Ideal.exp (Ideal.div (wNegHalf * s) wOne) = Ideal.exp (Ideal.div (-s) wTwo) := by
  have h : Ideal.div (wNegHalf * s) wOne = Ideal.div (-s) wTwo := by
    unfold wNegHalf wOne wTwo
    rw [Cert.Proof.Words.ofBits_f32_negHalf, Cert.Proof.Words.ofBits_f32_one,
      Cert.Proof.Words.ofBits_f32_two, Ideal.div_coe one_ne_zero, Ideal.div_coe two_ne_zero,
      EReal.coe_neg, EReal.neg_mul, EReal.neg_mul, EReal.neg_mul, div_one, EReal.coe_one, mul_one,
      mul_comm]
  rw [h]

/-! ## A tile's Gram entries are the sample's -/

/-- The squared norm of row p of tile-row i is that of row 512*i + p of the sample. -/
theorem tSqn_tile (x : Mat) (i : ℕ) (p : Fin 512) : tSqn (tile x i) p = sqn x (rowN i p) := rfl

/-- The inner product of row p of tile-row i of x with row q of tile-row j of y is that of the rows
    512*i + p and 512*j + q of the samples. -/
theorem tInner_tile (x y : Mat) (i j : ℕ) (p q : Fin 512) :
    tInner (tile x i) (tile y j) p q = inner x y (rowN i p) (rowN j q) := rfl

/-- The Gram entry (p, q) of tile-rows i of x and j of y is the Gram entry of the rows 512*i + p and
    512*j + q of the samples: norms and inner product agree term by term. -/
theorem tGram_tile (x y : Mat) (i j : ℕ) (p q : Fin 512) :
    tGram (tile x i) (tile y j) p q = gram x y (rowN i p) (rowN j q) := by
  unfold tGram gram sqd
  rw [tSqn_tile, tSqn_tile, tInner_tile]

/-! ## The whole sums from the tiles' -/

/-- Row k of the sample for any natural k, reduced mod 8192: on k < 8192 it is row k, and at
    k = 512*i + p it is row p of tile-row i. -/
private def rowOf (k : ℕ) : Fin 8192 := ⟨k % 8192, Nat.mod_lt _ (by decide)⟩

private theorem rowOf_val (P : Fin 8192) : rowOf P.val = P :=
  Fin.ext (Nat.mod_eq_of_lt P.isLt)

/-- The sum over the 256 grid points of the tile sums is the sum of all Gram entries: the grid sum is
    the double sum over tile pairs, and the 8192 x 8192 entries cut into 16 x 16 tiles of 512 x 512. -/
theorem sum_tileSumAt (x y : Mat) : ∑ u ∈ Finset.range 256, tileSumAt x y u = gramSum x y := by
  have hS : gramSum x y
      = ∑ k : Fin (16 * 512), ∑ l : Fin (16 * 512), gram x y (rowOf k.val) (rowOf l.val) := by
    unfold gramSum
    refine Finset.sum_congr rfl fun P _ => Finset.sum_congr rfl fun Q _ => ?_
    rw [rowOf_val, rowOf_val]
  have hT : ∀ u, tileSumAt x y u
      = (fun i j : ℕ => ∑ p : Fin 512, ∑ q : Fin 512,
          gram x y (rowOf (512 * i + p.val)) (rowOf (512 * j + q.val))) (u / 16) (u % 16) := by
    intro u
    unfold tileSumAt
    exact Finset.sum_congr rfl fun p _ => Finset.sum_congr rfl fun q _ => tGram_tile x y _ _ p q
  calc ∑ u ∈ Finset.range 256, tileSumAt x y u
      = ∑ u ∈ Finset.range (16 * 16), (fun i j : ℕ => ∑ p : Fin 512, ∑ q : Fin 512,
          gram x y (rowOf (512 * i + p.val)) (rowOf (512 * j + q.val))) (u / 16) (u % 16) :=
        Finset.sum_congr rfl fun u _ => hT u
    _ = ∑ i ∈ Finset.range 16, ∑ j ∈ Finset.range 16, ∑ p : Fin 512, ∑ q : Fin 512,
          gram x y (rowOf (512 * i + p.val)) (rowOf (512 * j + q.val)) :=
        Cert.LibTileSums.sum_grid 16 (fun i j : ℕ => ∑ p : Fin 512, ∑ q : Fin 512,
          gram x y (rowOf (512 * i + p.val)) (rowOf (512 * j + q.val)))
    _ = ∑ k : Fin (16 * 512), ∑ l : Fin (16 * 512), gram x y (rowOf k.val) (rowOf l.val) :=
        (Cert.LibTileSums.sum_tiles 16 512 (fun k l => gram x y (rowOf k) (rowOf l))).symm
    _ = gramSum x y := hS.symm

/-- The sum over the 256 grid points of the diagonal tiles' diagonal sums is the trace: only the 16
    diagonal tiles contribute, and the 8192 diagonal entries cut into 16 runs of 512. -/
theorem sum_tileDiagAt (x : Mat) : ∑ u ∈ Finset.range 256, tileDiagAt x u = gramTrace x := by
  have hS : gramTrace x = ∑ k : Fin (16 * 512), gram x x (rowOf k.val) (rowOf k.val) := by
    unfold gramTrace
    refine Finset.sum_congr rfl fun P _ => ?_
    rw [rowOf_val]
  have hT : ∀ u, tileDiagAt x u
      = if u / 16 = u % 16 then
          (fun i j : ℕ => ∑ p : Fin 512,
            gram x x (rowOf (512 * i + p.val)) (rowOf (512 * j + p.val))) (u / 16) (u % 16)
        else 0 := by
    intro u
    unfold tileDiagAt
    refine if_congr Iff.rfl ?_ rfl
    exact Finset.sum_congr rfl fun p _ => tGram_tile x x _ _ p p
  calc ∑ u ∈ Finset.range 256, tileDiagAt x u
      = ∑ u ∈ Finset.range (16 * 16), (if u / 16 = u % 16 then
          (fun i j : ℕ => ∑ p : Fin 512,
            gram x x (rowOf (512 * i + p.val)) (rowOf (512 * j + p.val))) (u / 16) (u % 16)
        else 0) :=
        Finset.sum_congr rfl fun u _ => hT u
    _ = ∑ i ∈ Finset.range 16, ∑ p : Fin 512,
          gram x x (rowOf (512 * i + p.val)) (rowOf (512 * i + p.val)) :=
        Cert.LibTileSums.sum_grid_diag 16 (fun i j : ℕ => ∑ p : Fin 512,
          gram x x (rowOf (512 * i + p.val)) (rowOf (512 * j + p.val)))
    _ = ∑ k : Fin (16 * 512), gram x x (rowOf k.val) (rowOf k.val) :=
        (Cert.LibTileSums.sum_rows 16 512 (fun k => gram x x (rowOf k) (rowOf k))).symm
    _ = gramTrace x := hS.symm

end Cert.Mmd

end
-- ==== Proof.KVal0.lean ====
/-
  The first Gram kernel along its grid, on the extended reals.  Grid point t is tile (t / 16, t % 16): the two
  blocks the step is handed are tile-rows t / 16 and t % 16 of the sample, so the step adds the tile's sum of Gram
  entries to the first cell and, on a diagonal tile, the tile's diagonal sum to the second.  By induction over the
  points the cells hold after point n the partial sums of the tile sums and of the tile diagonal sums over the points
  0 .. n; after the last point these are the sum of all Gram entries and the trace.
-/
import proofs.«119468_j3521873183096_1_alg».proof.Proof.KAcc0
import proofs.«119468_j3521873183096_1_alg».proof.Proof.KPay0
import proofs.«119468_j3521873183096_1_alg».proof.Proof.GramLaws

set_option maxRecDepth 16384

noncomputable section

namespace Cert.KernelIdeal.Val

open Cert.KernelIdeal Cert.KernelIdeal.Gen Cert.KernelIdeal.Body
open Idealize.ShloMosaic Idealize.ShloMosaic.ValueIdx Idealize.ShloMosaic.TcCoe
open Idealize.SL.Sem
open scoped BigOperators

-- the buffer contents when the region is entered
variable (V : (c : Dev nD) → (b : Ref sig .tc) → Buf (Elt Ideal) ((c : Thread nD τ).loc b))

/-- The block indices over the grid: the first window's block row is t / 16, the second's is t % 16, and both take
    whole rows. -/
theorem idx_facts0 : ∀ t : Fin cfg0.N, win0_0.index t (0 : Fin 2) = t.val / 16 ∧ win0_0.index t (1 : Fin 2) = 0
    ∧ win0_1.index t (0 : Fin 2) = t.val % 16 ∧ win0_1.index t (1 : Fin 2) = 0 :=
  (by decide +kernel : ∀ t : Fin grid0.N, _)

/-- The first window's block at point t is tile-row t / 16 of the sample. -/
theorem iblk0_0 (c : Dev nD) (t : Fin cfg0.N) :
    iblk0 (F := Ideal) V c 0 t = Cert.Mmd.tile (V c main_arg0) (t.val / 16) := by
  obtain ⟨e0, e1, e2, e3⟩ := idx_facts0 t
  have ht : t.val < 256 := lt_of_lt_of_eq t.isLt N_0
  funext y
  show V c main_arg0 (((cfg0.win 0).blk t).view.emb y) = V c main_arg0 (ix2 (Cert.Mmd.rowN (t.val / 16) (y 0)) (y 1))
  refine congrArg _ (funext fun a => Fin.ext ?_)
  match a with
  | ⟨0, _⟩ =>
    show win0_0.index t (0 : Fin 2) * 512 + 1 * (y 0).val = (512 * (t.val / 16) + (y 0).val) % 8192
    have hy : (y 0).val < 512 := (y 0).isLt
    omega
  | ⟨1, _⟩ =>
    show win0_0.index t (1 : Fin 2) * 64 + 1 * (y 1).val = (y 1).val
    omega

/-- The second window's block at point t is tile-row t % 16 of the sample. -/
theorem iblk0_1 (c : Dev nD) (t : Fin cfg0.N) :
    iblk0 (F := Ideal) V c 1 t = Cert.Mmd.tile (V c main_arg0) (t.val % 16) := by
  obtain ⟨e0, e1, e2, e3⟩ := idx_facts0 t
  funext y
  show V c main_arg0 (((cfg0.win 1).blk t).view.emb y) = V c main_arg0 (ix2 (Cert.Mmd.rowN (t.val % 16) (y 0)) (y 1))
  refine congrArg _ (funext fun a => Fin.ext ?_)
  match a with
  | ⟨0, _⟩ =>
    show win0_1.index t (0 : Fin 2) * 512 + 1 * (y 0).val = (512 * (t.val % 16) + (y 0).val) % 8192
    have hy : (y 0).val < 512 := (y 0).isLt
    omega
  | ⟨1, _⟩ =>
    show win0_1.index t (1 : Fin 2) * 64 + 1 * (y 1).val = (y 1).val
    omega

/-- One step on the first cell: the cell gains the sum of the tile visited at point t. -/
theorem sum_step0 (c : Dev nD) (t : Fin cfg0.N) (s : Vec Ideal S1x1 .f32) :
    k0_pay1 (F := Ideal) (k0_pay7 (iblk0 V c 0 t) (iblk0 V c 1 t) s) (ix2 0 0)
      = s (ix2 0 0) + Cert.Mmd.tileSumAt (V c main_arg0) (V c main_arg0) t.val := by
  rw [iblk0_0, iblk0_1, Pay.pay1_eq]
  exact Pay.pay7_apply _ _ s

/-- One step on the second cell at a diagonal tile: the cell gains the tile's diagonal sum. -/
theorem diag_step0 (c : Dev nD) (t : Fin cfg0.N) (s : Vec Ideal S1x1 .f32) (h : t.val / 16 = t.val % 16) :
    k0_pay2 (F := Ideal) (k0_pay6 (iblk0 V c 0 t) (iblk0 V c 1 t)) s (ix2 0 0)
      = s (ix2 0 0) + Cert.Mmd.tileDiagAt (V c main_arg0) t.val := by
  rw [iblk0_0, iblk0_1, Pay.pay2_apply]
  unfold Cert.Mmd.tileDiagAt
  rw [if_pos h]
  exact congrArg (s (ix2 0 0) + ·) (Finset.sum_congr rfl fun p _ => Pay.pay6_apply _ _ p p)

/-- After point n the first cell holds the sum of the tile sums of the points 0 .. n. -/
theorem acc0_fst (c : Dev nD) (n : ℕ) (hn : n < cfg0.N) :
    (acc0 (F := Ideal) V c n hn).1 (ix2 0 0)
      = ∑ u ∈ Finset.range (n + 1), Cert.Mmd.tileSumAt (V c main_arg0) (V c main_arg0) u := by
  induction n with
  | zero =>
    rw [acc0_zero]
    refine (sum_step0 V c ⟨0, hn⟩ _).trans ?_
    rw [Pay.pay4_apply, zero_add, Finset.sum_range_one]
  | succ n ih =>
    rw [acc0_succ]
    refine (sum_step0 V c ⟨n + 1, hn⟩ _).trans ?_
    rw [ih, Finset.sum_range_succ _ (n + 1)]

/-- After point n the second cell holds the sum of the tile diagonal sums of the points 0 .. n (zero off the
    diagonal). -/
theorem acc0_snd (c : Dev nD) (n : ℕ) (hn : n < cfg0.N) :
    (acc0 (F := Ideal) V c n hn).2 (ix2 0 0)
      = ∑ u ∈ Finset.range (n + 1), Cert.Mmd.tileDiagAt (V c main_arg0) u := by
  induction n with
  | zero =>
    rw [acc0_zero]
    refine (diag_step0 V c ⟨0, hn⟩ _ (show (0 : ℕ) / 16 = 0 % 16 from rfl)).trans ?_
    rw [Pay.pay5_apply, zero_add, Finset.sum_range_one]
  | succ n ih =>
    rw [acc0_succ, Finset.sum_range_succ _ (n + 1), ← ih]
    by_cases h : (n + 1) / 16 = (n + 1) % 16
    · rw [if_pos h]
      exact diag_step0 V c ⟨n + 1, hn⟩ _ h
    · rw [if_neg h]
      unfold Cert.Mmd.tileDiagAt
      rw [if_neg h, add_zero]

/-- The result row's first entry after the last point: the sum of all Gram entries. -/
theorem out0_sum (c : Dev nD) (h : 255 < cfg0.N) :
    k0_pay3 (F := Ideal) (acc0 V c 255 h).1 (acc0 V c 255 h).2 (ix2 0 0)
      = Cert.Mmd.gramSum (V c main_arg0) (V c main_arg0) := by
  rw [Pay.pay3_left, acc0_fst]
  exact Cert.Mmd.sum_tileSumAt _ _

/-- The result row's second entry after the last point: the trace. -/
theorem out0_trace (c : Dev nD) (h : 255 < cfg0.N) :
    k0_pay3 (F := Ideal) (acc0 V c 255 h).1 (acc0 V c 255 h).2 (ix2 0 1)
      = Cert.Mmd.gramTrace (V c main_arg0) := by
  rw [Pay.pay3_right, acc0_snd]
  exact Cert.Mmd.sum_tileDiagAt _

end Cert.KernelIdeal.Val

end
-- ==== Proof.KPay1.lean ====
/-
  The second Gram kernel's step arithmetic on the extended reals: the tile of Gaussian values is the tile of Gram
  entries of the two loaded tiles; the running sum cell gains the sum of the tile; on a diagonal tile the running
  trace cell gains the sum of the tile's diagonal; the cells start at zero; the result row is [sum, trace].
-/
import proofs.«119468_j3521873183096_1_alg».proof.Proof.Gen.KernelIdeal.Skeleton
import proofs.«119468_j3521873183096_1_alg».proof.Proof.KPayLemmas
import proofs.«119468_j3521873183096_1_alg».proof.Proof.LibConcatPair

noncomputable section

namespace Cert.KernelIdeal.Pay.K1

open Idealize.ShloMosaic Idealize.ShloMosaic.ValueIdx Cert.KernelIdeal Cert.KernelIdeal.Gen Cert.KernelIdeal.Pay
open scoped BigOperators

/-- The tile of Gaussian values at (p, q) is the Gram entry of row p of the first tile and row q of the second. -/
theorem pay6_apply (a b : Vec Ideal S512x64 .f32) (p q : Fin 512) :
    k1_pay6 (F := Ideal) a b (ix2 p q) = Cert.Mmd.tGram a b p q :=
  gauss_apply dot_S512x64_S64x512_S512x512_1_0_0_1_n_n rfl (some .fp32) a b reduces_S512x64_S512 (.inl rfl) rfl
    shapeCasts_S512_S512x1 transposes_S512x64_p1_0_S64x512 transposes_S512x1_p1_0_S1x512
    broadcasts_S512x1_S512x512 broadcasts_S1x512_S512x512 p q

/-- The running sum cell after the step: the cell before plus the sum of the tile's Gram entries. -/
theorem pay7_apply (a b : Vec Ideal S512x64 .f32) (s : Vec Ideal S1x1 .f32) :
    k1_pay7 (F := Ideal) a b s (ix2 0 0) = s (ix2 0 0) + ∑ p : Fin 512, ∑ q : Fin 512, Cert.Mmd.tGram a b p q := by
  unfold k1_pay7
  rw [addf_apply, broadcast_apply]
  refine congrArg (s (ix2 0 0) + ·) ?_
  refine (cell_extract_apply _ shapeCasts_S1_S1x1x1 inpos_S1x1x1_p0_0_0).trans ?_
  refine (tile_sum_apply (k1_pay6 (F := Ideal) a b) shapeCasts_S512x512_S1x512x512 reduces_S1x512x512_S1 (.inl rfl) rfl _).trans ?_
  exact Finset.sum_congr rfl fun p _ => Finset.sum_congr rfl fun q _ => pay6_apply a b p q

/-- The running trace cell after a diagonal step: the cell before plus the sum of the tile's diagonal. -/
theorem pay2_apply (g : FVec Ideal S512x512 .f32) (s : Vec Ideal S1x1 .f32) :
    k1_pay2 (F := Ideal) g s (ix2 0 0) = s (ix2 0 0) + ∑ p : Fin 512, g (ix2 p p) := by
  unfold k1_pay2
  rw [shapeCast_self, addf_apply, broadcast_apply]
  refine congrArg (s (ix2 0 0) + ·) ?_
  refine (cell_extract_apply _ shapeCasts_S1_S1x1x1 inpos_S1x1x1_p0_0_0).trans ?_
  refine (tile_sum_apply _ shapeCasts_S512x512_S1x512x512 reduces_S1x512x512_S1 (.inl rfl) rfl _).trans ?_
  refine (Finset.sum_congr rfl fun p _ => Finset.sum_congr rfl fun q _ =>
    diag_mask_apply g iota_S512x512_d0_w32 iota_S512x512_d1_w32 p q).trans ?_
  exact diag_sum g

/-- The cast of a cell to its own shape is the cell. -/
theorem pay1_eq (v : FVec Ideal S1x1 .f32) : k1_pay1 (F := Ideal) v = v :=
  shapeCast_self v shapeCasts_S1x1_S1x1

/-- The sum cell starts at zero. -/
theorem pay4_apply : k1_pay4 (F := Ideal) (ix2 0 0) = 0 := by
  unfold k1_pay4
  rw [shapeCast_self, broadcast_apply]
  exact zeroWord

/-- The trace cell starts at zero. -/
theorem pay5_apply : k1_pay5 (F := Ideal) (ix2 0 0) = 0 := by
  unfold k1_pay5
  rw [shapeCast_self, broadcast_apply]
  exact zeroWord

/-- The result row's first entry is the first cell. -/
theorem pay3_left (u v : Vec Ideal S1x1 .f32) : k1_pay3 (F := Ideal) u v (ix2 0 0) = u (ix2 0 0) :=
  Idealize.ShloMosaic.ConcatPair.cols_left u v concatenates_S1x1_S1x1_S1x2_d1 (0 : Fin 1) (0 : Fin 2) (0 : Fin 1) rfl

/-- The result row's second entry is the second cell. -/
theorem pay3_right (u v : Vec Ideal S1x1 .f32) : k1_pay3 (F := Ideal) u v (ix2 0 1) = v (ix2 0 0) :=
  Idealize.ShloMosaic.ConcatPair.cols_right u v concatenates_S1x1_S1x1_S1x2_d1 (0 : Fin 1) (1 : Fin 2) (0 : Fin 1) rfl

end Cert.KernelIdeal.Pay.K1

end
-- ==== Proof.KVal1.lean ====
/-
  The second Gram kernel along its grid, on the extended reals.  Grid point t is tile (t / 16, t % 16): the two
  blocks the step is handed are tile-rows t / 16 and t % 16 of the sample, so the step adds the tile's sum of Gram
  entries to the first cell and, on a diagonal tile, the tile's diagonal sum to the second.  By induction over the
  points the cells hold after point n the partial sums of the tile sums and of the tile diagonal sums over the points
  0 .. n; after the last point these are the sum of all Gram entries and the trace.
-/
import proofs.«119468_j3521873183096_1_alg».proof.Proof.KAcc1
import proofs.«119468_j3521873183096_1_alg».proof.Proof.KPay1
import proofs.«119468_j3521873183096_1_alg».proof.Proof.GramLaws

set_option maxRecDepth 16384

noncomputable section

namespace Cert.KernelIdeal.Val

open Cert.KernelIdeal Cert.KernelIdeal.Gen Cert.KernelIdeal.Body
open Idealize.ShloMosaic Idealize.ShloMosaic.ValueIdx Idealize.ShloMosaic.TcCoe
open Idealize.SL.Sem
open scoped BigOperators

-- the buffer contents when the region is entered
variable (V : (c : Dev nD) → (b : Ref sig .tc) → Buf (Elt Ideal) ((c : Thread nD τ).loc b))

/-- The block indices over the grid: the first window's block row is t / 16, the second's is t % 16, and both take
    whole rows. -/
theorem idx_facts1 : ∀ t : Fin cfg1.N, win1_0.index t (0 : Fin 2) = t.val / 16 ∧ win1_0.index t (1 : Fin 2) = 0
    ∧ win1_1.index t (0 : Fin 2) = t.val % 16 ∧ win1_1.index t (1 : Fin 2) = 0 :=
  (by decide +kernel : ∀ t : Fin grid1.N, _)

/-- The first window's block at point t is tile-row t / 16 of the sample. -/
theorem iblk1_0 (c : Dev nD) (t : Fin cfg1.N) :
    iblk1 (F := Ideal) V c 0 t = Cert.Mmd.tile (V c main_arg1) (t.val / 16) := by
  obtain ⟨e0, e1, e2, e3⟩ := idx_facts1 t
  have ht : t.val < 256 := lt_of_lt_of_eq t.isLt N_1
  funext y
  show V c main_arg1 (((cfg1.win 0).blk t).view.emb y) = V c main_arg1 (ix2 (Cert.Mmd.rowN (t.val / 16) (y 0)) (y 1))
  refine congrArg _ (funext fun a => Fin.ext ?_)
  match a with
  | ⟨0, _⟩ =>
    show win1_0.index t (0 : Fin 2) * 512 + 1 * (y 0).val = (512 * (t.val / 16) + (y 0).val) % 8192
    have hy : (y 0).val < 512 := (y 0).isLt
    omega
  | ⟨1, _⟩ =>
    show win1_0.index t (1 : Fin 2) * 64 + 1 * (y 1).val = (y 1).val
    omega

/-- The second window's block at point t is tile-row t % 16 of the sample. -/
theorem iblk1_1 (c : Dev nD) (t : Fin cfg1.N) :
    iblk1 (F := Ideal) V c 1 t = Cert.Mmd.tile (V c main_arg1) (t.val % 16) := by
  obtain ⟨e0, e1, e2, e3⟩ := idx_facts1 t
  funext y
  show V c main_arg1 (((cfg1.win 1).blk t).view.emb y) = V c main_arg1 (ix2 (Cert.Mmd.rowN (t.val % 16) (y 0)) (y 1))
  refine congrArg _ (funext fun a => Fin.ext ?_)
  match a with
  | ⟨0, _⟩ =>
    show win1_1.index t (0 : Fin 2) * 512 + 1 * (y 0).val = (512 * (t.val % 16) + (y 0).val) % 8192
    have hy : (y 0).val < 512 := (y 0).isLt
    omega
  | ⟨1, _⟩ =>
    show win1_1.index t (1 : Fin 2) * 64 + 1 * (y 1).val = (y 1).val
    omega

/-- One step on the first cell: the cell gains the sum of the tile visited at point t. -/
theorem sum_step1 (c : Dev nD) (t : Fin cfg1.N) (s : Vec Ideal S1x1 .f32) :
    k1_pay1 (F := Ideal) (k1_pay7 (iblk1 V c 0 t) (iblk1 V c 1 t) s) (ix2 0 0)
      = s (ix2 0 0) + Cert.Mmd.tileSumAt (V c main_arg1) (V c main_arg1) t.val := by
  rw [iblk1_0, iblk1_1, Pay.K1.pay1_eq]
  exact Pay.K1.pay7_apply _ _ s

/-- One step on the second cell at a diagonal tile: the cell gains the tile's diagonal sum. -/
theorem diag_step1 (c : Dev nD) (t : Fin cfg1.N) (s : Vec Ideal S1x1 .f32) (h : t.val / 16 = t.val % 16) :
    k1_pay2 (F := Ideal) (k1_pay6 (iblk1 V c 0 t) (iblk1 V c 1 t)) s (ix2 0 0)
      = s (ix2 0 0) + Cert.Mmd.tileDiagAt (V c main_arg1) t.val := by
  rw [iblk1_0, iblk1_1, Pay.K1.pay2_apply]
  unfold Cert.Mmd.tileDiagAt
  rw [if_pos h]
  exact congrArg (s (ix2 0 0) + ·) (Finset.sum_congr rfl fun p _ => Pay.K1.pay6_apply _ _ p p)

/-- After point n the first cell holds the sum of the tile sums of the points 0 .. n. -/
theorem acc1_fst (c : Dev nD) (n : ℕ) (hn : n < cfg1.N) :
    (acc1 (F := Ideal) V c n hn).1 (ix2 0 0)
      = ∑ u ∈ Finset.range (n + 1), Cert.Mmd.tileSumAt (V c main_arg1) (V c main_arg1) u := by
  induction n with
  | zero =>
    rw [acc1_zero]
    refine (sum_step1 V c ⟨0, hn⟩ _).trans ?_
    rw [Pay.K1.pay4_apply, zero_add, Finset.sum_range_one]
  | succ n ih =>
    rw [acc1_succ]
    refine (sum_step1 V c ⟨n + 1, hn⟩ _).trans ?_
    rw [ih, Finset.sum_range_succ _ (n + 1)]

/-- After point n the second cell holds the sum of the tile diagonal sums of the points 0 .. n (zero off the
    diagonal). -/
theorem acc1_snd (c : Dev nD) (n : ℕ) (hn : n < cfg1.N) :
    (acc1 (F := Ideal) V c n hn).2 (ix2 0 0)
      = ∑ u ∈ Finset.range (n + 1), Cert.Mmd.tileDiagAt (V c main_arg1) u := by
  induction n with
  | zero =>
    rw [acc1_zero]
    refine (diag_step1 V c ⟨0, hn⟩ _ (show (0 : ℕ) / 16 = 0 % 16 from rfl)).trans ?_
    rw [Pay.K1.pay5_apply, zero_add, Finset.sum_range_one]
  | succ n ih =>
    rw [acc1_succ, Finset.sum_range_succ _ (n + 1), ← ih]
    by_cases h : (n + 1) / 16 = (n + 1) % 16
    · rw [if_pos h]
      exact diag_step1 V c ⟨n + 1, hn⟩ _ h
    · rw [if_neg h]
      unfold Cert.Mmd.tileDiagAt
      rw [if_neg h, add_zero]

/-- The result row's first entry after the last point: the sum of all Gram entries. -/
theorem out1_sum (c : Dev nD) (h : 255 < cfg1.N) :
    k1_pay3 (F := Ideal) (acc1 V c 255 h).1 (acc1 V c 255 h).2 (ix2 0 0)
      = Cert.Mmd.gramSum (V c main_arg1) (V c main_arg1) := by
  rw [Pay.K1.pay3_left, acc1_fst]
  exact Cert.Mmd.sum_tileSumAt _ _

/-- The result row's second entry after the last point: the trace. -/
theorem out1_trace (c : Dev nD) (h : 255 < cfg1.N) :
    k1_pay3 (F := Ideal) (acc1 V c 255 h).1 (acc1 V c 255 h).2 (ix2 0 1)
      = Cert.Mmd.gramTrace (V c main_arg1) := by
  rw [Pay.K1.pay3_right, acc1_snd]
  exact Cert.Mmd.sum_tileDiagAt _

end Cert.KernelIdeal.Val

end
-- ==== Proof.KPay2.lean ====
/-
  The third Gram kernel's step arithmetic on the extended reals.  This kernel keeps no trace: the running sum cell
  gains the sum of the tile of Gaussian values, which is the sum of the Gram entries of the two loaded tiles; both
  cells start at zero; the result row is the pair of the two cells.
-/
import proofs.«119468_j3521873183096_1_alg».proof.Proof.Gen.KernelIdeal.Skeleton
import proofs.«119468_j3521873183096_1_alg».proof.Proof.KPayLemmas
import proofs.«119468_j3521873183096_1_alg».proof.Proof.LibConcatPair

noncomputable section

namespace Cert.KernelIdeal.Pay.K2

open Idealize.ShloMosaic Idealize.ShloMosaic.ValueIdx Cert.KernelIdeal Cert.KernelIdeal.Gen Cert.KernelIdeal.Pay
open scoped BigOperators

/-- The running sum cell after the step: the cell before plus the sum of the tile's Gram entries. -/
theorem pay5_apply (a b : Vec Ideal S512x64 .f32) (s : Vec Ideal S1x1 .f32) :
    k2_pay5 (F := Ideal) a b s (ix2 0 0) = s (ix2 0 0) + ∑ p : Fin 512, ∑ q : Fin 512, Cert.Mmd.tGram a b p q := by
  unfold k2_pay5
  rw [addf_apply, broadcast_apply]
  refine congrArg (s (ix2 0 0) + ·) ?_
  refine (cell_extract_apply _ shapeCasts_S1_S1x1x1 inpos_S1x1x1_p0_0_0).trans ?_
  refine (tile_sum_apply _ shapeCasts_S512x512_S1x512x512 reduces_S1x512x512_S1 (.inl rfl) rfl _).trans ?_
  exact Finset.sum_congr rfl fun p _ => Finset.sum_congr rfl fun q _ =>
    gauss_apply dot_S512x64_S64x512_S512x512_1_0_0_1_n_n rfl (some .fp32) a b reduces_S512x64_S512 (.inl rfl) rfl
      shapeCasts_S512_S512x1 transposes_S512x64_p1_0_S64x512 transposes_S512x1_p1_0_S1x512
      broadcasts_S512x1_S512x512 broadcasts_S1x512_S512x512 p q

/-- The cast of a cell to its own shape is the cell. -/
theorem pay1_eq (v : FVec Ideal S1x1 .f32) : k2_pay1 (F := Ideal) v = v :=
  shapeCast_self v shapeCasts_S1x1_S1x1

/-- The first cell starts at zero. -/
theorem pay3_apply : k2_pay3 (F := Ideal) (ix2 0 0) = 0 := by
  unfold k2_pay3
  rw [shapeCast_self, broadcast_apply]
  exact zeroWord

/-- The second cell starts at zero. -/
theorem pay4_apply : k2_pay4 (F := Ideal) (ix2 0 0) = 0 := by
  unfold k2_pay4
  rw [shapeCast_self, broadcast_apply]
  exact zeroWord

/-- The result row's first entry is the first cell. -/
theorem pay2_left (u v : Vec Ideal S1x1 .f32) : k2_pay2 (F := Ideal) u v (ix2 0 0) = u (ix2 0 0) :=
  Idealize.ShloMosaic.ConcatPair.cols_left u v concatenates_S1x1_S1x1_S1x2_d1 (0 : Fin 1) (0 : Fin 2) (0 : Fin 1) rfl

/-- The result row's second entry is the second cell. -/
theorem pay2_right (u v : Vec Ideal S1x1 .f32) : k2_pay2 (F := Ideal) u v (ix2 0 1) = v (ix2 0 0) :=
  Idealize.ShloMosaic.ConcatPair.cols_right u v concatenates_S1x1_S1x1_S1x2_d1 (0 : Fin 1) (1 : Fin 2) (0 : Fin 1) rfl

end Cert.KernelIdeal.Pay.K2

end
-- ==== Proof.KVal2.lean ====
/-
  The third Gram kernel along its grid, on the extended reals.  Grid point t is tile (t / 16, t % 16): the two
  blocks the step is handed are tile-row t / 16 of the first sample and tile-row t % 16 of the second, so the step
  adds the tile's sum of Gram entries to the running cell.  By induction over the points the cell holds after point n
  the partial sum of the tile sums over the points 0 .. n; after the last point this is the sum of all Gram entries
  of the two samples.
-/
import proofs.«119468_j3521873183096_1_alg».proof.Proof.KAcc2
import proofs.«119468_j3521873183096_1_alg».proof.Proof.KPay2
import proofs.«119468_j3521873183096_1_alg».proof.Proof.GramLaws

set_option maxRecDepth 16384

noncomputable section

namespace Cert.KernelIdeal.Val

open Cert.KernelIdeal Cert.KernelIdeal.Gen Cert.KernelIdeal.Body
open Idealize.ShloMosaic Idealize.ShloMosaic.ValueIdx Idealize.ShloMosaic.TcCoe
open Idealize.SL.Sem
open scoped BigOperators

-- the buffer contents when the region is entered
variable (V : (c : Dev nD) → (b : Ref sig .tc) → Buf (Elt Ideal) ((c : Thread nD τ).loc b))

/-- The block indices over the grid: the first window's block row is t / 16, the second's is t % 16, and both take
    whole rows. -/
theorem idx_facts2 : ∀ t : Fin cfg2.N, win2_0.index t (0 : Fin 2) = t.val / 16 ∧ win2_0.index t (1 : Fin 2) = 0
    ∧ win2_1.index t (0 : Fin 2) = t.val % 16 ∧ win2_1.index t (1 : Fin 2) = 0 :=
  (by decide +kernel : ∀ t : Fin grid2.N, _)

/-- The first window's block at point t is tile-row t / 16 of the first sample. -/
theorem iblk2_0 (c : Dev nD) (t : Fin cfg2.N) :
    iblk2 (F := Ideal) V c 0 t = Cert.Mmd.tile (V c main_arg0) (t.val / 16) := by
  obtain ⟨e0, e1, e2, e3⟩ := idx_facts2 t
  have ht : t.val < 256 := lt_of_lt_of_eq t.isLt N_2
  funext y
  show V c main_arg0 (((cfg2.win 0).blk t).view.emb y) = V c main_arg0 (ix2 (Cert.Mmd.rowN (t.val / 16) (y 0)) (y 1))
  refine congrArg _ (funext fun a => Fin.ext ?_)
  match a with
  | ⟨0, _⟩ =>
    show win2_0.index t (0 : Fin 2) * 512 + 1 * (y 0).val = (512 * (t.val / 16) + (y 0).val) % 8192
    have hy : (y 0).val < 512 := (y 0).isLt
    omega
  | ⟨1, _⟩ =>
    show win2_0.index t (1 : Fin 2) * 64 + 1 * (y 1).val = (y 1).val
    omega

/-- The second window's block at point t is tile-row t % 16 of the second sample. -/
theorem iblk2_1 (c : Dev nD) (t : Fin cfg2.N) :
    iblk2 (F := Ideal) V c 1 t = Cert.Mmd.tile (V c main_arg1) (t.val % 16) := by
  obtain ⟨e0, e1, e2, e3⟩ := idx_facts2 t
  funext y
  show V c main_arg1 (((cfg2.win 1).blk t).view.emb y) = V c main_arg1 (ix2 (Cert.Mmd.rowN (t.val % 16) (y 0)) (y 1))
  refine congrArg _ (funext fun a => Fin.ext ?_)
  match a with
  | ⟨0, _⟩ =>
    show win2_1.index t (0 : Fin 2) * 512 + 1 * (y 0).val = (512 * (t.val % 16) + (y 0).val) % 8192
    have hy : (y 0).val < 512 := (y 0).isLt
    omega
  | ⟨1, _⟩ =>
    show win2_1.index t (1 : Fin 2) * 64 + 1 * (y 1).val = (y 1).val
    omega

/-- One step: the cell gains the sum of the tile visited at point t. -/
theorem sum_step2 (c : Dev nD) (t : Fin cfg2.N) (s : Vec Ideal S1x1 .f32) :
    k2_pay1 (F := Ideal) (k2_pay5 (iblk2 V c 0 t) (iblk2 V c 1 t) s) (ix2 0 0)
      = s (ix2 0 0) + Cert.Mmd.tileSumAt (V c main_arg0) (V c main_arg1) t.val := by
  rw [iblk2_0, iblk2_1, Pay.K2.pay1_eq]
  exact Pay.K2.pay5_apply _ _ s

/-- After point n the cell holds the sum of the tile sums of the points 0 .. n. -/
theorem acc2_val (c : Dev nD) (n : ℕ) (hn : n < cfg2.N) :
    acc2 (F := Ideal) V c n hn (ix2 0 0)
      = ∑ u ∈ Finset.range (n + 1), Cert.Mmd.tileSumAt (V c main_arg0) (V c main_arg1) u := by
  induction n with
  | zero =>
    rw [acc2_zero]
    refine (sum_step2 V c ⟨0, hn⟩ _).trans ?_
    rw [Pay.K2.pay3_apply, zero_add, Finset.sum_range_one]
  | succ n ih =>
    rw [acc2_succ]
    refine (sum_step2 V c ⟨n + 1, hn⟩ _).trans ?_
    rw [ih, Finset.sum_range_succ _ (n + 1)]

/-- The result row's first entry after the last point: the sum of all Gram entries of the two samples. -/
theorem out2_sum (c : Dev nD) (h : 255 < cfg2.N) (s1 : Vec Ideal S1x1 .f32) :
    k2_pay2 (F := Ideal) (acc2 V c 255 h) s1 (ix2 0 0) = Cert.Mmd.gramSum (V c main_arg0) (V c main_arg1) := by
  rw [Pay.K2.pay2_left, acc2_val]
  exact Cert.Mmd.sum_tileSumAt _ _

end Cert.KernelIdeal.Val

end
-- ==== Proof.KArr0.lean ====
/-
  Gram kernel 0 (the first sample with itself): what its three arrays hold once the region has run.

  The two input arrays are never written, so they hold what they held.  The output array is one block, the whole
  [1, 2] array, at block index (0, 0) whatever the grid point, and it is written back at the last grid point only; that
  one write-back covers every index, so the array ends holding what the last point left in the block: the
  accumulators after the last point, laid side by side.
-/
import proofs.«119468_j3521873183096_1_alg».proof.Proof.KReg0
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- The output window's block, at every grid point: block index (0, 0), of extents 1 and 2, nothing clipped. -/
theorem outBlock0 : ∀ t : Fin cfg0.N, win0_2.index t (0 : Fin 2) = 0 ∧ win0_2.index t (1 : Fin 2) = 0
    ∧ win0_2.size (0 : Fin 2) = 1 ∧ win0_2.size (1 : Fin 2) = 2
    ∧ win0_2.xsize (grid0.coords t) (0 : Fin 2) = 1 ∧ win0_2.xsize (grid0.coords t) (1 : Fin 2) = 2 :=
  (by decide +kernel : ∀ t : Fin grid0.N, _)

/-- The one write-back, at the last point, writes the accumulators after that point: block (0, 0) of the [1, 2] array
    read through zero offsets is the array. -/
theorem flushed0_2 (c : Dev nD) (h : 255 < cfg0.N) (t : Fin cfg0.N) (hf : (cfg0.win 2).flush t = true) :
    (dat0 V c).flushed 2 t = ((cfg0.win 2).blk t).view.read (Elt F) (k0_pay3 (acc0 V c 255 h).1 (acc0 V c 255 h).2) := by
  have hN : cfg0.N = 256 := N_0
  have h1 : t.val = 255 := by have := (flush0_2 t).mp hf; have := t.isLt; omega
  obtain rfl : t = ⟨255, h⟩ := Fin.ext h1
  show (cfg0.win 2).cut (grid0.coords ⟨255, h⟩) ((dat0 V c).after 2 ⟨255, h⟩) = _
  rw [after0_2]
  obtain ⟨e0, e1, -, -, -, -⟩ := outBlock0 ⟨255, h⟩
  have hz' : (fun a => win0_2.index ⟨255, h⟩ a * main_v0.ty.shape.size a) = fun _ => 0 :=
    funext fun a => by
      match a with
      | ⟨0, _⟩ => show win0_2.index ⟨255, h⟩ (0 : Fin 2) * _ = 0; rw [e0, Nat.zero_mul]
      | ⟨1, _⟩ => show win0_2.index ⟨255, h⟩ (1 : Fin 2) * _ = 0; rw [e1, Nat.zero_mul]
  exact (Memref.read_access_unit_zero (Elt F) main_v0 hz' (fun a => by rw [congrFun hz' a]; simp) _).symm

/-- The output array after the region: the accumulators after the last grid point, side by side. -/
theorem arrAt0_2 (c : Dev nD) (h : 255 < cfg0.N) :
    (dat0 V c).arrAt 2 cfg0.N = k0_pay3 (acc0 V c 255 h).1 (acc0 V c 255 h).2 :=
  (dat0 V c).arrAt_eq_of_cover 2 _ (flushed0_2 V c h) fun i =>
    ⟨⟨255, h⟩, (flush0_2 ⟨255, h⟩).mpr rfl, by
      show i ∈ ((View.whole main_v0).slice (win0_2.rect ⟨255, h⟩)).set
      rw [View.set_slice_whole, Rect.mem_set_unit]
      intro a
      have h0 : (i 0 : Nat) < 1 := (i 0).isLt
      have h1 : (i 1 : Nat) < 2 := (i 1).isLt
      obtain ⟨e0, e1, s0, s1, x0, x1⟩ := outBlock0 ⟨255, h⟩
      match a with
      | ⟨0, _⟩ =>
        show win0_2.index ⟨255, h⟩ (0 : Fin 2) * win0_2.size (0 : Fin 2) ≤ (i 0 : Nat)
          ∧ (i 0 : Nat) < win0_2.index ⟨255, h⟩ (0 : Fin 2) * win0_2.size (0 : Fin 2) + win0_2.xsize (grid0.coords ⟨255, h⟩) (0 : Fin 2)
        rw [e0, x0]; omega
      | ⟨1, _⟩ =>
        show win0_2.index ⟨255, h⟩ (1 : Fin 2) * win0_2.size (1 : Fin 2) ≤ (i 1 : Nat)
          ∧ (i 1 : Nat) < win0_2.index ⟨255, h⟩ (1 : Fin 2) * win0_2.size (1 : Fin 2) + win0_2.xsize (grid0.coords ⟨255, h⟩) (1 : Fin 2)
        rw [e1, x1]; omega⟩

/-- An input array is never written: after the region it holds what the region found. -/
theorem arrAt0_0 (c : Dev nD) : (dat0 V c).arrAt 0 cfg0.N = V c main_arg0 :=
  ((dat0 V c).arrAt_in 0 rfl _).trans (A_eq0 V c 0)

theorem arrAt0_1 (c : Dev nD) : (dat0 V c).arrAt 1 cfg0.N = V c main_arg0 :=
  ((dat0 V c).arrAt_in 1 rfl _).trans (A_eq0 V c 1)

end

end Cert.KernelIdeal.Body

end
-- ==== Proof.KArr1.lean ====
/-
  Gram kernel 1 (the second sample with itself): what its three arrays hold once the region has run.

  The two input arrays are never written, so they hold what they held.  The output array is one block, the whole
  [1, 2] array, at block index (0, 0) whatever the grid point, and it is written back at the last grid point only; that
  one write-back covers every index, so the array ends holding what the last point left in the block: the
  accumulators after the last point, laid side by side.
-/
import proofs.«119468_j3521873183096_1_alg».proof.Proof.KReg1
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- The output window's block, at every grid point: block index (0, 0), of extents 1 and 2, nothing clipped. -/
theorem outBlock1 : ∀ t : Fin cfg1.N, win1_2.index t (0 : Fin 2) = 0 ∧ win1_2.index t (1 : Fin 2) = 0
    ∧ win1_2.size (0 : Fin 2) = 1 ∧ win1_2.size (1 : Fin 2) = 2
    ∧ win1_2.xsize (grid1.coords t) (0 : Fin 2) = 1 ∧ win1_2.xsize (grid1.coords t) (1 : Fin 2) = 2 :=
  (by decide +kernel : ∀ t : Fin grid1.N, _)

/-- The one write-back, at the last point, writes the accumulators after that point: block (0, 0) of the [1, 2] array
    read through zero offsets is the array. -/
theorem flushed1_2 (c : Dev nD) (h : 255 < cfg1.N) (t : Fin cfg1.N) (hf : (cfg1.win 2).flush t = true) :
    (dat1 V c).flushed 2 t = ((cfg1.win 2).blk t).view.read (Elt F) (k1_pay3 (acc1 V c 255 h).1 (acc1 V c 255 h).2) := by
  have hN : cfg1.N = 256 := N_1
  have h1 : t.val = 255 := by have := (flush1_2 t).mp hf; have := t.isLt; omega
  obtain rfl : t = ⟨255, h⟩ := Fin.ext h1
  show (cfg1.win 2).cut (grid1.coords ⟨255, h⟩) ((dat1 V c).after 2 ⟨255, h⟩) = _
  rw [after1_2]
  obtain ⟨e0, e1, -, -, -, -⟩ := outBlock1 ⟨255, h⟩
  have hz' : (fun a => win1_2.index ⟨255, h⟩ a * main_v5.ty.shape.size a) = fun _ => 0 :=
    funext fun a => by
      match a with
      | ⟨0, _⟩ => show win1_2.index ⟨255, h⟩ (0 : Fin 2) * _ = 0; rw [e0, Nat.zero_mul]
      | ⟨1, _⟩ => show win1_2.index ⟨255, h⟩ (1 : Fin 2) * _ = 0; rw [e1, Nat.zero_mul]
  exact (Memref.read_access_unit_zero (Elt F) main_v5 hz' (fun a => by rw [congrFun hz' a]; simp) _).symm

/-- The output array after the region: the accumulators after the last grid point, side by side. -/
theorem arrAt1_2 (c : Dev nD) (h : 255 < cfg1.N) :
    (dat1 V c).arrAt 2 cfg1.N = k1_pay3 (acc1 V c 255 h).1 (acc1 V c 255 h).2 :=
  (dat1 V c).arrAt_eq_of_cover 2 _ (flushed1_2 V c h) fun i =>
    ⟨⟨255, h⟩, (flush1_2 ⟨255, h⟩).mpr rfl, by
      show i ∈ ((View.whole main_v5).slice (win1_2.rect ⟨255, h⟩)).set
      rw [View.set_slice_whole, Rect.mem_set_unit]
      intro a
      have h0 : (i 0 : Nat) < 1 := (i 0).isLt
      have h1 : (i 1 : Nat) < 2 := (i 1).isLt
      obtain ⟨e0, e1, s0, s1, x0, x1⟩ := outBlock1 ⟨255, h⟩
      match a with
      | ⟨0, _⟩ =>
        show win1_2.index ⟨255, h⟩ (0 : Fin 2) * win1_2.size (0 : Fin 2) ≤ (i 0 : Nat)
          ∧ (i 0 : Nat) < win1_2.index ⟨255, h⟩ (0 : Fin 2) * win1_2.size (0 : Fin 2) + win1_2.xsize (grid1.coords ⟨255, h⟩) (0 : Fin 2)
        rw [e0, x0]; omega
      | ⟨1, _⟩ =>
        show win1_2.index ⟨255, h⟩ (1 : Fin 2) * win1_2.size (1 : Fin 2) ≤ (i 1 : Nat)
          ∧ (i 1 : Nat) < win1_2.index ⟨255, h⟩ (1 : Fin 2) * win1_2.size (1 : Fin 2) + win1_2.xsize (grid1.coords ⟨255, h⟩) (1 : Fin 2)
        rw [e1, x1]; omega⟩

/-- An input array is never written: after the region it holds what the region found. -/
theorem arrAt1_0 (c : Dev nD) : (dat1 V c).arrAt 0 cfg1.N = V c main_arg1 :=
  ((dat1 V c).arrAt_in 0 rfl _).trans (A_eq1 V c 0)

theorem arrAt1_1 (c : Dev nD) : (dat1 V c).arrAt 1 cfg1.N = V c main_arg1 :=
  ((dat1 V c).arrAt_in 1 rfl _).trans (A_eq1 V c 1)

end

end Cert.KernelIdeal.Body

end
-- ==== Proof.KArr2.lean ====
/-
  Gram kernel 2 (the first sample with the second): what its three arrays hold once the region has run.

  The two input arrays are never written, so they hold what they held.  The output array is one block, the whole
  [1, 2] array, at block index (0, 0) whatever the grid point, and it is written back at the last grid point only; that
  one write-back covers every index, so the array ends holding what the last point left in the block: the
  sum accumulator after the last point with the body's constant cell beside it.
-/
import proofs.«119468_j3521873183096_1_alg».proof.Proof.KReg2
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- The output window's block, at every grid point: block index (0, 0), of extents 1 and 2, nothing clipped. -/
theorem outBlock2 : ∀ t : Fin cfg2.N, win2_2.index t (0 : Fin 2) = 0 ∧ win2_2.index t (1 : Fin 2) = 0
    ∧ win2_2.size (0 : Fin 2) = 1 ∧ win2_2.size (1 : Fin 2) = 2
    ∧ win2_2.xsize (grid2.coords t) (0 : Fin 2) = 1 ∧ win2_2.xsize (grid2.coords t) (1 : Fin 2) = 2 :=
  (by decide +kernel : ∀ t : Fin grid2.N, _)

/-- The one write-back, at the last point, writes the sum accumulator after that point beside the constant cell: block (0, 0) of the [1, 2] array
    read through zero offsets is the array. -/
theorem flushed2_2 (c : Dev nD) (h : 255 < cfg2.N) (t : Fin cfg2.N) (hf : (cfg2.win 2).flush t = true) :
    (dat2 V c).flushed 2 t = ((cfg2.win 2).blk t).view.read (Elt F) (k2_pay2 (acc2 V c 255 h) k2_pay4) := by
  have hN : cfg2.N = 256 := N_2
  have h1 : t.val = 255 := by have := (flush2_2 t).mp hf; have := t.isLt; omega
  obtain rfl : t = ⟨255, h⟩ := Fin.ext h1
  show (cfg2.win 2).cut (grid2.coords ⟨255, h⟩) ((dat2 V c).after 2 ⟨255, h⟩) = _
  rw [after2_2]
  obtain ⟨e0, e1, -, -, -, -⟩ := outBlock2 ⟨255, h⟩
  have hz' : (fun a => win2_2.index ⟨255, h⟩ a * main_v10.ty.shape.size a) = fun _ => 0 :=
    funext fun a => by
      match a with
      | ⟨0, _⟩ => show win2_2.index ⟨255, h⟩ (0 : Fin 2) * _ = 0; rw [e0, Nat.zero_mul]
      | ⟨1, _⟩ => show win2_2.index ⟨255, h⟩ (1 : Fin 2) * _ = 0; rw [e1, Nat.zero_mul]
  exact (Memref.read_access_unit_zero (Elt F) main_v10 hz' (fun a => by rw [congrFun hz' a]; simp) _).symm

/-- The output array after the region: the sum accumulator after the last grid point beside the constant cell. -/
theorem arrAt2_2 (c : Dev nD) (h : 255 < cfg2.N) :
    (dat2 V c).arrAt 2 cfg2.N = k2_pay2 (acc2 V c 255 h) k2_pay4 :=
  (dat2 V c).arrAt_eq_of_cover 2 _ (flushed2_2 V c h) fun i =>
    ⟨⟨255, h⟩, (flush2_2 ⟨255, h⟩).mpr rfl, by
      show i ∈ ((View.whole main_v10).slice (win2_2.rect ⟨255, h⟩)).set
      rw [View.set_slice_whole, Rect.mem_set_unit]
      intro a
      have h0 : (i 0 : Nat) < 1 := (i 0).isLt
      have h1 : (i 1 : Nat) < 2 := (i 1).isLt
      obtain ⟨e0, e1, s0, s1, x0, x1⟩ := outBlock2 ⟨255, h⟩
      match a with
      | ⟨0, _⟩ =>
        show win2_2.index ⟨255, h⟩ (0 : Fin 2) * win2_2.size (0 : Fin 2) ≤ (i 0 : Nat)
          ∧ (i 0 : Nat) < win2_2.index ⟨255, h⟩ (0 : Fin 2) * win2_2.size (0 : Fin 2) + win2_2.xsize (grid2.coords ⟨255, h⟩) (0 : Fin 2)
        rw [e0, x0]; omega
      | ⟨1, _⟩ =>
        show win2_2.index ⟨255, h⟩ (1 : Fin 2) * win2_2.size (1 : Fin 2) ≤ (i 1 : Nat)
          ∧ (i 1 : Nat) < win2_2.index ⟨255, h⟩ (1 : Fin 2) * win2_2.size (1 : Fin 2) + win2_2.xsize (grid2.coords ⟨255, h⟩) (1 : Fin 2)
        rw [e1, x1]; omega⟩

/-- An input array is never written: after the region it holds what the region found. -/
theorem arrAt2_0 (c : Dev nD) : (dat2 V c).arrAt 0 cfg2.N = V c main_arg0 :=
  ((dat2 V c).arrAt_in 0 rfl _).trans (A_eq2 V c 0)

theorem arrAt2_1 (c : Dev nD) : (dat2 V c).arrAt 1 cfg2.N = V c main_arg1 :=
  ((dat2 V c).arrAt_in 1 rfl _).trans (A_eq2 V c 1)

end

end Cert.KernelIdeal.Body

end
-- ==== Proof.KAlg.lean ====
/-
  The program's result at the ideal values.  The buffer contents after the three tiled regions and the host
  arithmetic between and after them are a fold from the launch contents; each region leaves in its result pair what
  its last grid point wrote back, which is [sum of all Gram entries, trace] of the samples it was handed (the third:
  the sum of all Gram entries of the two samples); the closing arithmetic combines the five numbers.  So the result
  buffer ends holding the halved squared discrepancy of the two launched samples.
-/
import proofs.«119468_j3521873183096_1_alg».proof.Proof.KFold
import proofs.«119468_j3521873183096_1_alg».proof.Proof.KTail
import proofs.«119468_j3521873183096_1_alg».proof.Proof.KVal0
import proofs.«119468_j3521873183096_1_alg».proof.Proof.KVal1
import proofs.«119468_j3521873183096_1_alg».proof.Proof.KVal2
import proofs.«119468_j3521873183096_1_alg».proof.Proof.KArr0
import proofs.«119468_j3521873183096_1_alg».proof.Proof.KArr1
import proofs.«119468_j3521873183096_1_alg».proof.Proof.KArr2

set_option maxRecDepth 16384

noncomputable section

namespace Cert.KernelIdeal.Alg

open Cert.KernelIdeal Cert.KernelIdeal.Gen Cert.KernelIdeal.Body
open Idealize.ShloMosaic Idealize.ShloMosaic.ValueIdx Idealize.ShloMosaic.TcCoe
open Idealize.SL.Sem

-- the launch contents
variable (m : (ℓ : Loc nD τ sig) → Buf (Elt Ideal) ℓ)

/-- What each region leaves in every buffer, as the fold from the launch contents gives it. -/
def outs : Gen.Outs (F := Ideal) := fun J r c =>
  match J with
  | 1 => Vr1 m c r
  | 3 => Vr3 m c r
  | 5 => Vr5 m c r
  | _ => Vr0 m c r

/-! The generated valuations at these region results are the fold's stages. -/

theorem V1_eq (c : Dev nD) : Gen.V1 m (outs m) c = W1 m c := by
  show Function.update (W0 m c) main_v0 (Vr1 m c main_v0) = W1 m c
  rw [hout0_arr]
  rfl

theorem V2_eq (c : Dev nD) : Gen.V2 m (outs m) c = W2 m c :=
  congrArg (StableHlo.after hostOps1) (V1_eq m c)

theorem V3_eq (c : Dev nD) : Gen.V3 m (outs m) c = W3 m c := by
  show Function.update (Gen.V2 m (outs m) c) main_v5 (Vr3 m c main_v5) = W3 m c
  rw [V2_eq, hout1_arr]
  rfl

theorem V4_eq (c : Dev nD) : Gen.V4 m (outs m) c = W4 m c :=
  congrArg (StableHlo.after hostOps2) (V3_eq m c)

theorem V5_eq (c : Dev nD) : Gen.V5 m (outs m) c = W5 m c := by
  show Function.update (Gen.V4 m (outs m) c) main_v10 (Vr5 m c main_v10) = W5 m c
  rw [V4_eq, hout2_arr]
  rfl

theorem V6_eq (c : Dev nD) : Gen.V6 m (outs m) c = W6 m c :=
  congrArg (StableHlo.after hostOps3) (V5_eq m c)

theorem h255_0 : 255 < cfg0.N := lt_of_lt_of_eq (by decide : 255 < 256) N_0.symm
theorem h255_1 : 255 < cfg1.N := lt_of_lt_of_eq (by decide : 255 < 256) N_1.symm
theorem h255_2 : 255 < cfg2.N := lt_of_lt_of_eq (by decide : 255 < 256) N_2.symm

/-- The first region's pair: the sum of all Gram entries of the first sample with itself, -/
theorem r0_sum (c : Dev nD) :
    outs m 1 main_v0 c (ix2 0 0)
      = Cert.Mmd.gramSum (m ((c.tc : Thread nD τ).loc main_arg0)) (m ((c.tc : Thread nD τ).loc main_arg0)) := by
  show Vr1 m c main_v0 (ix2 0 0) = _
  rw [hout0_arr, arrAt0_2 (Vr0 m) c h255_0]
  exact Val.out0_sum (Vr0 m) c h255_0

/-- and its trace. -/
theorem r0_trace (c : Dev nD) :
    outs m 1 main_v0 c (ix2 0 1) = Cert.Mmd.gramTrace (m ((c.tc : Thread nD τ).loc main_arg0)) := by
  show Vr1 m c main_v0 (ix2 0 1) = _
  rw [hout0_arr, arrAt0_2 (Vr0 m) c h255_0]
  exact Val.out0_trace (Vr0 m) c h255_0

/-- The second sample as the second region finds it is the launched one. -/
theorem arg1_at_2 (c : Dev nD) : Vr2 m c main_arg1 = m ((c.tc : Thread nD τ).loc main_arg1) :=
  Vr2_of_arg m c main_arg1 (by decide) (by decide)

/-- The second region's pair: the sum of all Gram entries of the second sample with itself, -/
theorem r1_sum (c : Dev nD) :
    outs m 3 main_v5 c (ix2 0 0)
      = Cert.Mmd.gramSum (m ((c.tc : Thread nD τ).loc main_arg1)) (m ((c.tc : Thread nD τ).loc main_arg1)) := by
  show Vr3 m c main_v5 (ix2 0 0) = _
  rw [hout1_arr, arrAt1_2 (Vr2 m) c h255_1, ← arg1_at_2 m c]
  exact Val.out1_sum (Vr2 m) c h255_1

/-- and its trace. -/
theorem r1_trace (c : Dev nD) :
    outs m 3 main_v5 c (ix2 0 1) = Cert.Mmd.gramTrace (m ((c.tc : Thread nD τ).loc main_arg1)) := by
  show Vr3 m c main_v5 (ix2 0 1) = _
  rw [hout1_arr, arrAt1_2 (Vr2 m) c h255_1, ← arg1_at_2 m c]
  exact Val.out1_trace (Vr2 m) c h255_1

/-- The two samples as the third region finds them are the launched ones. -/
theorem arg0_at_4 (c : Dev nD) : Vr4 m c main_arg0 = m ((c.tc : Thread nD τ).loc main_arg0) :=
  Vr4_of_arg m c main_arg0 (by decide) (by decide) (by decide) (by decide)

theorem arg1_at_4 (c : Dev nD) : Vr4 m c main_arg1 = m ((c.tc : Thread nD τ).loc main_arg1) :=
  Vr4_of_arg m c main_arg1 (by decide) (by decide) (by decide) (by decide)

/-- The third region's pair holds first the sum of all Gram entries of the two samples. -/
theorem r2_sum (c : Dev nD) :
    outs m 5 main_v10 c (ix2 0 0)
      = Cert.Mmd.gramSum (m ((c.tc : Thread nD τ).loc main_arg0)) (m ((c.tc : Thread nD τ).loc main_arg1)) := by
  show Vr5 m c main_v10 (ix2 0 0) = _
  rw [hout2_arr, arrAt2_2 (Vr4 m) c h255_2, ← arg0_at_4 m c, ← arg1_at_4 m c]
  exact Val.out2_sum (Vr4 m) c h255_2 _

/-- The result buffer after the whole program: the halved squared discrepancy of the two launched samples. -/
theorem W6_main_v23 (m : (ℓ : Loc nD τ sig) → Buf (Elt Ideal) ℓ) (c : Dev nD) :
    Cert.KernelIdeal.Body.W6 (F := Ideal) m c main_v23
      = fun _ => Cert.Mmd.result (m ((c.tc : Thread nD τ).loc main_arg0)) (m ((c.tc : Thread nD τ).loc main_arg1)) := by
  have h := Cert.KernelIdeal.Tail.V6_main_v23 m (outs m) c
  rw [V6_eq, r0_sum m c, r0_trace m c, r1_sum m c, r1_trace m c, r2_sum m c] at h
  exact h

end Cert.KernelIdeal.Alg

end
-- ==== Proof.RefRunOps0.lean ====
/-
  The first sixty operations of the reference, in order: the Gram array of (X, Y), the Gram array of (X, X), and the
  two stretched squared-norm arrays of Y.
-/
import proofs.«119468_j3521873183096_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first sixty operations of the reference, in order: the Gram array of (X, Y), the Gram array of (X, X), and the -/
abbrev ops0 : List (HloOp τ sig (Elt F)) :=
  [
    binary main_arg0 main_arg0 main_v0 (mulf : (⟨S8192x64, .f32⟩ : BufTy).Contents (Elt F) → (⟨S8192x64, .f32⟩ : BufTy).Contents (Elt F) → (⟨S8192x64, .f32⟩ : BufTy).Contents (Elt F)),
    nullary main_cst (constant S_ .f32 0x00000000#32),
    binary main_v0 main_cst main_v1 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    binary main_arg1 main_arg1 main_v3 (mulf : (⟨S8192x64, .f32⟩ : BufTy).Contents (Elt F) → (⟨S8192x64, .f32⟩ : BufTy).Contents (Elt F) → (⟨S8192x64, .f32⟩ : BufTy).Contents (Elt F)),
    nullary main_cst_0 (constant S_ .f32 0x00000000#32),
    binary main_v3 main_cst_0 main_v4 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v4 main_v5 (broadcastInDim S1x8192 ![1] bcast_S8192_S1x8192_1 : (⟨S8192, .f32⟩ : BufTy).Contents (Elt F) → (⟨S1x8192, .f32⟩ : BufTy).Contents (Elt F)),
    unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    unary main_arg1 main_v9 ((transpose S64x8192 [1, 0] · transposes_S8192x64_S64x8192_1_0) : (⟨S8192x64, .f32⟩ : BufTy).Contents (Elt F) → (⟨S64x8192, .f32⟩ : BufTy).Contents (Elt F)),
    binary main_arg0 main_v9 main_v10 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    nullary main_cst_1 (constant S_ .f32 0x40000000#32),
    unary main_cst_1 main_v11 (broadcastInDim S8192x8192 ![] bcast_S_S8192x8192 : (⟨S_, .f32⟩ : BufTy).Contents (Elt F) → (⟨S8192x8192, .f32⟩ : BufTy).Contents (Elt F)),
    binary main_v11 main_v10 main_v12 (mulf : (⟨S8192x8192, .f32⟩ : BufTy).Contents (Elt F) → (⟨S8192x8192, .f32⟩ : BufTy).Contents (Elt F) → (⟨S8192x8192, .f32⟩ : BufTy).Contents (Elt F)),
    binary main_v8 main_v12 main_v13 (subf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    unary main_cst_2 main_v14 (broadcastInDim S8192x8192 ![] bcast_S_S8192x8192 : (⟨S_, .f32⟩ : BufTy).Contents (Elt F) → (⟨S8192x8192, .f32⟩ : BufTy).Contents (Elt F)),
    binary main_v13 main_v14 main_v15 (maximumf : (⟨S8192x8192, .f32⟩ : BufTy).Contents (Elt F) → (⟨S8192x8192, .f32⟩ : BufTy).Contents (Elt F) → (⟨S8192x8192, .f32⟩ : BufTy).Contents (Elt F)),
    unary main_v15 main_v16 (Host.negf : (⟨S8192x8192, .f32⟩ : BufTy).Contents (Elt F) → (⟨S8192x8192, .f32⟩ : BufTy).Contents (Elt F)),
    nullary main_cst_3 (constant S_ .f32 0x40000000#32),
    unary main_cst_3 main_v17 (broadcastInDim S8192x8192 ![] bcast_S_S8192x8192 : (⟨S_, .f32⟩ : BufTy).Contents (Elt F) → (⟨S8192x8192, .f32⟩ : BufTy).Contents (Elt F)),
    binary main_v16 main_v17 main_v18 (Host.divf : (⟨S8192x8192, .f32⟩ : BufTy).Contents (Elt F) → (⟨S8192x8192, .f32⟩ : BufTy).Contents (Elt F) → (⟨S8192x8192, .f32⟩ : BufTy).Contents (Elt F)),
    unary main_v18 main_v19 (Host.exp : (⟨S8192x8192, .f32⟩ : BufTy).Contents (Elt F) → (⟨S8192x8192, .f32⟩ : BufTy).Contents (Elt F)),
    binary main_arg0 main_arg0 main_v20 (mulf : (⟨S8192x64, .f32⟩ : BufTy).Contents (Elt F) → (⟨S8192x64, .f32⟩ : BufTy).Contents (Elt F) → (⟨S8192x64, .f32⟩ : BufTy).Contents (Elt F)),
    nullary main_cst_4 (constant S_ .f32 0x00000000#32),
    binary main_v20 main_cst_4 main_v21 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v21 main_v22 (broadcastInDim S8192x1 ![0] bcast_S8192_S8192x1_0 : (⟨S8192, .f32⟩ : BufTy).Contents (Elt F) → (⟨S8192x1, .f32⟩ : BufTy).Contents (Elt F)),
    binary main_arg0 main_arg0 main_v23 (mulf : (⟨S8192x64, .f32⟩ : BufTy).Contents (Elt F) → (⟨S8192x64, .f32⟩ : BufTy).Contents (Elt F) → (⟨S8192x64, .f32⟩ : BufTy).Contents (Elt F)),
    nullary main_cst_5 (constant S_ .f32 0x00000000#32),
    binary main_v23 main_cst_5 main_v24 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v24 main_v25 (broadcastInDim S1x8192 ![1] bcast_S8192_S1x8192_1 : (⟨S8192, .f32⟩ : BufTy).Contents (Elt F) → (⟨S1x8192, .f32⟩ : BufTy).Contents (Elt F)),
    unary main_v22 main_v26 (broadcastInDim S8192x8192 ![0, 1] bcast_S8192x1_S8192x8192_0_1 : (⟨S8192x1, .f32⟩ : BufTy).Contents (Elt F) → (⟨S8192x8192, .f32⟩ : BufTy).Contents (Elt F)),
    unary main_v25 main_v27 (broadcastInDim S8192x8192 ![0, 1] bcast_S1x8192_S8192x8192_0_1 : (⟨S1x8192, .f32⟩ : BufTy).Contents (Elt F) → (⟨S8192x8192, .f32⟩ : BufTy).Contents (Elt F)),
    binary main_v26 main_v27 main_v28 (addf : (⟨S8192x8192, .f32⟩ : BufTy).Contents (Elt F) → (⟨S8192x8192, .f32⟩ : BufTy).Contents (Elt F) → (⟨S8192x8192, .f32⟩ : BufTy).Contents (Elt F)),
    unary main_arg0 main_v29 ((transpose S64x8192 [1, 0] · transposes_S8192x64_S64x8192_1_0) : (⟨S8192x64, .f32⟩ : BufTy).Contents (Elt F) → (⟨S64x8192, .f32⟩ : BufTy).Contents (Elt F)),
    binary main_arg0 main_v29 main_v30 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    nullary main_cst_6 (constant S_ .f32 0x40000000#32),
    unary main_cst_6 main_v31 (broadcastInDim S8192x8192 ![] bcast_S_S8192x8192 : (⟨S_, .f32⟩ : BufTy).Contents (Elt F) → (⟨S8192x8192, .f32⟩ : BufTy).Contents (Elt F)),
    binary main_v31 main_v30 main_v32 (mulf : (⟨S8192x8192, .f32⟩ : BufTy).Contents (Elt F) → (⟨S8192x8192, .f32⟩ : BufTy).Contents (Elt F) → (⟨S8192x8192, .f32⟩ : BufTy).Contents (Elt F)),
    binary main_v28 main_v32 main_v33 (subf : (⟨S8192x8192, .f32⟩ : BufTy).Contents (Elt F) → (⟨S8192x8192, .f32⟩ : BufTy).Contents (Elt F) → (⟨S8192x8192, .f32⟩ : BufTy).Contents (Elt F)),
    nullary main_cst_7 (constant S_ .f32 0x00000000#32),
    unary main_cst_7 main_v34 (broadcastInDim S8192x8192 ![] bcast_S_S8192x8192 : (⟨S_, .f32⟩ : BufTy).Contents (Elt F) → (⟨S8192x8192, .f32⟩ : BufTy).Contents (Elt F)),
    binary main_v33 main_v34 main_v35 (maximumf : (⟨S8192x8192, .f32⟩ : BufTy).Contents (Elt F) → (⟨S8192x8192, .f32⟩ : BufTy).Contents (Elt F) → (⟨S8192x8192, .f32⟩ : BufTy).Contents (Elt F)),
    unary main_v35 main_v36 (Host.negf : (⟨S8192x8192, .f32⟩ : BufTy).Contents (Elt F) → (⟨S8192x8192, .f32⟩ : BufTy).Contents (Elt F)),
    nullary main_cst_8 (constant S_ .f32 0x40000000#32),
    unary main_cst_8 main_v37 (broadcastInDim S8192x8192 ![] bcast_S_S8192x8192 : (⟨S_, .f32⟩ : BufTy).Contents (Elt F) → (⟨S8192x8192, .f32⟩ : BufTy).Contents (Elt F)),
    binary main_v36 main_v37 main_v38 (Host.divf : (⟨S8192x8192, .f32⟩ : BufTy).Contents (Elt F) → (⟨S8192x8192, .f32⟩ : BufTy).Contents (Elt F) → (⟨S8192x8192, .f32⟩ : BufTy).Contents (Elt F)),
    unary main_v38 main_v39 (Host.exp : (⟨S8192x8192, .f32⟩ : BufTy).Contents (Elt F) → (⟨S8192x8192, .f32⟩ : BufTy).Contents (Elt F)),
    binary main_arg1 main_arg1 main_v40 (mulf : (⟨S8192x64, .f32⟩ : BufTy).Contents (Elt F) → (⟨S8192x64, .f32⟩ : BufTy).Contents (Elt F) → (⟨S8192x64, .f32⟩ : BufTy).Contents (Elt F)),
    nullary main_cst_9 (constant S_ .f32 0x00000000#32),
    binary main_v40 main_cst_9 main_v41 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v41 main_v42 (broadcastInDim S8192x1 ![0] bcast_S8192_S8192x1_0 : (⟨S8192, .f32⟩ : BufTy).Contents (Elt F) → (⟨S8192x1, .f32⟩ : BufTy).Contents (Elt F)),
    binary main_arg1 main_arg1 main_v43 (mulf : (⟨S8192x64, .f32⟩ : BufTy).Contents (Elt F) → (⟨S8192x64, .f32⟩ : BufTy).Contents (Elt F) → (⟨S8192x64, .f32⟩ : BufTy).Contents (Elt F)),
    nullary main_cst_10 (constant S_ .f32 0x00000000#32),
    binary main_v43 main_cst_10 main_v44 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v44 main_v45 (broadcastInDim S1x8192 ![1] bcast_S8192_S1x8192_1 : (⟨S8192, .f32⟩ : BufTy).Contents (Elt F) → (⟨S1x8192, .f32⟩ : BufTy).Contents (Elt F)),
    unary main_v42 main_v46 (broadcastInDim S8192x8192 ![0, 1] bcast_S8192x1_S8192x8192_0_1 : (⟨S8192x1, .f32⟩ : BufTy).Contents (Elt F) → (⟨S8192x8192, .f32⟩ : BufTy).Contents (Elt F)),
    unary main_v45 main_v47 (broadcastInDim S8192x8192 ![0, 1] bcast_S1x8192_S8192x8192_0_1 : (⟨S1x8192, .f32⟩ : BufTy).Contents (Elt F) → (⟨S8192x8192, .f32⟩ : BufTy).Contents (Elt F)) ]

/-- The first window of the program is that straight line. -/
theorem main_part0_eq (c : Dev nD) : main_part0 (F := F) c = seq ops0 := rfl

theorem ops0_sub : (ops0 : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub ..⟩

end Cert.ReferenceIdeal.RefValue

end
-- ==== Proof.RefRunStages.lean ====
/-
  The reference's stages as functions of their operands, at any float values.

  The program computes three Gram arrays, each from two stretched squared-norm arrays and one matrix product; a whole
  sum of each; a diagonal sum of two of them (a select against the comparison of the two coordinate arrays, then a whole
  sum); and a closing scalar expression in the five sums.  Each stage below is the composition of the printed
  operations that compute it, in the program's order and spelling.
-/
import proofs.«119468_j3521873183096_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The squared norms of the rows of `a`, kept as a column and stretched over the columns of the square array. -/
def colNorm (a : (⟨S8192x64, .f32⟩ : BufTy).Contents (Elt F)) : (⟨S8192x8192, .f32⟩ : BufTy).Contents (Elt F) :=
  broadcastInDim S8192x8192 ![0, 1] bcast_S8192x1_S8192x8192_0_1
    (broadcastInDim S8192x1 ![0] bcast_S8192_S8192x1_0
      (Host.reduceAdd (mulf a a) (constant S_ .f32 0x00000000#32) reducesTo_S8192x64_S8192_d1 h_S_))

/-- The squared norms of the rows of `b`, kept as a row and stretched over the rows of the square array. -/
def rowNorm (b : (⟨S8192x64, .f32⟩ : BufTy).Contents (Elt F)) : (⟨S8192x8192, .f32⟩ : BufTy).Contents (Elt F) :=
  broadcastInDim S8192x8192 ![0, 1] bcast_S1x8192_S8192x8192_0_1
    (broadcastInDim S1x8192 ![1] bcast_S8192_S1x8192_1
      (Host.reduceAdd (mulf b b) (constant S_ .f32 0x00000000#32) reducesTo_S8192x64_S8192_d1 h_S_))

/-- The Gram array from the two stretched norm arrays `c`, `r` and the samples: the exponential of minus the clipped
    squared distance, halved. -/
def gramRest (c r : (⟨S8192x8192, .f32⟩ : BufTy).Contents (Elt F)) (a b : (⟨S8192x64, .f32⟩ : BufTy).Contents (Elt F)) : (⟨S8192x8192, .f32⟩ : BufTy).Contents (Elt F) :=
  Host.exp (Host.divf (Host.negf (maximumf
      (subf (addf c r)
        (mulf (broadcastInDim S8192x8192 ![] bcast_S_S8192x8192 (constant S_ .f32 0x40000000#32))
          (Host.dotGeneral dot_S8192x64_S64x8192_S8192x8192_1_0_0_1_n_n none a
            (transpose S64x8192 [1, 0] b transposes_S8192x64_S64x8192_1_0))))
      (broadcastInDim S8192x8192 ![] bcast_S_S8192x8192 (constant S_ .f32 0x00000000#32))))
    (broadcastInDim S8192x8192 ![] bcast_S_S8192x8192 (constant S_ .f32 0x40000000#32)))

/-- The Gram array of the rows of `a` against the rows of `b`. -/
def gramArr (a b : (⟨S8192x64, .f32⟩ : BufTy).Contents (Elt F)) : (⟨S8192x8192, .f32⟩ : BufTy).Contents (Elt F) := gramRest (colNorm a) (rowNorm b) a b

/-- The sum of every entry of a square array, from the zero word. -/
def sumAll (g : (⟨S8192x8192, .f32⟩ : BufTy).Contents (Elt F)) : (⟨S_, .f32⟩ : BufTy).Contents (Elt F) :=
  Host.reduceAdd g (constant S_ .f32 0x00000000#32) reducesTo_S8192x8192_S_d0_1 h_S_

/-- The array with its off-diagonal entries replaced by the zero word: the select against the comparison of the row
    coordinate (plus the zero offset) with the column coordinate. -/
def diagOnly (g : (⟨S8192x8192, .f32⟩ : BufTy).Contents (Elt F)) : (⟨S8192x8192, .f32⟩ : BufTy).Contents (Elt F) :=
  select
    (cmpi .eq (addi (iotaInDim S8192x8192 32 0) (broadcastInDim S8192x8192 ![] bcast_S_S8192x8192 (constantI S_ 32 0#32)))
      (iotaInDim S8192x8192 32 1))
    g (broadcastInDim S8192x8192 ![] bcast_S_S8192x8192 (constant S_ .f32 0x00000000#32))

/-- The trace as the program takes it: the whole sum of the masked array. -/
def diagSum (g : (⟨S8192x8192, .f32⟩ : BufTy).Contents (Elt F)) : (⟨S_, .f32⟩ : BufTy).Contents (Elt F) := sumAll (diagOnly g)

/-- The closing arithmetic on the five sums. -/
def closing (sxx txx syy tyy sxy : (⟨S_, .f32⟩ : BufTy).Contents (Elt F)) : (⟨S_, .f32⟩ : BufTy).Contents (Elt F) :=
  mulf (constant S_ .f32 0x3F000000#32)
    (subf
      (addf (mulf (constant S_ .f32 0x32800400#32) (subf sxx txx)) (mulf (constant S_ .f32 0x32800400#32) (subf syy tyy)))
      (mulf (constant S_ .f32 0x40000000#32) (Host.divf sxy (constant S_ .f32 0x4C800000#32))))

/-- What the second window computes from what the first leaves: the Gram array of (Y, Y) finished from its two stretched
    norm arrays, then the five sums and the closing arithmetic. -/
def secondWindow (gxy gxx c r : (⟨S8192x8192, .f32⟩ : BufTy).Contents (Elt F)) (y : (⟨S8192x64, .f32⟩ : BufTy).Contents (Elt F)) : (⟨S_, .f32⟩ : BufTy).Contents (Elt F) :=
  closing (sumAll gxx) (diagSum gxx) (sumAll (gramRest c r y y)) (diagSum (gramRest c r y y)) (sumAll gxy)

/-- The reference's result as one function of the two samples. -/
def refTerm (x y : (⟨S8192x64, .f32⟩ : BufTy).Contents (Elt F)) : (⟨S_, .f32⟩ : BufTy).Contents (Elt F) :=
  secondWindow (gramArr x y) (gramArr x x) (colNorm y) (rowNorm y) y

end Cert.ReferenceIdeal.RefValue

end
-- ==== Proof.RefRunVal0.lean ====
/-
  What the reference's first sixty operations leave, from any contents of the device's buffers: the Gram arrays of
  (X, Y) and of (X, X), the two stretched squared-norm arrays of Y, and the two samples where they were.  Each is the
  fold of the operations' results read at one buffer: an operation's own buffer holds its function of its operands'
  contents, every other buffer what it held.
-/
import proofs.«119468_j3521873183096_1_alg».proof.Proof.RefRunOps0
import proofs.«119468_j3521873183096_1_alg».proof.Proof.RefRunStages

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem after0_v19 (V : Valuation τ sig (Elt F)) :
    after ops0 V (Proc.devRef .tc main_v19) = gramArr (V (Proc.devRef .tc main_arg0)) (V (Proc.devRef .tc main_arg1)) := by
  simp only [ops0]
  after_results_simp
  rfl

set_option maxRecDepth 8192 in
set_option maxHeartbeats 4000000 in
theorem after0_v39 (V : Valuation τ sig (Elt F)) :
    after ops0 V (Proc.devRef .tc main_v39) = gramArr (V (Proc.devRef .tc main_arg0)) (V (Proc.devRef .tc main_arg0)) := by
  simp only [ops0]
  after_results_simp
  rfl

set_option maxRecDepth 8192 in
set_option maxHeartbeats 4000000 in
theorem after0_v46 (V : Valuation τ sig (Elt F)) :
    after ops0 V (Proc.devRef .tc main_v46) = colNorm (V (Proc.devRef .tc main_arg1)) := by
  simp only [ops0]
  after_results_simp
  rfl

set_option maxRecDepth 8192 in
set_option maxHeartbeats 4000000 in
theorem after0_v47 (V : Valuation τ sig (Elt F)) :
    after ops0 V (Proc.devRef .tc main_v47) = rowNorm (V (Proc.devRef .tc main_arg1)) := by
  simp only [ops0]
  after_results_simp
  rfl

set_option maxRecDepth 8192 in
set_option maxHeartbeats 4000000 in
theorem after0_arg0 (V : Valuation τ sig (Elt F)) :
    after ops0 V (Proc.devRef .tc main_arg0) = V (Proc.devRef .tc main_arg0) := by
  simp only [ops0]
  after_results_simp

set_option maxRecDepth 8192 in
set_option maxHeartbeats 4000000 in
theorem after0_arg1 (V : Valuation τ sig (Elt F)) :
    after ops0 V (Proc.devRef .tc main_arg1) = V (Proc.devRef .tc main_arg1) := by
  simp only [ops0]
  after_results_simp

end Cert.ReferenceIdeal.RefValue

end
-- ==== Proof.RefRunOps1.lean ====
/-
  The last fifty-seven operations of the reference, in order: the rest of the Gram array of (Y, Y), the whole sums,
  the two diagonal sums (each the eleven operations of the trace: two coordinate arrays, their comparison, the masked
  select and its sum), and the closing scalar arithmetic.
-/
import proofs.«119468_j3521873183096_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The last fifty-seven operations of the reference, in order: the rest of the Gram array of (Y, Y), the whole sums, -/
abbrev ops1 : List (HloOp τ sig (Elt F)) :=
  [
    binary main_v46 main_v47 main_v48 (addf : (⟨S8192x8192, .f32⟩ : BufTy).Contents (Elt F) → (⟨S8192x8192, .f32⟩ : BufTy).Contents (Elt F) → (⟨S8192x8192, .f32⟩ : BufTy).Contents (Elt F)),
    unary main_arg1 main_v49 ((transpose S64x8192 [1, 0] · transposes_S8192x64_S64x8192_1_0) : (⟨S8192x64, .f32⟩ : BufTy).Contents (Elt F) → (⟨S64x8192, .f32⟩ : BufTy).Contents (Elt F)),
    binary main_arg1 main_v49 main_v50 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    nullary main_cst_11 (constant S_ .f32 0x40000000#32),
    unary main_cst_11 main_v51 (broadcastInDim S8192x8192 ![] bcast_S_S8192x8192 : (⟨S_, .f32⟩ : BufTy).Contents (Elt F) → (⟨S8192x8192, .f32⟩ : BufTy).Contents (Elt F)),
    binary main_v51 main_v50 main_v52 (mulf : (⟨S8192x8192, .f32⟩ : BufTy).Contents (Elt F) → (⟨S8192x8192, .f32⟩ : BufTy).Contents (Elt F) → (⟨S8192x8192, .f32⟩ : BufTy).Contents (Elt F)),
    binary main_v48 main_v52 main_v53 (subf : (⟨S8192x8192, .f32⟩ : BufTy).Contents (Elt F) → (⟨S8192x8192, .f32⟩ : BufTy).Contents (Elt F) → (⟨S8192x8192, .f32⟩ : BufTy).Contents (Elt F)),
    nullary main_cst_12 (constant S_ .f32 0x00000000#32),
    unary main_cst_12 main_v54 (broadcastInDim S8192x8192 ![] bcast_S_S8192x8192 : (⟨S_, .f32⟩ : BufTy).Contents (Elt F) → (⟨S8192x8192, .f32⟩ : BufTy).Contents (Elt F)),
    binary main_v53 main_v54 main_v55 (maximumf : (⟨S8192x8192, .f32⟩ : BufTy).Contents (Elt F) → (⟨S8192x8192, .f32⟩ : BufTy).Contents (Elt F) → (⟨S8192x8192, .f32⟩ : BufTy).Contents (Elt F)),
    unary main_v55 main_v56 (Host.negf : (⟨S8192x8192, .f32⟩ : BufTy).Contents (Elt F) → (⟨S8192x8192, .f32⟩ : BufTy).Contents (Elt F)),
    nullary main_cst_13 (constant S_ .f32 0x40000000#32),
    unary main_cst_13 main_v57 (broadcastInDim S8192x8192 ![] bcast_S_S8192x8192 : (⟨S_, .f32⟩ : BufTy).Contents (Elt F) → (⟨S8192x8192, .f32⟩ : BufTy).Contents (Elt F)),
    binary main_v56 main_v57 main_v58 (Host.divf : (⟨S8192x8192, .f32⟩ : BufTy).Contents (Elt F) → (⟨S8192x8192, .f32⟩ : BufTy).Contents (Elt F) → (⟨S8192x8192, .f32⟩ : BufTy).Contents (Elt F)),
    unary main_v58 main_v59 (Host.exp : (⟨S8192x8192, .f32⟩ : BufTy).Contents (Elt F) → (⟨S8192x8192, .f32⟩ : BufTy).Contents (Elt F)),
    nullary main_cst_14 (constant S_ .f32 0x00000000#32),
    binary main_v39 main_cst_14 main_v60 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    TRef.nullary main_call0.v0 (iotaInDim S8192x8192 32 0),
    TRef.nullary main_call0.v1 (iotaInDim S8192x8192 32 1),
    TRef.nullary main_call0.c (constantI S_ 32 0#32),
    TRef.unary main_call0.c main_call0.v2 (broadcastInDim S8192x8192 ![] bcast_S_S8192x8192),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S8192x8192 ![] bcast_S_S8192x8192),
    TRef.ternary main_call0.v4 (.of main_v39) main_call0.v5 main_call0.call0.v0 select,
    TRef.nullary main_call0.cst_0 (constant S_ .f32 0x00000000#32),
    TRef.binary main_call0.call0.v0 main_call0.cst_0 main_call0.v7 (fun x v => Host.reduceAdd x v reducesTo_S8192x8192_S_d0_1 h_S_),
    binary main_v60 main_v61 main_v62 (subf : (⟨S_, .f32⟩ : BufTy).Contents (Elt F) → (⟨S_, .f32⟩ : BufTy).Contents (Elt F) → (⟨S_, .f32⟩ : BufTy).Contents (Elt F)),
    nullary main_cst_15 (constant S_ .f32 0x32800400#32),
    binary main_cst_15 main_v62 main_v63 (mulf : (⟨S_, .f32⟩ : BufTy).Contents (Elt F) → (⟨S_, .f32⟩ : BufTy).Contents (Elt F) → (⟨S_, .f32⟩ : BufTy).Contents (Elt F)),
    nullary main_cst_16 (constant S_ .f32 0x00000000#32),
    binary main_v59 main_cst_16 main_v64 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    TRef.nullary main_call1.v0 (iotaInDim S8192x8192 32 0),
    TRef.nullary main_call1.v1 (iotaInDim S8192x8192 32 1),
    TRef.nullary main_call1.c (constantI S_ 32 0#32),
    TRef.unary main_call1.c main_call1.v2 (broadcastInDim S8192x8192 ![] bcast_S_S8192x8192),
    TRef.binary main_call1.v0 main_call1.v2 main_call1.v3 addi,
    TRef.binary main_call1.v3 main_call1.v1 main_call1.v4 (cmpi .eq),
    TRef.nullary main_call1.cst (constant S_ .f32 0x00000000#32),
    TRef.unary main_call1.cst main_call1.v5 (broadcastInDim S8192x8192 ![] bcast_S_S8192x8192),
    TRef.ternary main_call1.v4 (.of main_v59) main_call1.v5 main_call1.call0.v0 select,
    TRef.nullary main_call1.cst_0 (constant S_ .f32 0x00000000#32),
    TRef.binary main_call1.call0.v0 main_call1.cst_0 main_call1.v7 (fun x v => Host.reduceAdd x v reducesTo_S8192x8192_S_d0_1 h_S_),
    binary main_v64 main_v65 main_v66 (subf : (⟨S_, .f32⟩ : BufTy).Contents (Elt F) → (⟨S_, .f32⟩ : BufTy).Contents (Elt F) → (⟨S_, .f32⟩ : BufTy).Contents (Elt F)),
    nullary main_cst_17 (constant S_ .f32 0x32800400#32),
    binary main_cst_17 main_v66 main_v67 (mulf : (⟨S_, .f32⟩ : BufTy).Contents (Elt F) → (⟨S_, .f32⟩ : BufTy).Contents (Elt F) → (⟨S_, .f32⟩ : BufTy).Contents (Elt F)),
    binary main_v63 main_v67 main_v68 (addf : (⟨S_, .f32⟩ : BufTy).Contents (Elt F) → (⟨S_, .f32⟩ : BufTy).Contents (Elt F) → (⟨S_, .f32⟩ : BufTy).Contents (Elt F)),
    nullary main_cst_18 (constant S_ .f32 0x00000000#32),
    binary main_v19 main_cst_18 main_v69 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_19 (constant S_ .f32 0x4C800000#32),
    binary main_v69 main_cst_19 main_v70 (Host.divf : (⟨S_, .f32⟩ : BufTy).Contents (Elt F) → (⟨S_, .f32⟩ : BufTy).Contents (Elt F) → (⟨S_, .f32⟩ : BufTy).Contents (Elt F)),
    nullary main_cst_20 (constant S_ .f32 0x40000000#32),
    binary main_cst_20 main_v70 main_v71 (mulf : (⟨S_, .f32⟩ : BufTy).Contents (Elt F) → (⟨S_, .f32⟩ : BufTy).Contents (Elt F) → (⟨S_, .f32⟩ : BufTy).Contents (Elt F)),
    binary main_v68 main_v71 main_v72 (subf : (⟨S_, .f32⟩ : BufTy).Contents (Elt F) → (⟨S_, .f32⟩ : BufTy).Contents (Elt F) → (⟨S_, .f32⟩ : BufTy).Contents (Elt F)),
    nullary main_cst_21 (constant S_ .f32 0x3F000000#32),
    binary main_cst_21 main_v72 main_v73 (mulf : (⟨S_, .f32⟩ : BufTy).Contents (Elt F) → (⟨S_, .f32⟩ : BufTy).Contents (Elt F) → (⟨S_, .f32⟩ : BufTy).Contents (Elt F)) ]

set_option maxRecDepth 4096 in
set_option maxHeartbeats 4000000 in
/-- The second window of the program is that straight line: the trace's body and the select inside it unfolded at
    their two calls, the sequencing reassociated. -/
theorem main_part1_eq (c : Dev nD) : main_part1 (F := F) c = seq ops1 := by
  simp only [main_part1, fn_trace.body, fn_where.body, seq, bind_assoc, pure_bind]

theorem ops1_sub : (ops1 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., unary_bufs_sub .., nullary_bufs_sub .., binary_bufs_sub .., nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., binary_bufs_sub .., nullary_bufs_sub .., binary_bufs_sub .., nullary_bufs_sub .., binary_bufs_sub .., nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub ..⟩

end Cert.ReferenceIdeal.RefValue

end
-- ==== Proof.RefRunVal1.lean ====
/-
  What the reference's last fifty-seven operations leave, from any contents of the device's buffers: the result cell
  as the closing arithmetic on the five sums, computed from the two Gram arrays and the two stretched norm arrays the
  first window left and from the second sample; and the two samples where they were.
-/
import proofs.«119468_j3521873183096_1_alg».proof.Proof.RefRunOps1
import proofs.«119468_j3521873183096_1_alg».proof.Proof.RefRunStages

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem after1_v73 (W : Valuation τ sig (Elt F)) :
    after ops1 W (Proc.devRef .tc main_v73)
      = secondWindow (W (Proc.devRef .tc main_v19)) (W (Proc.devRef .tc main_v39)) (W (Proc.devRef .tc main_v46)) (W (Proc.devRef .tc main_v47))
          (W (Proc.devRef .tc main_arg1)) := by
  simp only [ops1]
  after_results_simp
  rfl

set_option maxRecDepth 8192 in
set_option maxHeartbeats 4000000 in
theorem after1_arg0 (W : Valuation τ sig (Elt F)) :
    after ops1 W (Proc.devRef .tc main_arg0) = W (Proc.devRef .tc main_arg0) := by
  simp only [ops1]
  after_results_simp

set_option maxRecDepth 8192 in
set_option maxHeartbeats 4000000 in
theorem after1_arg1 (W : Valuation τ sig (Elt F)) :
    after ops1 W (Proc.devRef .tc main_arg1) = W (Proc.devRef .tc main_arg1) := by
  simp only [ops1]
  after_results_simp

end Cert.ReferenceIdeal.RefValue

end
-- ==== Proof.RefRun.lean ====
/-
  The reference's run.  The program is one straight line of 117 operations on the device's buffers (the two calls of
  the trace unfolded at their buffers): its first window's sixty followed by its second window's fifty-seven.  Every
  weakly fair execution from a memory with zero counters terminates; the result cell then holds the stages' composed
  function of the two samples' launch contents, and the two samples are where they were.
-/
import proofs.«119468_j3521873183096_1_alg».proof.Proof.RefRunVal0
import proofs.«119468_j3521873183096_1_alg».proof.Proof.RefRunVal1

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) := ops0 ++ ops1

/-- Folding over two lines one after the other is folding over the first, then over the second. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- The program is that straight line: its two windows in order. -/
theorem main_eq (c : Dev nD) : main (F := F) c = seq ops := by
  show (main_part0 (F := F) c >>= fun _ => main_part1 (F := F) c) = seq (ops0 ++ ops1)
  rw [seq_append, main_part0_eq, main_part1_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    · exact List.forall_iff_forall_mem.mp ops1_sub op h

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  rcases List.mem_append.mp h with h | h
  · exact ops0_fresh op h
  · exact ops1_fresh op h

/-- The result cell after the whole line, from any contents: the stages composed on the two samples. -/
theorem after_v73 (V : Valuation τ sig (Elt F)) :
    after ops V (Proc.devRef .tc main_v73) = refTerm (V (Proc.devRef .tc main_arg0)) (V (Proc.devRef .tc main_arg1)) := by
  show after (ops0 ++ ops1) V _ = _
  rw [after_concat, after1_v73, after0_v19, after0_v39, after0_v46, after0_v47, after0_arg1]
  rfl

theorem after_arg0 (V : Valuation τ sig (Elt F)) : after ops V (Proc.devRef .tc main_arg0) = V (Proc.devRef .tc main_arg0) := by
  show after (ops0 ++ ops1) V _ = _
  rw [after_concat, after1_arg0, after0_arg0]

theorem after_arg1 (V : Valuation τ sig (Elt F)) : after ops V (Proc.devRef .tc main_arg1) = V (Proc.devRef .tc main_arg1) := by
  show after (ops0 ++ ops1) V _ = _
  rw [after_concat, after1_arg1, after0_arg1]

/-- On every device, for any float values, from any memory with zero counters: every weakly fair execution of the
    program terminates with the result cell at the stages' composed function of the two samples' launch contents and
    the two samples unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v73).trans (after_v73 _),
      (h c main_arg0).trans (after_arg0 _),
      (h c main_arg1).trans (after_arg1 _)⟩)
    (run_seq scopedRefs_eq scopedSems_eq defs main (fun _ => ops) main_eq (fun _ => ops_sub) m ρ (fun _ => ops_fresh))

end Cert.ReferenceIdeal.RefValue

end
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«119468_j3521873183096_1_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibRowReduce.lean ====
/-
  Reductions along the rows of an [a, b] array, read at a row, on the extended reals.

  A lane sum from the zero word is the sum of the row's entries; a lane maximum from the -∞ word is their supremum;
  and a vector [a] kept as a column [a, 1] and spread over b columns reads, at (p, q), the vector at p.  The source
  index over row p with column k inserted is (p, k).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import proofs.«119468_j3521873183096_1_alg».proof.Proof.LibKeepdims
import proofs.«119468_j3521873183096_1_alg».proof.Proof.LibExtremeReduce

noncomputable section

namespace Cert.LibRowReduce

open Idealize.ShloMosaic Idealize.ShloMosaic.ValueIdx

variable {a b : Nat}

/-- Over row p of an [a, b] array, the index with column k inserted is (p, k). -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum along the rows, from the zero word, at row p: the sum of the row. -/
theorem rowSum_apply (src : FVec Ideal ⟨2, ![a, b]⟩ .f32) (h : (⟨2, ![a, b]⟩ : Shape).Reduces [1] ⟨1, ![a]⟩) (p : Fin a) :
    multiReduction .add [1] ⟨1, ![a]⟩ src 0x00000000#32 h (.inl rfl) rfl (ix1 p) = ∑ q : Fin b, src (ix2 p q) :=
  (Ideal.multiReduction_add_single src 0x00000000#32 h (.inl rfl) rfl (ix1 p)).trans
    (Finset.sum_congr rfl fun k _ => congrArg src (lift_row h p k))

/-- A lane maximum along the rows, from the -∞ word, at row p: the supremum of the row. -/
theorem rowMax_apply (src : FVec Ideal ⟨2, ![a, b]⟩ .f32) (h : (⟨2, ![a, b]⟩ : Shape).Reduces [1] ⟨1, ![a]⟩) (p : Fin a) :
    multiReduction .maximumf [1] ⟨1, ![a]⟩ src 0xFF800000#32 h (.inl rfl) rfl (ix1 p) = ⨆ q : Fin b, src (ix2 p q) :=
  (ExtremeReduce.multiReduction_max_single src h (.inl rfl) rfl (ix1 p)).trans
    (iSup_congr fun k => congrArg src (lift_row h p k))

/-- A vector [a] kept as a column [a, 1] and spread over b columns reads, at (p, q), the vector at p. -/
theorem column_apply {α : Type} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (LibKeepdims.broadcastTo_a1_ab_apply _ h2 p q).trans (LibKeepdims.shapeCast_a_a1_apply v h1 p 0)

end Cert.LibRowReduce

end
-- ==== Proof.RefValueGram.lean ====
/-
  The reference's Gram array read at an index, on the extended reals.

  At (p, q) the stretched column of squared norms holds the squared norm of row p of the first sample, the stretched
  row holds the squared norm of row q of the second, and the matrix product against the transpose holds the inner
  product of the two rows.  The remaining operations act entry by entry, so the Gram array at (p, q) is the exponential
  of minus the clipped squared distance over two, which is the Gram entry of the specification in its other
  arrangement.
-/
import proofs.«119468_j3521873183096_1_alg».proof.Proof.Spec
import proofs.«119468_j3521873183096_1_alg».proof.Proof.GramLaws
import proofs.«119468_j3521873183096_1_alg».proof.Proof.RefRunStages
import proofs.«119468_j3521873183096_1_alg».proof.Proof.LibInDimLayout
import proofs.«119468_j3521873183096_1_alg».proof.Proof.LibInDimRow
import proofs.«119468_j3521873183096_1_alg».proof.Proof.LibInnerProducts
import proofs.«119468_j3521873183096_1_alg».proof.Proof.LibRowReduce
import Idealize.ShloMosaic.PureOps.Ideal.Laws
import Idealize.ShloMosaic.Lib.ValueLayout

noncomputable section

namespace Cert.ReferenceIdeal.RefValue

open Cert.ReferenceIdeal Cert.ReferenceIdeal.Gen Idealize.ShloMosaic Idealize.ShloMosaic.ValueIdx Cert.Mmd
open scoped BigOperators

/-- A sum along the rows of the entrywise square, from the zero word, at row p: the squared norm of row p. -/
theorem rowSum_apply (a : Mat) (p : Fin 8192) :
    Host.reduceAdd (F := Ideal) (φ := .f32) (mulf (F := Ideal) (φ := .f32) a a) (constant (F := Ideal) S_ .f32 0x00000000#32)
        reducesTo_S8192x64_S8192_d1 h_S_ (ix1 p) = sqn a p := by
  have hr : S8192x64.Reduces [1] S8192 := by decide
  show Ideal.hostReduceAdd reducesTo_S8192x64_S8192_d1 (mulf (F := Ideal) (φ := .f32) a a) (Ideal.ofBits .f32 0x00000000#32) (ix1 p) = _
  rw [Ideal.hostReduceAdd_single reducesTo_S8192x64_S8192_d1 hr, Ideal.ofBits_zero_f32, zero_add]
  exact Finset.sum_congr rfl fun d _ => by
    rw [Cert.LibRowReduce.lift_row hr p d]; rfl

/-- The stretched column of squared norms at (p, q): the squared norm of row p. -/
theorem colNorm_apply (a : Mat) (p q : Fin 8192) : colNorm (F := Ideal) a (ix2 p q) = sqn a p :=
  (Cert.LibInDimLayout.inDim_a1_ab_apply _ bcast_S8192x1_S8192x8192_0_1 p q).trans
    ((Cert.LibInDimLayout.inDim_a_a1_apply _ bcast_S8192_S8192x1_0 p 0).trans (rowSum_apply a p))

/-- The stretched row of squared norms at (p, q): the squared norm of row q. -/
theorem rowNorm_apply (b : Mat) (p q : Fin 8192) : rowNorm (F := Ideal) b (ix2 p q) = sqn b q :=
  (Cert.LibInDimRow.inDim_1b_ab_apply _ bcast_S1x8192_S8192x8192_0_1 p q).trans
    ((Cert.LibInDimRow.inDim_b_1b_apply _ bcast_S8192_S1x8192_1 0 q).trans (rowSum_apply b q))

/-- The product of the first sample with the transpose of the second at (p, q): the inner product of the rows. -/
theorem dot_apply (a b : Mat) (p q : Fin 8192) :
    Host.dotGeneral (F := Ideal) (φ₁ := .f32) (φ₂ := .f32) dot_S8192x64_S64x8192_S8192x8192_1_0_0_1_n_n none a
        (transpose S64x8192 [1, 0] b transposes_S8192x64_S64x8192_1_0) (ix2 p q) = Cert.Mmd.inner a b p q :=
  (Idealize.ShloMosaic.InnerProducts.dotGeneral_apply (φ₁ := .f32) (φ₂ := .f32) dot_S8192x64_S64x8192_S8192x8192_1_0_0_1_n_n rfl none a _ p q).trans
    (Finset.sum_congr rfl fun d _ =>
      congrArg (a (ix2 p d) * ·) (transpose_ix2_apply b transposes_S8192x64_S64x8192_1_0 d q))

/-- The entrywise operations of the Gram array, at one index. -/
theorem gramRest_apply (c r : S8192x8192.Idx → EReal) (a b : Mat) (i : S8192x8192.Idx) :
    gramRest (F := Ideal) c r a b i
      = Ideal.exp (Ideal.div (-(max ((c i + r i)
          - wTwo * Host.dotGeneral (F := Ideal) (φ₁ := .f32) (φ₂ := .f32) dot_S8192x64_S64x8192_S8192x8192_1_0_0_1_n_n none a
              (transpose S64x8192 [1, 0] b transposes_S8192x64_S64x8192_1_0) i) wZero)) wTwo) := rfl

/-- The reference's Gram array at (p, q) is the specification's Gram entry. -/
theorem gramArr_apply (a b : Mat) (p q : Fin 8192) : gramArr (F := Ideal) a b (ix2 p q) = gram a b p q := by
  unfold gramArr
  rw [gramRest_apply, colNorm_apply, rowNorm_apply, dot_apply]
  exact (exp_arrangement (sqd a b p q)).symm

end Cert.ReferenceIdeal.RefValue

end
-- ==== Proof.RefValueSums.lean ====
/-
  The reference's whole sums and diagonal sums, on the extended reals.

  A sum of a square array over both axes from the zero word is the double sum of its entries.  The trace is taken as the
  whole sum of the array with its off-diagonal entries replaced by zero: the mask compares the row coordinate with the
  column coordinate as 32-bit words, and two coordinates below 8192 are equal words exactly when they are equal, so the
  masked double sum is the sum of the diagonal entries.
-/
import proofs.«119468_j3521873183096_1_alg».proof.Proof.Spec
import proofs.«119468_j3521873183096_1_alg».proof.Proof.RefRunStages
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx Cert.Mmd
open scoped BigOperators

/-- The whole sum of a square array from the zero word: the double sum of its entries. -/
theorem sumAll_apply (g : S8192x8192.Idx → EReal) (j : S_.Idx) :
    sumAll (F := Ideal) g j = ∑ p : Fin 8192, ∑ q : Fin 8192, g (ix2 p q) := by
  show Ideal.hostReduceAdd reducesTo_S8192x8192_S_d0_1 g (Ideal.ofBits .f32 0x00000000#32) j = _
  rw [Ideal.hostReduceAdd_total reducesTo_S8192x8192_S_d0_1 (fun b => b.elim0), Ideal.ofBits_zero_f32, zero_add]
  exact sum_idx2 g

/-- Two coordinates below 8192 are the same 32-bit word exactly when they are equal. -/
theorem word_eq_iff (p q : Fin 8192) : BitVec.ofNat 32 p.val = BitVec.ofNat 32 q.val ↔ p = q := by
  constructor
  · intro h
    have h' := congrArg BitVec.toNat h
    simp only [BitVec.toNat_ofNat] at h'
    have hp := p.isLt
    have hq := q.isLt
    rw [Nat.mod_eq_of_lt (by omega), Nat.mod_eq_of_lt (by omega)] at h'
    exact Fin.ext h'
  · intro h; rw [h]

/-- The masked array at (p, q): the entry on the diagonal, zero off it. -/
theorem diagOnly_apply (g : S8192x8192.Idx → EReal) (p q : Fin 8192) :
    diagOnly (F := Ideal) g (ix2 p q) = if p = q then g (ix2 p q) else 0 := by
  show (if BitVec.ofBool (BitVec.ofNat 32 p.val + 0#32 == BitVec.ofNat 32 q.val) = 1#1 then g (ix2 p q)
      else Ideal.ofBits .f32 0x00000000#32) = _
  rw [BitVec.add_zero, Ideal.ofBits_zero_f32]
  by_cases h : p = q
  · have hw : (BitVec.ofNat 32 p.val == BitVec.ofNat 32 q.val) = true := beq_iff_eq.mpr ((word_eq_iff p q).mpr h)
    rw [if_pos h, hw]; rfl
  · have hw : (BitVec.ofNat 32 p.val == BitVec.ofNat 32 q.val) = false :=
      beq_eq_false_iff_ne.mpr fun e => h ((word_eq_iff p q).mp e)
    rw [if_neg h, hw]; rfl

/-- The trace as the program takes it: the sum of the diagonal entries. -/
theorem diagSum_apply (g : S8192x8192.Idx → EReal) (j : S_.Idx) :
    diagSum (F := Ideal) g j = ∑ p : Fin 8192, g (ix2 p p) := by
  unfold diagSum
  rw [sumAll_apply]
  refine Finset.sum_congr rfl fun p _ => ?_
  rw [Finset.sum_congr rfl fun q _ => diagOnly_apply g p q]
  rw [Finset.sum_ite_eq Finset.univ p fun q => g (ix2 p q), if_pos (Finset.mem_univ p)]

end Cert.ReferenceIdeal.RefValue

end
-- ==== Proof.RefValue.lean ====
/-
  The reference computes the specification's result.

  Its result cell holds the closing arithmetic on five sums: the whole sums of the three Gram arrays and the diagonal
  sums of the two square ones.  Each Gram array holds the specification's Gram entry at every index, each whole sum is
  the double sum and each diagonal sum the sum of the diagonal, and the closing arithmetic is the specification's, entry
  by entry; so the cell holds the specification's result of the two samples.  With the run, every weakly fair execution
  of the reference ends with that value in the result cell and the two samples where they were.
-/
import proofs.«119468_j3521873183096_1_alg».proof.Proof.Spec
import proofs.«119468_j3521873183096_1_alg».proof.Proof.RefRun
import proofs.«119468_j3521873183096_1_alg».proof.Proof.RefValueGram
import proofs.«119468_j3521873183096_1_alg».proof.Proof.RefValueSums

noncomputable section

namespace Cert.ReferenceIdeal.RefValue

open Cert.ReferenceIdeal Cert.ReferenceIdeal.Gen Idealize.ShloMosaic Idealize.ShloMosaic.ValueIdx Cert.Mmd
open Idealize.SL.Sem Idealize.ShloMosaic.TcCoe Idealize.ShloMosaic.StableHlo
open scoped BigOperators

/-- The whole sum of the reference's Gram array: the specification's sum of all Gram entries. -/
theorem sumAll_gramArr (a b : Mat) (j : S_.Idx) : sumAll (F := Ideal) (gramArr (F := Ideal) a b) j = gramSum a b := by
  rw [sumAll_apply]
  exact Finset.sum_congr rfl fun p _ => Finset.sum_congr rfl fun q _ => gramArr_apply a b p q

/-- The diagonal sum of the reference's Gram array of a sample with itself: the specification's trace. -/
theorem diagSum_gramArr (a : Mat) (j : S_.Idx) : diagSum (F := Ideal) (gramArr (F := Ideal) a a) j = gramTrace a := by
  rw [diagSum_apply]
  exact Finset.sum_congr rfl fun p _ => gramArr_apply a a p p

/-- The closing arithmetic at the one index of a scalar cell. -/
theorem closing_apply (sxx txx syy tyy sxy : S_.Idx → EReal) (j : S_.Idx) :
    closing (F := Ideal) sxx txx syy tyy sxy j = combine (sxx j) (txx j) (syy j) (tyy j) (sxy j) := rfl

/-- The reference's composed function of the two samples is the specification's result, at the cell's one index. -/
theorem refTerm_eq (x y : Mat) : refTerm (F := Ideal) x y = fun _ => result x y := by
  funext j
  show closing (F := Ideal) (sumAll (F := Ideal) (gramArr (F := Ideal) x x)) (diagSum (F := Ideal) (gramArr (F := Ideal) x x))
      (sumAll (F := Ideal) (gramArr (F := Ideal) y y)) (diagSum (F := Ideal) (gramArr (F := Ideal) y y))
      (sumAll (F := Ideal) (gramArr (F := Ideal) x y)) j = _
  rw [closing_apply, sumAll_gramArr, diagSum_gramArr, sumAll_gramArr, diagSum_gramArr, sumAll_gramArr]
  rfl

/-- On every device, from any memory with zero counters: every weakly fair execution of the reference terminates with
    the result cell at the specification's result of the two samples' launch contents and the two samples unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v73)
            = (fun _ => Cert.Mmd.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h c).1.trans (refTerm_eq _ _), (h c).2.1, (h c).2.2⟩) (run_stages (F := Ideal) m ρ)

end Cert.ReferenceIdeal.RefValue

end
-- ==== Proof.lean ====
/-
  The claim: the three-call Gram-matrix program (maximum mean discrepancy of two samples under a Gaussian kernel) and
  its plain reference compute one number.

  Frames.  Each of the two kernel programs is three pipelined regions with host stretches between them.  A region's
  body, run symbolically at a grid point, leaves the input tiles untouched, adds the tile's sum of Gaussian values to
  one scratch cell and, on a diagonal tile, the tile's diagonal sum to a second, and at the last point stores the two
  cells side by side into the result window; so every weakly fair execution terminates without a fault and no
  argument array is written.  The reference is a straight line of host operations (its two trace calls inlined).

  Values, at the ideal instance.  The two accumulators after the last grid point are the sums over the 256 tiles of
  the tile sums and of the diagonal tiles' diagonal sums, which regroup (commutative-monoid laws only) into the sum of
  all Gram entries and the trace; the reference's whole-array sums and masked sums are the same two quantities; the two
  spellings of the exponent, (-1/2 * d) / 1 and (-d) / 2, are one extended real; the closing arithmetic on the five
  numbers is the same text on both sides.
-/
import proofs.«119468_j3521873183096_1_alg».proof.Defs
import proofs.«119468_j3521873183096_1_alg».proof.Proof.Gen.Kernel
import proofs.«119468_j3521873183096_1_alg».proof.Proof.Gen.KernelIdeal
import proofs.«119468_j3521873183096_1_alg».proof.Proof.Gen.ReferenceIdeal
import proofs.«119468_j3521873183096_1_alg».proof.Proof.Gen.Pre_finite_inputs
import proofs.«119468_j3521873183096_1_alg».proof.Proof.BRun
import proofs.«119468_j3521873183096_1_alg».proof.Proof.KRun
import proofs.«119468_j3521873183096_1_alg».proof.Proof.KAlg
import proofs.«119468_j3521873183096_1_alg».proof.Proof.RefValue
import Idealize.ShloMosaic.Adequacy
import Idealize.ShloMosaic.Init

noncomputable section

namespace Cert.Proof

open Idealize.ShloMosaic Idealize.SL.Sem

/-- An unscoped TensorCore reference of the word-level program is among those the last thread state holds. -/
theorem mem_ucK (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩
/-- The same for the idealized program. -/
theorem mem_ucI (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

section
variable [hK : Cert.Kernel.Facts] [hKI : Cert.KernelIdeal.Facts] [hR : Cert.ReferenceIdeal.Facts] [hP : Cert.Pre_finite_inputs.Facts]

/-- The word-level program runs to the end and leaves both samples as launched: no region and no host stretch writes them. -/
theorem frame_k : Cert.frame_Kernel := fun m ρ _ =>
  (θ_run Cert.Kernel.defs _ _).mono (fun r h c =>
    ⟨(h c _ (mem_ucK Cert.Kernel.main_arg0 (by decide))).trans (Cert.Kernel.Body.W6_main_arg0 m c),
     (h c _ (mem_ucK Cert.Kernel.main_arg1 (by decide))).trans (Cert.Kernel.Body.W6_main_arg1 m c)⟩)
    (Cert.Kernel.Body.run_all (F := Bits) m ρ)

/-- The same of the idealized program. -/
theorem frame_ki : Cert.frame_KernelIdeal := fun m ρ _ =>
  (θ_run Cert.KernelIdeal.defs _ _).mono (fun r h c =>
    ⟨(h c _ (mem_ucI Cert.KernelIdeal.main_arg0 (by decide))).trans (Cert.KernelIdeal.Body.W6_main_arg0 m c),
     (h c _ (mem_ucI Cert.KernelIdeal.main_arg1 (by decide))).trans (Cert.KernelIdeal.Body.W6_main_arg1 m c)⟩)
    (Cert.KernelIdeal.Body.run_all (F := Ideal) m ρ)

/-- The reference runs to the end and leaves both samples as launched. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- Both programs end with the halved squared discrepancy of the two samples, as one function of them. -/
theorem algebraic : Cert.algebraic_KernelIdeal_ReferenceIdeal := by
  intro m ρ m' ρ' _ hagree
  refine ⟨fun c => fun _ => Cert.Mmd.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c =>
      ⟨(h c _ (mem_ucI Cert.KernelIdeal.main_v23 (by decide))).trans (Cert.KernelIdeal.Alg.W6_main_v23 m c),
       (h c _ (mem_ucI Cert.KernelIdeal.main_arg0 (by decide))).trans (Cert.KernelIdeal.Body.W6_main_arg0 m c),
       (h c _ (mem_ucI Cert.KernelIdeal.main_arg1 (by decide))).trans (Cert.KernelIdeal.Body.W6_main_arg1 m c)⟩)
      (Cert.KernelIdeal.Body.run_all (F := Ideal) m ρ)
  · exact (θ_run Cert.ReferenceIdeal.defs _ _).mono (fun r h c =>
      ⟨by rw [(h c).1, (hagree c).1, (hagree c).2]; rfl, (h c).2.1, (h c).2.2⟩)
      (Cert.ReferenceIdeal.RefValue.run m' ρ')

end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
